-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg13 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg9 : FVec F S64 .f32) (main_arg10 : FVec F S64 .f32) (main_arg11 : FVec F S64 .f32) (main_arg12 : FVec F S64x32 .f32) (main_arg13 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1000000 32) (main_arg2 : FVec F S1000000 .f32) (main_arg3 : IVec S100000 32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x32 .f32) (main_arg13 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 104
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S1000000x1, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S100000x64, .f32⟩
  | .hbm, ⟨32, _⟩ => ⟨S1000000x1, .i32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x64, .f32⟩
  | .hbm, ⟨61, _⟩ => ⟨S1000000x1, .f32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S1x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S100000x64, .f32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1000000x64, .f32⟩
  | .hbm, ⟨95, _⟩ => ⟨S1000000x1, .f32⟩
  | .hbm, ⟨96, _⟩ => ⟨S1000000x64, .f32⟩
  | .hbm, ⟨97, _⟩ => ⟨S1000000x64, .f32⟩
  | .hbm, ⟨98, _⟩ => ⟨S_, .f32⟩
  | .hbm, ⟨99, _⟩ => ⟨S100000x64, .f32⟩
  | .hbm, ⟨100, _⟩ => ⟨S1000000x1, .i32⟩
  | .hbm, ⟨101, _⟩ => ⟨S100000x64, .f32⟩
  | .hbm, ⟨102, _⟩ => ⟨S1x32, .f32⟩
  | .hbm, ⟨103, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x32, .f32⟩
  | .local _ .vmem, ⟨35, _⟩ => ⟨S1x32, .f32⟩
  | .local _ .vmem, ⟨36, _⟩ => ⟨S10000x32, .f32⟩
  | .local _ .vmem, ⟨37, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_v44_2 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v16) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44_0) S10000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_2) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S100000x64, .f32⟩
  | 1 => ⟨S2x1000000, .i32⟩
  | 2 => ⟨S1000000, .f32⟩
  | 3 => ⟨S100000, .i32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x32, .f32⟩
  | 13 => ⟨S32, .f32⟩
  | 14 => ⟨S1x1000000, .i32⟩
  | 15 => ⟨S1000000, .i32⟩
  | 16 => ⟨S1x1000000, .i32⟩
  | 17 => ⟨S1000000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x64, .f32⟩
  | 27 => ⟨S1000000x1, .f32⟩
  | 28 => ⟨S1000000x64, .f32⟩
  | 29 => ⟨S1000000x64, .f32⟩
  | 30 => ⟨S_, .f32⟩
  | 31 => ⟨S100000x64, .f32⟩
  | 32 => ⟨S1000000x1, .i32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S_, .f32⟩
  | 41 => ⟨S64, .f32⟩
  | 42 => ⟨S64, .f32⟩
  | 43 => ⟨S_, .i32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S100000x64, .f32⟩
  | 51 => ⟨S100000x64, .f32⟩
  | 52 => ⟨S100000x64, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S64, .f32⟩
  | 60 => ⟨S_, .f32⟩
  | 61 => ⟨S_, .i1⟩
  | 62 => ⟨S_, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .i1⟩
  | 85 => ⟨S_, .f32⟩
  | 86 => ⟨S100000x64, .f32⟩
  | 87 => ⟨S100000x64, .f32⟩
  | 88 => ⟨S100000x64, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S1000000x1, .f32⟩
  | 99 => ⟨S1000000x64, .f32⟩
  | 100 => ⟨S1000000x64, .f32⟩
  | 101 => ⟨S_, .f32⟩
  | 102 => ⟨S100000x64, .f32⟩
  | 103 => ⟨S1000000x1, .i32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S_, .i32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S_, .f32⟩
  | 126 => ⟨S_, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S64, .f32⟩
  | 3 => ⟨S_, .f32⟩
  | 4 => ⟨S_, .i1⟩
  | 5 => ⟨S_, .f32⟩
  | 6 => ⟨S_, .f32⟩
  | 7 => ⟨S64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S64, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .i1⟩
  | 28 => ⟨S_, .f32⟩
  | 29 => ⟨S100000x64, .f32⟩
  | 30 => ⟨S100000x64, .f32⟩
  | 31 => ⟨S100000x64, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S1000000x1, .f32⟩
  | 42 => ⟨S1000000x64, .f32⟩
  | 43 => ⟨S1000000x64, .f32⟩
  | 44 => ⟨S_, .f32⟩
  | 45 => ⟨S100000x64, .f32⟩
  | 46 => ⟨S1000000x1, .i32⟩
  | 47 => ⟨S100000x64, .f32⟩
  | 48 => ⟨S100000x32, .f32⟩
  | 49 => ⟨S1x32, .f32⟩
  | 50 => ⟨S100000x32, .f32⟩
  | 51 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_cst_3 : Ref sig .tc := ⟨.hbm, 60, rfl⟩
abbrev main_call0_v12 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_4 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_5 : Ref sig .tc := ⟨.hbm, 82, rfl⟩
abbrev main_v40 : Ref sig .tc := ⟨.hbm, 83, rfl⟩
abbrev main_v41 : Ref sig .tc := ⟨.hbm, 84, rfl⟩
abbrev main_cst_6 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_7 : Ref sig .tc := ⟨.hbm, 89, rfl⟩
abbrev main_v45 : Ref sig .tc := ⟨.hbm, 90, rfl⟩
abbrev main_v46 : Ref sig .tc := ⟨.hbm, 91, rfl⟩
abbrev main_c_8 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_9 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_10 : Ref sig .tc := ⟨.hbm, 109, rfl⟩
abbrev main_v62 : Ref sig .tc := ⟨.hbm, 110, rfl⟩
abbrev main_cst_11 : Ref sig .tc := ⟨.hbm, 111, rfl⟩
abbrev main_v63 : Ref sig .tc := ⟨.hbm, 112, rfl⟩
abbrev main_v64 : Ref sig .tc := ⟨.hbm, 113, rfl⟩
abbrev main_c_12 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_cst_3 : Ref sig .tc := ⟨.hbm, 131, rfl⟩
abbrev main_call2_v12 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_13 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_14 : Ref sig .tc := ⟨.hbm, 153, rfl⟩
abbrev main_v81 : Ref sig .tc := ⟨.hbm, 154, rfl⟩
abbrev main_v82 : Ref sig .tc := ⟨.hbm, 155, rfl⟩
abbrev main_cst_15 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_c_16 : Ref sig .tc := ⟨.hbm, 160, rfl⟩
abbrev main_v86 : Ref sig .tc := ⟨.hbm, 161, rfl⟩
abbrev main_v87 : Ref sig .tc := ⟨.hbm, 162, rfl⟩
abbrev main_c_17 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_cst_18 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KRun.lean ====
/-
  The idealized kernel's run with its result named: every weakly fair execution of @main terminates, the
  result array ends at the contents the last region's write-backs leave (the last boundary of the fold
  through @main's host stretches and regions), and the argument arrays end as launched.
-/
import proofs.«118196_j43138651521238_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's ten segments, read at the result array and at the arguments. -/
theorem run : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.KRun

end
-- ==== Proof.RefSpec.lean ====
/-
  The reference's computation, stage by stage, as whole-array functions at the extended reals: the
  weighted message passing (gather the source rows, scale each by its edge weight, add into the
  destination rows), the dense layer a·W + b, the column mean and the (population) column variance
  over the 100000 rows, and the normalise-scale-shift-leaky-rectify step.  Every stage is spelt with
  the reference's own host operations, so that the reference's run is their composition `refOut`.
-/
import proofs.«118196_j43138651521238_2_alg».proof.ReferenceIdeal
import proofs.«118196_j43138651521238_2_alg».proof.Proof.Gen.ReferenceIdeal
import Idealize.ShloMosaic.PureOps.Ideal

noncomputable section

namespace Cert.RefSpec

open Idealize.ShloMosaic Cert.ReferenceIdeal Cert.ReferenceIdeal.Facts₀

/-- A vector of 64 numbers as a one-row matrix. -/
def row (v : FVec Ideal S64 .f32) : FVec Ideal S1x64 .f32 :=
  broadcastInDim S1x64 ![1] bcast_S64_S1x64_1 v

/-- A one-row matrix repeated down all 100000 rows. -/
def rows (r : FVec Ideal S1x64 .f32) : FVec Ideal S100000x64 .f32 :=
  broadcastInDim S100000x64 ![0, 1] bcast_S1x64_S100000x64_0_1 r

/-- A vector of 32 numbers as a one-row matrix, and that row repeated down all 100000 rows. -/
def row32 (v : FVec Ideal S32 .f32) : FVec Ideal S1x32 .f32 :=
  broadcastInDim S1x32 ![1] bcast_S32_S1x32_1 v
def rows32 (r : FVec Ideal S1x32 .f32) : FVec Ideal S100000x32 .f32 :=
  broadcastInDim S100000x32 ![0, 1] bcast_S1x32_S100000x32_0_1 r

/-- Row `k` of the edge list (0: sources, 1: destinations) as a vector of edge endpoints. -/
def src (ei : IVec S2x1000000 32) : IVec S1000000 32 :=
  shapeCast S1000000 (extractStridedSlice S1x1000000 ![0, 0] ei slices_S2x1000000_S1x1000000_0_0) shapeCasts_S1x1000000_S1000000
def dst (ei : IVec S2x1000000 32) : IVec S1000000 32 :=
  shapeCast S1000000 (extractStridedSlice S1x1000000 ![1, 0] ei slices_S2x1000000_S1x1000000_1_0) shapeCasts_S1x1000000_S1000000

/-- Message passing over given endpoint vectors: out[d] = Σ over edges e with t[e] = d of w[e] · h[s[e]] (a negative
    source index wrapped by 100000 first, as jnp indexing does). -/
def propOf (h : FVec Ideal S100000x64 .f32) (s t : IVec S1000000 32) (w : FVec Ideal S1000000 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 t)
    (mulf
      (Host.gather gather_S100000x64_S1000000x1_S1000000x64_1_0_n_n_0_1_164 h
        (broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s)))
      (broadcastInDim S1000000x64 ![0, 1] bcast_S1000000x1_S1000000x64_0_1
        (broadcastInDim S1000000x1 ![0] bcast_S1000000_S1000000x1_0 w)))

/-- Message passing along the edge list `ei` (row 0 the sources, row 1 the destinations). -/
def prop (h : FVec Ideal S100000x64 .f32) (ei : IVec S2x1000000 32) (w : FVec Ideal S1000000 .f32) : FVec Ideal S100000x64 .f32 :=
  propOf h (src ei) (dst ei) w

/-- The dense layer a·W + b, 64 → 64 features. -/
def lin64 (a : FVec Ideal S100000x64 .f32) (W : FVec Ideal S64x64 .f32) (b : FVec Ideal S64 .f32) : FVec Ideal S100000x64 .f32 :=
  addf (Host.dotGeneral (F := Ideal) dot_S100000x64_S64x64_S100000x64_1_0_0_1_n_n none a W) (rows (row b))

/-- The dense layer a·W + b, 64 → 32 features. -/
def lin32 (a : FVec Ideal S100000x64 .f32) (W : FVec Ideal S64x32 .f32) (b : FVec Ideal S32 .f32) : FVec Ideal S100000x32 .f32 :=
  addf (Host.dotGeneral (F := Ideal) dot_S100000x64_S64x32_S100000x32_1_0_0_1_n_n none a W)
    (rows32 (row32 b))

/-- The column sums of a 100000 × 64 matrix. -/
def colSum (z : FVec Ideal S100000x64 .f32) : FVec Ideal S64 .f32 :=
  Host.reduceAdd (F := Ideal) z (constant (F := Ideal) S_ .f32 0x00000000#32) reducesTo_S100000x64_S64_d0 h_S_

/-- The column means: the column sums over 100000. -/
def mean (z : FVec Ideal S100000x64 .f32) : FVec Ideal S64 .f32 :=
  Host.divf (F := Ideal) (colSum z) (broadcastInDim S64 ![] bcast_S_S64 (constant (F := Ideal) S_ .f32 0x47C35000#32))

/-- The matrix centred column by column (the mean taken as a one-row matrix first, as jnp.var does). -/
def centred (z : FVec Ideal S100000x64 .f32) : FVec Ideal S100000x64 .f32 :=
  subf z (rows (Host.divf (F := Ideal) (row (colSum z))
    (broadcastInDim S1x64 ![] bcast_S_S1x64 (constant (F := Ideal) S_ .f32 0x47C35000#32))))

/-- The number of rows less the degrees of freedom `d`, as a float. -/
def dof (d : IVec S_ 32) : FVec Ideal S_ .f32 :=
  subf (constant (F := Ideal) S_ .f32 0x47C35000#32) (sitofp (F := Ideal) .f32 d)

/-- jnp.var along the rows with `d` degrees of freedom removed: the sum of the squared centred entries over
    100000 − d, or the NaN word where 100000 − d is not positive. -/
def varD (z : FVec Ideal S100000x64 .f32) (d : IVec S_ 32) : FVec Ideal S64 .f32 :=
  select (broadcastInDim S64 ![] bcast_S_S64 (cmpf .ogt (dof d) (constant (F := Ideal) S_ .f32 0x00000000#32)))
    (Host.divf (F := Ideal) (colSum (mulf (centred z) (centred z))) (broadcastInDim S64 ![] bcast_S_S64 (dof d)))
    (broadcastInDim S64 ![] bcast_S_S64 (id (constant (F := Ideal) S_ .f32 0x7FC00000#32)))

/-- The population variance of each column. -/
def var (z : FVec Ideal S100000x64 .f32) : FVec Ideal S64 .f32 := varD z (constantI S_ 32 0#32)

/-- Normalise with a given mean and variance, scale, shift, then the leaky rectifier with slope f32(0.01):
    y = (z − μ)·rsqrt(σ² + f32(1e-5))·γ + β, result y where y ≥ 0 and f32(0.01)·y elsewhere. -/
def normact (z : FVec Ideal S100000x64 .f32) (mu sigma2 g be : FVec Ideal S64 .f32) : FVec Ideal S100000x64 .f32 :=
  select
    (cmpf .oge
      (addf (mulf (mulf (subf z (rows (row mu)))
          (rows (row (Host.rsqrt (F := Ideal) (addf sigma2 (broadcastInDim S64 ![] bcast_S_S64 (constant (F := Ideal) S_ .f32 0x3727C5AC#32)))))))
          (rows (row g))) (rows (row be)))
      (broadcastInDim S100000x64 ![] bcast_S_S100000x64 (constant (F := Ideal) S_ .f32 0x00000000#32)))
    (addf (mulf (mulf (subf z (rows (row mu)))
          (rows (row (Host.rsqrt (F := Ideal) (addf sigma2 (broadcastInDim S64 ![] bcast_S_S64 (constant (F := Ideal) S_ .f32 0x3727C5AC#32)))))))
          (rows (row g))) (rows (row be)))
    (mulf (broadcastInDim S100000x64 ![] bcast_S_S100000x64 (constant (F := Ideal) S_ .f32 0x3C23D70A#32))
      (addf (mulf (mulf (subf z (rows (row mu)))
          (rows (row (Host.rsqrt (F := Ideal) (addf sigma2 (broadcastInDim S64 ![] bcast_S_S64 (constant (F := Ideal) S_ .f32 0x3727C5AC#32)))))))
          (rows (row g))) (rows (row be))))

/-- Batch normalisation over the rows (training mode) followed by the leaky rectifier. -/
def bnact (z : FVec Ideal S100000x64 .f32) (g be : FVec Ideal S64 .f32) : FVec Ideal S100000x64 .f32 :=
  normact z (mean z) (var z) g be

/-- The reference's result as one function of its arguments: three rounds of message passing and a dense
    layer, the first two followed by batch normalisation and the leaky rectifier. -/
def refOut (x : FVec Ideal S100000x64 .f32) (ei : IVec S2x1000000 32) (w : FVec Ideal S1000000 .f32)
    (W1 : FVec Ideal S64x64 .f32) (b1 g1 be1 : FVec Ideal S64 .f32)
    (W2 : FVec Ideal S64x64 .f32) (b2 g2 be2 : FVec Ideal S64 .f32)
    (W3 : FVec Ideal S64x32 .f32) (b3 : FVec Ideal S32 .f32) : FVec Ideal S100000x32 .f32 :=
  lin32 (prop (bnact (lin64 (prop (bnact (lin64 (prop x ei w) W1 b1) g1 be1) ei w) W2 b2) g2 be2) ei w) W3 b3

end Cert.RefSpec

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«118196_j43138651521238_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.KHost.lean ====
/-
  The idealized kernel's host stretches read back: what each stretch of host operations between two kernel launches
  leaves in the buffers the next launch (or a later stretch) reads, as the reference's stage functions of the buffers
  it starts from; and the buffers no stretch and no launch writes, kept from the launch of @main.
-/
import proofs.«118196_j43138651521238_2_alg».proof.Proof.Gen.KernelIdeal.Frame
import proofs.«118196_j43138651521238_2_alg».proof.Proof.RefSpec
import proofs.«118196_j43138651521238_2_alg».proof.Proof.LibDenseLayer
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

-- on both sides the scatter-add and the gather are one function applied to equal arguments
attribute [local irreducible] Host.scatterAdd Host.gather

/-- The two programs' records of the message-passing scatter and gather are one record. -/
theorem scatter_eq : scatter_S100000x64_S1000000x1_S1000000x64_1_0_0_1 = Cert.ReferenceIdeal.scatter_S100000x64_S1000000x1_S1000000x64_1_0_0_1 := rfl
theorem gather_eq : gather_S100000x64_S1000000x1_S1000000x64_1_0_n_n_0_1_164 = Cert.ReferenceIdeal.gather_S100000x64_S1000000x1_S1000000x64_1_0_n_n_0_1_164 := rfl

/-- A vector of 64 numbers reshaped to one row is the reference's one-row form of it. -/
theorem cast_row (v : FVec Ideal S64 .f32) (h : S64.ShapeCasts S1x64) : shapeCast S1x64 v h = Cert.RefSpec.row v :=
  Cert.Lib.DenseLayer.addUnit_eq_bcast (by decide) v h _
theorem cast_row32 (v : FVec Ideal S32 .f32) (h : S32.ShapeCasts S1x32) : shapeCast S1x32 v h = Cert.RefSpec.row32 v :=
  Cert.Lib.DenseLayer.addUnit_eq_bcast (by decide) v h _

/-! ## Stretch 0: the first round of message passing -/

set_option maxHeartbeats 4000000 in
theorem W1_v16 : W1 m ρ c (Proc.devRef .tc main_v16) = Cert.RefSpec.prop (m ((c : Thread nD τ).loc main_arg0)) (m ((c : Thread nD τ).loc main_arg1)) (m ((c : Thread nD τ).loc main_arg2)) := by
  show StableHlo.after (hostOps0 (F := Ideal)) (W0 m ρ c) (Proc.devRef .tc main_v16) = _
  after_results_simp
  rw [scatter_eq, gather_eq]
  rfl
theorem W1_v17 : W1 m ρ c (Proc.devRef .tc main_v17) = Cert.RefSpec.row (m ((c : Thread nD τ).loc main_arg5)) := by
  show StableHlo.after (hostOps0 (F := Ideal)) (W0 m ρ c) (Proc.devRef .tc main_v17) = _
  after_results
  exact cast_row _ _
theorem W1_main_v1 : W1 m ρ c (Proc.devRef .tc main_v1) = Cert.RefSpec.src (m ((c : Thread nD τ).loc main_arg1)) := by
  show StableHlo.after (hostOps0 (F := Ideal)) (W0 m ρ c) (Proc.devRef .tc main_v1) = _
  after_results <;> rfl
theorem W1_main_v3 : W1 m ρ c (Proc.devRef .tc main_v3) = Cert.RefSpec.dst (m ((c : Thread nD τ).loc main_arg1)) := by
  show StableHlo.after (hostOps0 (F := Ideal)) (W0 m ρ c) (Proc.devRef .tc main_v3) = _
  after_results <;> rfl
theorem W1_main_arg2 : W1 m ρ c (Proc.devRef .tc main_arg2) = (m ((c : Thread nD τ).loc main_arg2)) := by
  show StableHlo.after (hostOps0 (F := Ideal)) (W0 m ρ c) (Proc.devRef .tc main_arg2) = _
  after_results <;> rfl
theorem W1_main_arg6 : W1 m ρ c (Proc.devRef .tc main_arg6) = (m ((c : Thread nD τ).loc main_arg6)) := by
  show StableHlo.after (hostOps0 (F := Ideal)) (W0 m ρ c) (Proc.devRef .tc main_arg6) = _
  after_results <;> rfl
theorem W1_main_arg7 : W1 m ρ c (Proc.devRef .tc main_arg7) = (m ((c : Thread nD τ).loc main_arg7)) := by
  show StableHlo.after (hostOps0 (F := Ideal)) (W0 m ρ c) (Proc.devRef .tc main_arg7) = _
  after_results <;> rfl
theorem W1_main_arg8 : W1 m ρ c (Proc.devRef .tc main_arg8) = (m ((c : Thread nD τ).loc main_arg8)) := by
  show StableHlo.after (hostOps0 (F := Ideal)) (W0 m ρ c) (Proc.devRef .tc main_arg8) = _
  after_results <;> rfl
theorem W1_main_arg9 : W1 m ρ c (Proc.devRef .tc main_arg9) = (m ((c : Thread nD τ).loc main_arg9)) := by
  show StableHlo.after (hostOps0 (F := Ideal)) (W0 m ρ c) (Proc.devRef .tc main_arg9) = _
  after_results <;> rfl
theorem W1_main_arg10 : W1 m ρ c (Proc.devRef .tc main_arg10) = (m ((c : Thread nD τ).loc main_arg10)) := by
  show StableHlo.after (hostOps0 (F := Ideal)) (W0 m ρ c) (Proc.devRef .tc main_arg10) = _
  after_results <;> rfl
theorem W1_main_arg11 : W1 m ρ c (Proc.devRef .tc main_arg11) = (m ((c : Thread nD τ).loc main_arg11)) := by
  show StableHlo.after (hostOps0 (F := Ideal)) (W0 m ρ c) (Proc.devRef .tc main_arg11) = _
  after_results <;> rfl
theorem W1_main_arg12 : W1 m ρ c (Proc.devRef .tc main_arg12) = (m ((c : Thread nD τ).loc main_arg12)) := by
  show StableHlo.after (hostOps0 (F := Ideal)) (W0 m ρ c) (Proc.devRef .tc main_arg12) = _
  after_results <;> rfl
theorem W1_main_arg13 : W1 m ρ c (Proc.devRef .tc main_arg13) = (m ((c : Thread nD τ).loc main_arg13)) := by
  show StableHlo.after (hostOps0 (F := Ideal)) (W0 m ρ c) (Proc.devRef .tc main_arg13) = _
  after_results <;> rfl
theorem W1_main_arg4 : W1 m ρ c (Proc.devRef .tc main_arg4) = (m ((c : Thread nD τ).loc main_arg4)) := by
  show StableHlo.after (hostOps0 (F := Ideal)) (W0 m ρ c) (Proc.devRef .tc main_arg4) = _
  after_results <;> rfl
theorem W1_main_arg5 : W1 m ρ c (Proc.devRef .tc main_arg5) = (m ((c : Thread nD τ).loc main_arg5)) := by
  show StableHlo.after (hostOps0 (F := Ideal)) (W0 m ρ c) (Proc.devRef .tc main_arg5) = _
  after_results <;> rfl

/-! ## Boundary 2 -/

theorem W2_main_v1 : W2 m ρ c (Proc.devRef .tc main_v1) = Cert.RefSpec.src (m ((c : Thread nD τ).loc main_arg1)) := (W2_of_ne m ρ c main_v1 (by decide)).trans (W1_main_v1 m ρ c)
theorem W2_main_v3 : W2 m ρ c (Proc.devRef .tc main_v3) = Cert.RefSpec.dst (m ((c : Thread nD τ).loc main_arg1)) := (W2_of_ne m ρ c main_v3 (by decide)).trans (W1_main_v3 m ρ c)
theorem W2_main_arg2 : W2 m ρ c (Proc.devRef .tc main_arg2) = (m ((c : Thread nD τ).loc main_arg2)) := (W2_of_ne m ρ c main_arg2 (by decide)).trans (W1_main_arg2 m ρ c)
theorem W2_main_arg6 : W2 m ρ c (Proc.devRef .tc main_arg6) = (m ((c : Thread nD τ).loc main_arg6)) := (W2_of_ne m ρ c main_arg6 (by decide)).trans (W1_main_arg6 m ρ c)
theorem W2_main_arg7 : W2 m ρ c (Proc.devRef .tc main_arg7) = (m ((c : Thread nD τ).loc main_arg7)) := (W2_of_ne m ρ c main_arg7 (by decide)).trans (W1_main_arg7 m ρ c)
theorem W2_main_arg8 : W2 m ρ c (Proc.devRef .tc main_arg8) = (m ((c : Thread nD τ).loc main_arg8)) := (W2_of_ne m ρ c main_arg8 (by decide)).trans (W1_main_arg8 m ρ c)
theorem W2_main_arg9 : W2 m ρ c (Proc.devRef .tc main_arg9) = (m ((c : Thread nD τ).loc main_arg9)) := (W2_of_ne m ρ c main_arg9 (by decide)).trans (W1_main_arg9 m ρ c)
theorem W2_main_arg10 : W2 m ρ c (Proc.devRef .tc main_arg10) = (m ((c : Thread nD τ).loc main_arg10)) := (W2_of_ne m ρ c main_arg10 (by decide)).trans (W1_main_arg10 m ρ c)
theorem W2_main_arg11 : W2 m ρ c (Proc.devRef .tc main_arg11) = (m ((c : Thread nD τ).loc main_arg11)) := (W2_of_ne m ρ c main_arg11 (by decide)).trans (W1_main_arg11 m ρ c)
theorem W2_main_arg12 : W2 m ρ c (Proc.devRef .tc main_arg12) = (m ((c : Thread nD τ).loc main_arg12)) := (W2_of_ne m ρ c main_arg12 (by decide)).trans (W1_main_arg12 m ρ c)
theorem W2_main_arg13 : W2 m ρ c (Proc.devRef .tc main_arg13) = (m ((c : Thread nD τ).loc main_arg13)) := (W2_of_ne m ρ c main_arg13 (by decide)).trans (W1_main_arg13 m ρ c)

/-! ## Boundary 3 -/

theorem W3_main_v1 : W3 m ρ c (Proc.devRef .tc main_v1) = Cert.RefSpec.src (m ((c : Thread nD τ).loc main_arg1)) :=
  (by show StableHlo.after (hostOps1 (F := Ideal)) (W2 m ρ c) (Proc.devRef .tc main_v1) = _; after_results : W3 m ρ c (Proc.devRef .tc main_v1) = W2 m ρ c (Proc.devRef .tc main_v1)).trans (W2_main_v1 m ρ c)
theorem W3_main_v3 : W3 m ρ c (Proc.devRef .tc main_v3) = Cert.RefSpec.dst (m ((c : Thread nD τ).loc main_arg1)) :=
  (by show StableHlo.after (hostOps1 (F := Ideal)) (W2 m ρ c) (Proc.devRef .tc main_v3) = _; after_results : W3 m ρ c (Proc.devRef .tc main_v3) = W2 m ρ c (Proc.devRef .tc main_v3)).trans (W2_main_v3 m ρ c)
theorem W3_main_arg2 : W3 m ρ c (Proc.devRef .tc main_arg2) = (m ((c : Thread nD τ).loc main_arg2)) :=
  (by show StableHlo.after (hostOps1 (F := Ideal)) (W2 m ρ c) (Proc.devRef .tc main_arg2) = _; after_results : W3 m ρ c (Proc.devRef .tc main_arg2) = W2 m ρ c (Proc.devRef .tc main_arg2)).trans (W2_main_arg2 m ρ c)
theorem W3_main_arg8 : W3 m ρ c (Proc.devRef .tc main_arg8) = (m ((c : Thread nD τ).loc main_arg8)) :=
  (by show StableHlo.after (hostOps1 (F := Ideal)) (W2 m ρ c) (Proc.devRef .tc main_arg8) = _; after_results : W3 m ρ c (Proc.devRef .tc main_arg8) = W2 m ρ c (Proc.devRef .tc main_arg8)).trans (W2_main_arg8 m ρ c)
theorem W3_main_arg9 : W3 m ρ c (Proc.devRef .tc main_arg9) = (m ((c : Thread nD τ).loc main_arg9)) :=
  (by show StableHlo.after (hostOps1 (F := Ideal)) (W2 m ρ c) (Proc.devRef .tc main_arg9) = _; after_results : W3 m ρ c (Proc.devRef .tc main_arg9) = W2 m ρ c (Proc.devRef .tc main_arg9)).trans (W2_main_arg9 m ρ c)
theorem W3_main_arg10 : W3 m ρ c (Proc.devRef .tc main_arg10) = (m ((c : Thread nD τ).loc main_arg10)) :=
  (by show StableHlo.after (hostOps1 (F := Ideal)) (W2 m ρ c) (Proc.devRef .tc main_arg10) = _; after_results : W3 m ρ c (Proc.devRef .tc main_arg10) = W2 m ρ c (Proc.devRef .tc main_arg10)).trans (W2_main_arg10 m ρ c)
theorem W3_main_arg11 : W3 m ρ c (Proc.devRef .tc main_arg11) = (m ((c : Thread nD τ).loc main_arg11)) :=
  (by show StableHlo.after (hostOps1 (F := Ideal)) (W2 m ρ c) (Proc.devRef .tc main_arg11) = _; after_results : W3 m ρ c (Proc.devRef .tc main_arg11) = W2 m ρ c (Proc.devRef .tc main_arg11)).trans (W2_main_arg11 m ρ c)
theorem W3_main_arg12 : W3 m ρ c (Proc.devRef .tc main_arg12) = (m ((c : Thread nD τ).loc main_arg12)) :=
  (by show StableHlo.after (hostOps1 (F := Ideal)) (W2 m ρ c) (Proc.devRef .tc main_arg12) = _; after_results : W3 m ρ c (Proc.devRef .tc main_arg12) = W2 m ρ c (Proc.devRef .tc main_arg12)).trans (W2_main_arg12 m ρ c)
theorem W3_main_arg13 : W3 m ρ c (Proc.devRef .tc main_arg13) = (m ((c : Thread nD τ).loc main_arg13)) :=
  (by show StableHlo.after (hostOps1 (F := Ideal)) (W2 m ρ c) (Proc.devRef .tc main_arg13) = _; after_results : W3 m ρ c (Proc.devRef .tc main_arg13) = W2 m ρ c (Proc.devRef .tc main_arg13)).trans (W2_main_arg13 m ρ c)
theorem W3_z : W3 m ρ c (Proc.devRef .tc main_v18_0) = W2 m ρ c (Proc.devRef .tc main_v18_0) := by
  show StableHlo.after (hostOps1 (F := Ideal)) (W2 m ρ c) (Proc.devRef .tc main_v18_0) = _
  after_results
theorem W3_mu : W3 m ρ c (Proc.devRef .tc main_v20) = (Host.divf (F := Ideal) (W2 m ρ c (Proc.devRef .tc main_v18_1)) (broadcastInDim S1x64 ![] Facts₀.bcast_S_S1x64 (constant (F := Ideal) S_ .f32 0x47C35000#32))) := by
  show StableHlo.after (hostOps1 (F := Ideal)) (W2 m ρ c) (Proc.devRef .tc main_v20) = _
  after_results <;> rfl
theorem W3_var : W3 m ρ c (Proc.devRef .tc main_v26) = maximumf (subf (Host.divf (F := Ideal) (W2 m ρ c (Proc.devRef .tc main_v18_2)) (broadcastInDim S1x64 ![] Facts₀.bcast_S_S1x64 (constant (F := Ideal) S_ .f32 0x47C35000#32))) (mulf (Host.divf (F := Ideal) (W2 m ρ c (Proc.devRef .tc main_v18_1)) (broadcastInDim S1x64 ![] Facts₀.bcast_S_S1x64 (constant (F := Ideal) S_ .f32 0x47C35000#32))) (Host.divf (F := Ideal) (W2 m ρ c (Proc.devRef .tc main_v18_1)) (broadcastInDim S1x64 ![] Facts₀.bcast_S_S1x64 (constant (F := Ideal) S_ .f32 0x47C35000#32))))) (broadcastInDim S1x64 ![] Facts₀.bcast_S_S1x64 (constant (F := Ideal) S_ .f32 0x00000000#32)) := by
  show StableHlo.after (hostOps1 (F := Ideal)) (W2 m ρ c) (Proc.devRef .tc main_v26) = _
  after_results <;> rfl
theorem W3_g : W3 m ρ c (Proc.devRef .tc main_v27) = Cert.RefSpec.row (m ((c : Thread nD τ).loc main_arg6)) := by
  show StableHlo.after (hostOps1 (F := Ideal)) (W2 m ρ c) (Proc.devRef .tc main_v27) = _
  after_results
  rw [W2_main_arg6 m ρ c]
  exact cast_row _ _
theorem W3_be : W3 m ρ c (Proc.devRef .tc main_v28) = Cert.RefSpec.row (m ((c : Thread nD τ).loc main_arg7)) := by
  show StableHlo.after (hostOps1 (F := Ideal)) (W2 m ρ c) (Proc.devRef .tc main_v28) = _
  after_results
  rw [W2_main_arg7 m ρ c]
  exact cast_row _ _

/-! ## Boundary 4 -/

theorem W4_main_v1 : W4 m ρ c (Proc.devRef .tc main_v1) = Cert.RefSpec.src (m ((c : Thread nD τ).loc main_arg1)) := (W4_of_ne m ρ c main_v1 (by decide)).trans (W3_main_v1 m ρ c)
theorem W4_main_v3 : W4 m ρ c (Proc.devRef .tc main_v3) = Cert.RefSpec.dst (m ((c : Thread nD τ).loc main_arg1)) := (W4_of_ne m ρ c main_v3 (by decide)).trans (W3_main_v3 m ρ c)
theorem W4_main_arg2 : W4 m ρ c (Proc.devRef .tc main_arg2) = (m ((c : Thread nD τ).loc main_arg2)) := (W4_of_ne m ρ c main_arg2 (by decide)).trans (W3_main_arg2 m ρ c)
theorem W4_main_arg8 : W4 m ρ c (Proc.devRef .tc main_arg8) = (m ((c : Thread nD τ).loc main_arg8)) := (W4_of_ne m ρ c main_arg8 (by decide)).trans (W3_main_arg8 m ρ c)
theorem W4_main_arg9 : W4 m ρ c (Proc.devRef .tc main_arg9) = (m ((c : Thread nD τ).loc main_arg9)) := (W4_of_ne m ρ c main_arg9 (by decide)).trans (W3_main_arg9 m ρ c)
theorem W4_main_arg10 : W4 m ρ c (Proc.devRef .tc main_arg10) = (m ((c : Thread nD τ).loc main_arg10)) := (W4_of_ne m ρ c main_arg10 (by decide)).trans (W3_main_arg10 m ρ c)
theorem W4_main_arg11 : W4 m ρ c (Proc.devRef .tc main_arg11) = (m ((c : Thread nD τ).loc main_arg11)) := (W4_of_ne m ρ c main_arg11 (by decide)).trans (W3_main_arg11 m ρ c)
theorem W4_main_arg12 : W4 m ρ c (Proc.devRef .tc main_arg12) = (m ((c : Thread nD τ).loc main_arg12)) := (W4_of_ne m ρ c main_arg12 (by decide)).trans (W3_main_arg12 m ρ c)
theorem W4_main_arg13 : W4 m ρ c (Proc.devRef .tc main_arg13) = (m ((c : Thread nD τ).loc main_arg13)) := (W4_of_ne m ρ c main_arg13 (by decide)).trans (W3_main_arg13 m ρ c)

/-! ## Boundary 5 -/

theorem W5_main_v1 : W5 m ρ c (Proc.devRef .tc main_v1) = Cert.RefSpec.src (m ((c : Thread nD τ).loc main_arg1)) :=
  (by show StableHlo.after (hostOps2 (F := Ideal)) (W4 m ρ c) (Proc.devRef .tc main_v1) = _; after_results : W5 m ρ c (Proc.devRef .tc main_v1) = W4 m ρ c (Proc.devRef .tc main_v1)).trans (W4_main_v1 m ρ c)
theorem W5_main_v3 : W5 m ρ c (Proc.devRef .tc main_v3) = Cert.RefSpec.dst (m ((c : Thread nD τ).loc main_arg1)) :=
  (by show StableHlo.after (hostOps2 (F := Ideal)) (W4 m ρ c) (Proc.devRef .tc main_v3) = _; after_results : W5 m ρ c (Proc.devRef .tc main_v3) = W4 m ρ c (Proc.devRef .tc main_v3)).trans (W4_main_v3 m ρ c)
theorem W5_main_arg2 : W5 m ρ c (Proc.devRef .tc main_arg2) = (m ((c : Thread nD τ).loc main_arg2)) :=
  (by show StableHlo.after (hostOps2 (F := Ideal)) (W4 m ρ c) (Proc.devRef .tc main_arg2) = _; after_results : W5 m ρ c (Proc.devRef .tc main_arg2) = W4 m ρ c (Proc.devRef .tc main_arg2)).trans (W4_main_arg2 m ρ c)
theorem W5_main_arg10 : W5 m ρ c (Proc.devRef .tc main_arg10) = (m ((c : Thread nD τ).loc main_arg10)) :=
  (by show StableHlo.after (hostOps2 (F := Ideal)) (W4 m ρ c) (Proc.devRef .tc main_arg10) = _; after_results : W5 m ρ c (Proc.devRef .tc main_arg10) = W4 m ρ c (Proc.devRef .tc main_arg10)).trans (W4_main_arg10 m ρ c)
theorem W5_main_arg11 : W5 m ρ c (Proc.devRef .tc main_arg11) = (m ((c : Thread nD τ).loc main_arg11)) :=
  (by show StableHlo.after (hostOps2 (F := Ideal)) (W4 m ρ c) (Proc.devRef .tc main_arg11) = _; after_results : W5 m ρ c (Proc.devRef .tc main_arg11) = W4 m ρ c (Proc.devRef .tc main_arg11)).trans (W4_main_arg11 m ρ c)
theorem W5_main_arg12 : W5 m ρ c (Proc.devRef .tc main_arg12) = (m ((c : Thread nD τ).loc main_arg12)) :=
  (by show StableHlo.after (hostOps2 (F := Ideal)) (W4 m ρ c) (Proc.devRef .tc main_arg12) = _; after_results : W5 m ρ c (Proc.devRef .tc main_arg12) = W4 m ρ c (Proc.devRef .tc main_arg12)).trans (W4_main_arg12 m ρ c)
theorem W5_main_arg13 : W5 m ρ c (Proc.devRef .tc main_arg13) = (m ((c : Thread nD τ).loc main_arg13)) :=
  (by show StableHlo.after (hostOps2 (F := Ideal)) (W4 m ρ c) (Proc.devRef .tc main_arg13) = _; after_results : W5 m ρ c (Proc.devRef .tc main_arg13) = W4 m ρ c (Proc.devRef .tc main_arg13)).trans (W4_main_arg13 m ρ c)

/-! ## Boundary 6 -/

theorem W6_main_v1 : W6 m ρ c (Proc.devRef .tc main_v1) = Cert.RefSpec.src (m ((c : Thread nD τ).loc main_arg1)) := (W6_of_ne m ρ c main_v1 (by decide)).trans (W5_main_v1 m ρ c)
theorem W6_main_v3 : W6 m ρ c (Proc.devRef .tc main_v3) = Cert.RefSpec.dst (m ((c : Thread nD τ).loc main_arg1)) := (W6_of_ne m ρ c main_v3 (by decide)).trans (W5_main_v3 m ρ c)
theorem W6_main_arg2 : W6 m ρ c (Proc.devRef .tc main_arg2) = (m ((c : Thread nD τ).loc main_arg2)) := (W6_of_ne m ρ c main_arg2 (by decide)).trans (W5_main_arg2 m ρ c)
theorem W6_main_arg10 : W6 m ρ c (Proc.devRef .tc main_arg10) = (m ((c : Thread nD τ).loc main_arg10)) := (W6_of_ne m ρ c main_arg10 (by decide)).trans (W5_main_arg10 m ρ c)
theorem W6_main_arg11 : W6 m ρ c (Proc.devRef .tc main_arg11) = (m ((c : Thread nD τ).loc main_arg11)) := (W6_of_ne m ρ c main_arg11 (by decide)).trans (W5_main_arg11 m ρ c)
theorem W6_main_arg12 : W6 m ρ c (Proc.devRef .tc main_arg12) = (m ((c : Thread nD τ).loc main_arg12)) := (W6_of_ne m ρ c main_arg12 (by decide)).trans (W5_main_arg12 m ρ c)
theorem W6_main_arg13 : W6 m ρ c (Proc.devRef .tc main_arg13) = (m ((c : Thread nD τ).loc main_arg13)) := (W6_of_ne m ρ c main_arg13 (by decide)).trans (W5_main_arg13 m ρ c)

/-! ## Boundary 7 -/

theorem W7_main_v1 : W7 m ρ c (Proc.devRef .tc main_v1) = Cert.RefSpec.src (m ((c : Thread nD τ).loc main_arg1)) :=
  (by show StableHlo.after (hostOps3 (F := Ideal)) (W6 m ρ c) (Proc.devRef .tc main_v1) = _; after_results : W7 m ρ c (Proc.devRef .tc main_v1) = W6 m ρ c (Proc.devRef .tc main_v1)).trans (W6_main_v1 m ρ c)
theorem W7_main_v3 : W7 m ρ c (Proc.devRef .tc main_v3) = Cert.RefSpec.dst (m ((c : Thread nD τ).loc main_arg1)) :=
  (by show StableHlo.after (hostOps3 (F := Ideal)) (W6 m ρ c) (Proc.devRef .tc main_v3) = _; after_results : W7 m ρ c (Proc.devRef .tc main_v3) = W6 m ρ c (Proc.devRef .tc main_v3)).trans (W6_main_v3 m ρ c)
theorem W7_main_arg2 : W7 m ρ c (Proc.devRef .tc main_arg2) = (m ((c : Thread nD τ).loc main_arg2)) :=
  (by show StableHlo.after (hostOps3 (F := Ideal)) (W6 m ρ c) (Proc.devRef .tc main_arg2) = _; after_results : W7 m ρ c (Proc.devRef .tc main_arg2) = W6 m ρ c (Proc.devRef .tc main_arg2)).trans (W6_main_arg2 m ρ c)
theorem W7_main_arg12 : W7 m ρ c (Proc.devRef .tc main_arg12) = (m ((c : Thread nD τ).loc main_arg12)) :=
  (by show StableHlo.after (hostOps3 (F := Ideal)) (W6 m ρ c) (Proc.devRef .tc main_arg12) = _; after_results : W7 m ρ c (Proc.devRef .tc main_arg12) = W6 m ρ c (Proc.devRef .tc main_arg12)).trans (W6_main_arg12 m ρ c)
theorem W7_main_arg13 : W7 m ρ c (Proc.devRef .tc main_arg13) = (m ((c : Thread nD τ).loc main_arg13)) :=
  (by show StableHlo.after (hostOps3 (F := Ideal)) (W6 m ρ c) (Proc.devRef .tc main_arg13) = _; after_results : W7 m ρ c (Proc.devRef .tc main_arg13) = W6 m ρ c (Proc.devRef .tc main_arg13)).trans (W6_main_arg13 m ρ c)
theorem W7_z : W7 m ρ c (Proc.devRef .tc main_v44_0) = W6 m ρ c (Proc.devRef .tc main_v44_0) := by
  show StableHlo.after (hostOps3 (F := Ideal)) (W6 m ρ c) (Proc.devRef .tc main_v44_0) = _
  after_results
theorem W7_mu : W7 m ρ c (Proc.devRef .tc main_v46) = (Host.divf (F := Ideal) (W6 m ρ c (Proc.devRef .tc main_v44_1)) (broadcastInDim S1x64 ![] Facts₀.bcast_S_S1x64 (constant (F := Ideal) S_ .f32 0x47C35000#32))) := by
  show StableHlo.after (hostOps3 (F := Ideal)) (W6 m ρ c) (Proc.devRef .tc main_v46) = _
  after_results <;> rfl
theorem W7_var : W7 m ρ c (Proc.devRef .tc main_v52) = maximumf (subf (Host.divf (F := Ideal) (W6 m ρ c (Proc.devRef .tc main_v44_2)) (broadcastInDim S1x64 ![] Facts₀.bcast_S_S1x64 (constant (F := Ideal) S_ .f32 0x47C35000#32))) (mulf (Host.divf (F := Ideal) (W6 m ρ c (Proc.devRef .tc main_v44_1)) (broadcastInDim S1x64 ![] Facts₀.bcast_S_S1x64 (constant (F := Ideal) S_ .f32 0x47C35000#32))) (Host.divf (F := Ideal) (W6 m ρ c (Proc.devRef .tc main_v44_1)) (broadcastInDim S1x64 ![] Facts₀.bcast_S_S1x64 (constant (F := Ideal) S_ .f32 0x47C35000#32))))) (broadcastInDim S1x64 ![] Facts₀.bcast_S_S1x64 (constant (F := Ideal) S_ .f32 0x00000000#32)) := by
  show StableHlo.after (hostOps3 (F := Ideal)) (W6 m ρ c) (Proc.devRef .tc main_v52) = _
  after_results <;> rfl
theorem W7_g : W7 m ρ c (Proc.devRef .tc main_v53) = Cert.RefSpec.row (m ((c : Thread nD τ).loc main_arg10)) := by
  show StableHlo.after (hostOps3 (F := Ideal)) (W6 m ρ c) (Proc.devRef .tc main_v53) = _
  after_results
  rw [W6_main_arg10 m ρ c]
  exact cast_row _ _
theorem W7_be : W7 m ρ c (Proc.devRef .tc main_v54) = Cert.RefSpec.row (m ((c : Thread nD τ).loc main_arg11)) := by
  show StableHlo.after (hostOps3 (F := Ideal)) (W6 m ρ c) (Proc.devRef .tc main_v54) = _
  after_results
  rw [W6_main_arg11 m ρ c]
  exact cast_row _ _

/-! ## Boundary 8 -/

theorem W8_main_v1 : W8 m ρ c (Proc.devRef .tc main_v1) = Cert.RefSpec.src (m ((c : Thread nD τ).loc main_arg1)) := (W8_of_ne m ρ c main_v1 (by decide)).trans (W7_main_v1 m ρ c)
theorem W8_main_v3 : W8 m ρ c (Proc.devRef .tc main_v3) = Cert.RefSpec.dst (m ((c : Thread nD τ).loc main_arg1)) := (W8_of_ne m ρ c main_v3 (by decide)).trans (W7_main_v3 m ρ c)
theorem W8_main_arg2 : W8 m ρ c (Proc.devRef .tc main_arg2) = (m ((c : Thread nD τ).loc main_arg2)) := (W8_of_ne m ρ c main_arg2 (by decide)).trans (W7_main_arg2 m ρ c)
theorem W8_main_arg12 : W8 m ρ c (Proc.devRef .tc main_arg12) = (m ((c : Thread nD τ).loc main_arg12)) := (W8_of_ne m ρ c main_arg12 (by decide)).trans (W7_main_arg12 m ρ c)
theorem W8_main_arg13 : W8 m ρ c (Proc.devRef .tc main_arg13) = (m ((c : Thread nD τ).loc main_arg13)) := (W8_of_ne m ρ c main_arg13 (by decide)).trans (W7_main_arg13 m ρ c)
set_option maxHeartbeats 4000000 in
theorem W5_agg : W5 m ρ c (Proc.devRef .tc main_v42) = Cert.RefSpec.prop (W4 m ρ c (Proc.devRef .tc main_v29)) (m ((c : Thread nD τ).loc main_arg1)) (m ((c : Thread nD τ).loc main_arg2)) := by
  show StableHlo.after (hostOps2 (F := Ideal)) (W4 m ρ c) (Proc.devRef .tc main_v42) = _
  after_results_simp
  rw [W4_main_v1 m ρ c, W4_main_v3 m ρ c, W4_main_arg2 m ρ c, scatter_eq, gather_eq]
  rfl
theorem W5_bias : W5 m ρ c (Proc.devRef .tc main_v43) = Cert.RefSpec.row (m ((c : Thread nD τ).loc main_arg9)) := by
  show StableHlo.after (hostOps2 (F := Ideal)) (W4 m ρ c) (Proc.devRef .tc main_v43) = _
  after_results
  rw [W4_main_arg9 m ρ c]
  exact cast_row _ _
theorem W5_w : W5 m ρ c (Proc.devRef .tc main_arg8) = (m ((c : Thread nD τ).loc main_arg8)) :=
  (by show StableHlo.after (hostOps2 (F := Ideal)) (W4 m ρ c) (Proc.devRef .tc main_arg8) = _; after_results : W5 m ρ c (Proc.devRef .tc main_arg8) = W4 m ρ c (Proc.devRef .tc main_arg8)).trans (W4_main_arg8 m ρ c)

/-! ## Boundary 9 -/

set_option maxHeartbeats 4000000 in
theorem W9_agg : W9 m ρ c (Proc.devRef .tc main_v68) = Cert.RefSpec.prop (W8 m ρ c (Proc.devRef .tc main_v55)) (m ((c : Thread nD τ).loc main_arg1)) (m ((c : Thread nD τ).loc main_arg2)) := by
  show StableHlo.after (hostOps4 (F := Ideal)) (W8 m ρ c) (Proc.devRef .tc main_v68) = _
  after_results_simp
  rw [W8_main_v1 m ρ c, W8_main_v3 m ρ c, W8_main_arg2 m ρ c, scatter_eq, gather_eq]
  rfl
theorem W9_bias : W9 m ρ c (Proc.devRef .tc main_v69) = Cert.RefSpec.row32 (m ((c : Thread nD τ).loc main_arg13)) := by
  show StableHlo.after (hostOps4 (F := Ideal)) (W8 m ρ c) (Proc.devRef .tc main_v69) = _
  after_results
  rw [W8_main_arg13 m ρ c]
  exact cast_row32 _ _
theorem W9_w : W9 m ρ c (Proc.devRef .tc main_arg12) = (m ((c : Thread nD τ).loc main_arg12)) :=
  (by show StableHlo.after (hostOps4 (F := Ideal)) (W8 m ρ c) (Proc.devRef .tc main_arg12) = _; after_results : W9 m ρ c (Proc.devRef .tc main_arg12) = W8 m ρ c (Proc.devRef .tc main_arg12)).trans (W8_main_arg12 m ρ c)

end Cert.KernelIdeal.KHost

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«118196_j43138651521238_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«118196_j43138651521238_2_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«118196_j43138651521238_2_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.LibChunkedSum.lean ====
/-
  A sum taken chunk by chunk.

  For a family `f : Fin n → α` in a commutative additive monoid, `sumBelow f a` is the sum of the entries whose
  position is below `a`. It is `0` at `a = 0`, the sum of the whole family at `a = n`, and going from `a` to
  `a + b` adds the sum of the next `b` entries (`sumBelow_add`): the value an accumulator holds that starts at
  `0` and adds, chunk after chunk, the chunk's sum.
-/
import Mathlib.Algebra.BigOperators.Fin
import Mathlib.Algebra.BigOperators.Intervals

namespace ChunkedSum

open scoped BigOperators

variable {α : Type*} [AddCommMonoid α]

/-- The entry at position `j`, or `0` past the end. -/
def entry {n : ℕ} (f : Fin n → α) (j : ℕ) : α := if h : j < n then f ⟨j, h⟩ else 0

/-- The sum of the entries of `f` at positions below `a`. -/
def sumBelow {n : ℕ} (f : Fin n → α) (a : ℕ) : α := ∑ j ∈ Finset.range a, entry f j

theorem sumBelow_zero {n : ℕ} (f : Fin n → α) : sumBelow f 0 = 0 := Finset.sum_range_zero _

/-- Every entry is below position `n`. -/
theorem sumBelow_all {n : ℕ} (f : Fin n → α) : sumBelow f n = ∑ j, f j := by
  unfold sumBelow
  rw [Finset.sum_range]
  exact Finset.sum_congr rfl fun j _ => by unfold entry; rw [dif_pos j.isLt]

/-- The next `b` entries added: the sum below `a + b` is the sum below `a` plus the sum of the entries at
    `a`, `a + 1`, …, `a + b - 1`. -/
theorem sumBelow_add {n : ℕ} (f : Fin n → α) (a b : ℕ) (h : a + b ≤ n) :
    sumBelow f (a + b) = sumBelow f a + ∑ k : Fin b, f ⟨a + k.val, by have := k.isLt; omega⟩ := by
  unfold sumBelow
  rw [Finset.sum_range_add]
  congr 1
  rw [Finset.sum_range]
  exact Finset.sum_congr rfl fun k _ => by
    unfold entry
    rw [dif_pos (by have := k.isLt; omega)]

end ChunkedSum
-- ==== Proof.LibRealEntries.lean ====
/-
  Arrays of extended reals all of whose entries are real numbers.

  The property passes through everything a chain of dense layers is made of: reading an array at
  re-arranged indices (transposes, slices, reshapes, broadcasts are all of the form j ↦ x (f j)), entrywise
  sums, and a dot_general, whose entry is a finite sum of products of entries.  It is what a precondition
  "every input is finite" gives for the inputs: an entry whose absolute value is below +∞ is neither +∞ nor −∞.
-/
import Idealize.ShloMosaic.PureOps.Ideal.Laws
import Idealize.ShloMosaic.Lib.ReduceAll
import Idealize.ShloMosaic.Lib.ValueIdx

noncomputable section

namespace RealEntries

open Idealize.ShloMosaic

/-- Every entry of the array is a real number (neither infinity). -/
def IsReal {ι : Type} (v : ι → EReal) : Prop := ∀ i, ∃ r : ℝ, v i = (r : EReal)

/-- Reading a real-valued array at re-arranged indices gives a real-valued array. -/
theorem IsReal.comp {ι κ : Type} {v : ι → EReal} (h : IsReal v) (f : κ → ι) : IsReal (fun j => v (f j)) :=
  fun j => h (f j)

/-- The entrywise sum of two real-valued arrays is real-valued. -/
theorem IsReal.add {ι : Type} {v w : ι → EReal} (hv : IsReal v) (hw : IsReal w) : IsReal (fun i => v i + w i) := fun i => by
  obtain ⟨a, ha⟩ := hv i
  obtain ⟨b, hb⟩ := hw i
  exact ⟨a + b, by show v i + w i = _; rw [ha, hb, EReal.coe_add]⟩

/-- A finite sum of real numbers read in the extended reals is a real number. -/
theorem exists_real_sum {κ : Type} (s : Finset κ) (f : κ → EReal) (h : ∀ k, ∃ r : ℝ, f k = (r : EReal)) :
    ∃ r : ℝ, ∑ k ∈ s, f k = (r : EReal) := by
  classical
  refine Finset.induction_on s ⟨0, by simp⟩ ?_
  intro a s ha ⟨r, hr⟩
  obtain ⟨b, hb⟩ := h a
  exact ⟨b + r, by rw [Finset.sum_insert ha, hr, hb, EReal.coe_add]⟩

/-- An array whose entry at i is a finite sum over k of products of entries of two real-valued arrays is real-valued. -/
theorem isReal_sum_mul {ι κ α β : Type} [Fintype κ] {l : α → EReal} {r : β → EReal} (hl : IsReal l) (hr : IsReal r)
    (f : ι → κ → α) (g : ι → κ → β) : IsReal (fun i => ∑ k, l (f i k) * r (g i k)) := fun i =>
  exists_real_sum _ _ fun k => by
    obtain ⟨a, ha⟩ := hl (f i k)
    obtain ⟨b, hb⟩ := hr (g i k)
    exact ⟨a * b, by show l (f i k) * r (g i k) = _; rw [ha, hb, EReal.coe_mul]⟩

variable {s t : Shape} {φ : FTy}

theorem IsReal.addf {v w : FVec Ideal s φ} (hv : IsReal v) (hw : IsReal w) : IsReal (addf v w) := hv.add hw

theorem IsReal.transpose {v : s.Idx → EReal} (hv : IsReal v) (perm : List (Fin s.rank)) (h : s.Transposes perm t) :
    IsReal (transpose t perm v h) := fun j => hv _

theorem IsReal.broadcastInDim {v : s.Idx → EReal} (hv : IsReal v) (dims : Fin s.rank → Fin t.rank) (h : s.BroadcastsInDim t dims) :
    IsReal (broadcastInDim t dims h v) := fun j => hv _

theorem IsReal.extractStridedSlice {v : s.Idx → EReal} (hv : IsReal v) (off : Fin s.rank → Nat) (h : s.Slices off t) :
    IsReal (extractStridedSlice t off v h) := fun j => hv _

theorem IsReal.shapeCast {v : s.Idx → EReal} (hv : IsReal v) (h : s.ShapeCasts t) : IsReal (shapeCast t v h) := fun j => hv _

/-- The host's dot_general of two real-valued arrays is real-valued: each entry is the sum, over the contracted
    index set, of products of entries. -/
theorem IsReal.dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r : FVec Ideal so φ₁) := fun j => by
  simp only [Host.dotGeneral]
  rw [Ideal.dotGeneral_apply]
  exact isReal_sum_mul hl hr (fun j k => d.lhsIdx j k) (fun j k => d.rhsIdx j k) j

/-- An extended real whose absolute value is below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of a "finite inputs" precondition: where the reduction by `and` of the entrywise comparison
    |x| < +∞ (the word 0x7F800000 broadcast from a scalar) is 1, every entry of x is a real number. -/
theorem isReal_of_all_lt_inf {axes : List (Fin s.rank)} {u : Shape} [Subsingleton t.Idx] (x : FVec Ideal s .f32)
    (bound : FVec Ideal s .f32) (hb : ∀ i, bound i = Ideal.ofBits .f32 0x7F800000#32)
    (init : u.Idx → BitVec 1) (h : s.ReducesTo axes t) (hu : 0 < u.numel) (j : t.Idx)
    (e : Host.reduce IntOp.andi (cmpf .olt (Host.absf x) bound) init h hu j = 1#1) : IsReal x := fun i => by
  have hi := Host.reduce_andi_all _ init h hu j e i
  have htop : Ideal.ofBits .f32 0x7F800000#32 = ⊤ := by simp [Ideal.ofBits, Ideal.ieee]
  rw [ValueIdx.cmpf_apply, hb i, htop] at hi
  apply exists_real_of_abs_lt_top
  have h2 : Ideal.cmp .olt (max (x i) (-(x i))) ⊤ = 1#1 := hi
  by_contra hne
  simp [Ideal.cmp, hne] at h2

end RealEntries

end
-- ==== Proof.Consts.lean ====
/-
  The float words the two programs spell, as the extended reals they denote: 100000 (the number of rows),
  f32(1e-5) (the variance's offset, a positive real) and f32(0.01) (the leaky rectifier's slope, a real).
-/
import Idealize.ShloMosaic.PureOps.Ideal

noncomputable section

namespace Cert.Consts

open Idealize.ShloMosaic

/-- The word 0x47C35000 is the float 100000. -/
theorem ofBits_rows : Ideal.ofBits .f32 0x47C35000#32 = ((100000 : ℝ) : EReal) := by
  simp [Ideal.ofBits, Ideal.ieee, -EReal.coe_mul]; norm_num

/-- The word 0x3727C5AC, f32(1e-5), is the real 10995116 / 2^40. -/
theorem ofBits_eps : Ideal.ofBits .f32 0x3727C5AC#32 = ((10995116 / 1099511627776 : ℝ) : EReal) := by
  simp [Ideal.ofBits, Ideal.ieee, -EReal.coe_mul]; norm_num

/-- The word 0x3C23D70A, f32(0.01), is the real 10737418 / 2^30. -/
theorem ofBits_slope : Ideal.ofBits .f32 0x3C23D70A#32 = ((10737418 / 1073741824 : ℝ) : EReal) := by
  simp [Ideal.ofBits, Ideal.ieee, -EReal.coe_mul]; norm_num

/-- The zero word is 0. -/
theorem ofBits_zero : Ideal.ofBits .f32 0x00000000#32 = 0 := by
  simp [Ideal.ofBits, Ideal.ieee]

end Cert.Consts

end
-- ==== Proof.LibVariance.lean ====
/-
  One-pass and two-pass variance of finitely many REAL numbers, at the extended reals.

  For reals a₀ … a_{n−1}, n > 0, with mean μ = (Σ a)/n: the two-pass population variance Σ (a − μ)² / n equals the
  one-pass form max (Σ a² / n − μ², 0) — expand the square, use Σ a = n·μ, and note that a sum of squares over n
  is not negative, so the clamp at 0 does nothing.  `var_real` is the identity over ℝ (quotients written as products
  with 1/n, the form the extended-real quotient by a real takes); `var_ereal` and `two_pass_ereal` read the two
  sides at the extended reals, every quotient the extended-real quotient `Ideal.div` by the real n; `coe_sum` is a
  finite sum of reals read in the extended reals.  Realness matters: at an infinite entry the two forms differ.
-/
import Idealize.ShloMosaic.PureOps.Ideal

noncomputable section

open scoped BigOperators

namespace Cert.Lib.Variance

open Idealize.ShloMosaic

/-- One-pass and two-pass variance of n > 0 reals agree, the clamp at 0 included (means and quotients written
    as products with 1/n, as the extended-real quotient by a real reads). -/
theorem var_real (n : ℕ) (hn : 0 < n) (a : Fin n → ℝ) :
    max ((∑ r, a r * a r) * (1 / (n : ℝ)) - ((∑ r, a r) * (1 / (n : ℝ))) * ((∑ r, a r) * (1 / (n : ℝ)))) 0
      = (∑ r, (a r - (∑ r, a r) * (1 / (n : ℝ))) * (a r - (∑ r, a r) * (1 / (n : ℝ)))) * (1 / (n : ℝ)) := by
  have hn' : (n : ℝ) ≠ 0 := by positivity
  generalize hμ : (∑ r, a r) * (1 / (n : ℝ)) = μ
  have hS : ∑ r, a r = n * μ := by rw [← hμ]; field_simp
  have h1 : ∑ r, (a r - μ) * (a r - μ) = (∑ r, a r * a r) - n * (μ * μ) := by
    calc ∑ r, (a r - μ) * (a r - μ) = ∑ r, (a r * a r - (2 * μ) * a r + μ * μ) :=
          Finset.sum_congr rfl fun r _ => by ring
      _ = (∑ r, a r * a r) - (2 * μ) * (∑ r, a r) + n * (μ * μ) := by
          rw [Finset.sum_add_distrib, Finset.sum_sub_distrib, ← Finset.mul_sum, Finset.sum_const, Finset.card_univ,
            Fintype.card_fin, nsmul_eq_mul]
      _ = _ := by rw [hS]; ring
  have h2 : (∑ r, a r * a r) * (1 / (n : ℝ)) - μ * μ = (∑ r, (a r - μ) * (a r - μ)) * (1 / (n : ℝ)) := by
    rw [h1]; field_simp
  rw [h2]
  exact max_eq_left (mul_nonneg (Finset.sum_nonneg fun r _ => mul_self_nonneg _) (by positivity))

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The same identity at the extended reals, the quotients the extended-real quotient by the real n. -/
theorem var_ereal (n : ℕ) (hn : 0 < n) (a : Fin n → ℝ) :
    max (Ideal.div (∑ r, (a r : EReal) * (a r : EReal)) ((n : ℝ) : EReal)
          - Ideal.div (∑ r, (a r : EReal)) ((n : ℝ) : EReal) * Ideal.div (∑ r, (a r : EReal)) ((n : ℝ) : EReal)) 0
      = (((∑ r, (a r - (∑ r, a r) * (1 / (n : ℝ))) * (a r - (∑ r, a r) * (1 / (n : ℝ)))) * (1 / (n : ℝ)) : ℝ) : EReal) := by
  have hn' : (n : ℝ) ≠ 0 := by positivity
  rw [← var_real n hn a]
  simp only [← EReal.coe_mul, ← coe_sum, Ideal.div_coe hn', ← EReal.coe_sub]
  exact (EReal.coe_strictMono.monotone.map_max (a := _) (b := (0 : ℝ))).symm

/-- The two-pass variance at the extended reals is the real two-pass variance. -/
theorem two_pass_ereal (n : ℕ) (hn : 0 < n) (a : Fin n → ℝ) :
    Ideal.div (∑ r, ((a r : EReal) - Ideal.div (∑ r, (a r : EReal)) ((n : ℝ) : EReal))
        * ((a r : EReal) - Ideal.div (∑ r, (a r : EReal)) ((n : ℝ) : EReal))) ((n : ℝ) : EReal)
      = (((∑ r, (a r - (∑ r, a r) * (1 / (n : ℝ))) * (a r - (∑ r, a r) * (1 / (n : ℝ)))) * (1 / (n : ℝ)) : ℝ) : EReal) := by
  have hn' : (n : ℝ) ≠ 0 := by positivity
  simp only [← coe_sum, Ideal.div_coe hn', ← EReal.coe_mul, ← EReal.coe_sub]

end Cert.Lib.Variance

end
-- ==== Proof.Stats.lean ====
/-
  Reading the reference's column statistics of a 100000 × 64 matrix at an entry: the one-row and all-rows
  broadcasts, a rank-0 broadcast, and a column sum as the sum over the rows.
-/
import proofs.«118196_j43138651521238_2_alg».proof.Proof.RefSpec
import proofs.«118196_j43138651521238_2_alg».proof.Proof.LibRealEntries
import proofs.«118196_j43138651521238_2_alg».proof.Proof.Consts
import proofs.«118196_j43138651521238_2_alg».proof.Proof.LibVariance
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.Stats

open Idealize.ShloMosaic Idealize.ShloMosaic.ValueIdx Cert.ReferenceIdeal Cert.ReferenceIdeal.Facts₀ Cert.RefSpec RealEntries

/-! ## Reading the reference's stages at an entry -/

theorem row_apply (v : FVec Ideal S64 .f32) (q : Fin 1) (j : Fin 64) : row v (ix2 q j) = v (ix1 j) := by
  unfold row
  exact broadcastInDim_apply ![1] bcast_S64_S1x64_1 v (ix2 q j) (ix1 j) (fun a => by
    match a with
    | ⟨0, _⟩ => show j.val = if (64 : ℕ) = 1 then 0 else j.val; exact (if_neg (by decide)).symm)

theorem rows_apply (r : FVec Ideal S1x64 .f32) (p : Fin 100000) (j : Fin 64) : rows r (ix2 p j) = r (ix2 0 j) := by
  unfold rows
  exact broadcastInDim_apply ![0, 1] bcast_S1x64_S100000x64_0_1 r (ix2 p j) (ix2 0 j) (fun a => by
    match a with
    | ⟨0, _⟩ => exact (if_pos rfl).symm
    | ⟨1, _⟩ => show j.val = if (64 : ℕ) = 1 then 0 else j.val; exact (if_neg (by decide)).symm)

/-- A rank-0 array broadcast to any shape holds its one entry everywhere. -/
theorem bcast0_apply {α : Type} {t : Shape} (dims : Fin S_.rank → Fin t.rank) (hb : S_.BroadcastsInDim t dims) (v : S_.Idx → α)
    (j : t.Idx) : broadcastInDim t dims hb v j = v ix0 :=
  broadcastInDim_apply dims hb v j ix0 (fun a => a.elim0)

/-- A column sum at column j is the sum over the rows. -/
theorem colSum_apply (z : FVec Ideal S100000x64 .f32) (j : Fin 64) :
    colSum z (ix1 j) = ∑ r : Fin 100000, z (ix2 r j) := by
  have hR : S100000x64.Reduces [0] S64 := by decide
  show Ideal.hostReduceAdd reducesTo_S100000x64_S64_d0 z (Ideal.ofBits .f32 0x00000000#32) (ix1 j) = _
  rw [Ideal.hostReduceAdd_single reducesTo_S100000x64_S64_d0 hR z _ (ix1 j), Ideal.ofBits_zero_f32, zero_add]
  refine Finset.sum_congr rfl fun r _ => congrArg z ?_
  funext a
  apply Fin.ext
  match a with
  | ⟨0, _⟩ => rfl
  | ⟨1, _⟩ => rfl

end Cert.Stats

end
-- ==== Proof.Region0.lean ====
/-
  Region 0 of the kernel: the dense layer z = a·W + b taken ten row blocks of 10000 rows at a time, with the
  column sums of z and of z·z accumulated over the blocks.
-/
import proofs.«118196_j43138651521238_2_alg».proof.Proof.Gen.KernelIdeal.Frame
import proofs.«118196_j43138651521238_2_alg».proof.Proof.RefSpec
import proofs.«118196_j43138651521238_2_alg».proof.Proof.LibDenseLayer
import proofs.«118196_j43138651521238_2_alg».proof.Proof.LibPlainRecord
import proofs.«118196_j43138651521238_2_alg».proof.Proof.LibBlockFormats
import proofs.«118196_j43138651521238_2_alg».proof.Proof.LibRowRead
import proofs.«118196_j43138651521238_2_alg».proof.Proof.LibChunkedSum
import proofs.«118196_j43138651521238_2_alg».proof.Proof.Stats
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

open scoped BigOperators

namespace Cert.KernelIdeal.Region0

open Cert.KernelIdeal Cert.KernelIdeal.Gen Idealize.ShloMosaic Idealize.ShloMosaic.ValueIdx Cert.Lib.DenseLayer
open Idealize.ShloMosaic.TcCoe Idealize.SL.Sem
open Idealize.ShloMosaic.Pipeline (Dat)

section Pieces
variable {F : FTy → Type} [FloatOps F]

theorem hz : (![0, 0] : Fin 2 → Nat) = fun _ => 0 := funext fun a => by fin_cases a <;> rfl

theorem pieceB3 (c : Dev nD) (i : grid0.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S10000x64 .f32) (x1 : Vec F S64x64 .f32) (x2 : Vec F S1x64 .f32) (xo4 xo5 : Vec F S1x64 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread,
    View.ld_unit_zero (S := S10000x64) hz, View.ld_unit_zero (S := S64x64) hz, View.ld_unit_zero (S := S1x64) hz]

theorem pieceB4 (c : Dev nD) (i : grid0.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S10000x64 .f32) (x1 : Vec F S64x64 .f32) (x2 : Vec F S1x64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread,
    View.ld_unit_zero (S := S10000x64) hz, View.ld_unit_zero (S := S64x64) hz, View.ld_unit_zero (S := S1x64) hz]

theorem pieceB5 (c : Dev nD) (i : grid0.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S10000x64 .f32) (x1 : Vec F S64x64 .f32) (x2 : Vec F S1x64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h6.read_unread,
    View.ld_unit_zero (S := S10000x64) hz, View.ld_unit_zero (S := S64x64) hz, View.ld_unit_zero (S := S1x64) hz]

theorem pieceA3 (c : Dev nD) (i : grid0.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S10000x64 .f32) (x1 : Vec F S64x64 .f32) (x2 : Vec F S1x64 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread,
    View.ld_unit_zero (S := S10000x64) hz, View.ld_unit_zero (S := S64x64) hz, View.ld_unit_zero (S := S1x64) hz]

theorem pieceA4 (c : Dev nD) (i : grid0.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S10000x64 .f32) (x1 : Vec F S64x64 .f32) (x2 : Vec F S1x64 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S10000x64) hz, View.ld_unit_zero (S := S64x64) hz, View.ld_unit_zero (S := S1x64) hz]

theorem pieceA5 (c : Dev nD) (i : grid0.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S10000x64 .f32) (x1 : Vec F S64x64 .f32) (x2 : Vec F S1x64 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S10000x64) hz, View.ld_unit_zero (S := S64x64) hz, View.ld_unit_zero (S := S1x64) hz]

end Pieces

/-! ## The arithmetic of one point, at the extended reals -/

section Values

theorem plainB : Plain dot_S10000x64_S64x64_S10000x64_1_0_0_1_n_n := Plain.of_fields _ rfl rfl rfl rfl rfl rfl
theorem plainH : Plain Cert.ReferenceIdeal.dot_S100000x64_S64x64_S100000x64_1_0_0_1_n_n :=
  Plain.of_fields _ rfl rfl rfl rfl rfl rfl

/-- The block of z the body computes from a block of rows of a, the weights and the bias row is that block of rows
    of the dense layer of the whole of a. -/
theorem zblk {off : Nat} (x0 : Vec Ideal S10000x64 .f32) (x1 : Vec Ideal S64x64 .f32) (x2 : Vec Ideal S1x64 .f32)
    (a : FVec Ideal Cert.ReferenceIdeal.S100000x64 .f32) (W : FVec Ideal Cert.ReferenceIdeal.S64x64 .f32)
    (b : FVec Ideal Cert.ReferenceIdeal.S64 .f32)
    (h0 : RowBlk off x0 a) (h1 : x1 = W) (h2 : x2 = Cert.RefSpec.row b) :
    RowBlk off (k0_pay3 x0 x1 x2) (Cert.RefSpec.lin64 a W b) := by
  subst h1 h2
  unfold k0_pay3 Cert.RefSpec.lin64 Cert.RefSpec.rows
  dsimp only
  refine RowBlk.add (RowBlk.matmul plainB plainH (h0.castSelf _) x1 _ _) ?_
  rw [shapeCast_self]
  exact RowBlk.bias _ _ _

/-- The reduced index j with row k put back is (k, j). -/
theorem lift_ix2 (h : S10000x64.Reduces [0] S64) (j : Fin 64) (k : Fin (S10000x64.size 0)) :
    h.lift (ix1 j) k = ix2 (⟨k.val, k.isLt⟩ : Fin 10000) j := by
  funext c; apply Fin.ext
  fin_cases c <;> rfl

/-- Index (0, j) of a one-row matrix with its unit axis dropped is j. -/
theorem tail_ix2 (j : Fin 64) : (fun a : Fin 1 => (ix2 (0 : Fin 1) j) a.succ) = ix1 j :=
  funext fun a => by match a with | ⟨0, _⟩ => rfl

/-- The column sums of a block, as the body takes them. -/
theorem colsum_at (z : FVec Ideal S10000x64 .f32) (h : S10000x64.Reduces [0] S64) (hφ : FKind.Formats FTy.f32)
    (hacc : (0x00000000#32 : BitVec 32) = 0x00000000#32) (j : Fin 64) (q : S64.Idx) (hq : q = ix1 j) :
    multiReduction (F := Ideal) .add [0] S64 z 0x00000000#32 h hφ hacc q = ∑ r : Fin 10000, z (ix2 r j) := by
  subst hq
  refine (Ideal.multiReduction_add_single z 0x00000000#32 h hφ hacc (ix1 j)).trans ?_
  show ∑ k : Fin 10000, z (h.lift (ix1 j) k) = _
  exact Finset.sum_congr rfl fun k _ => congrArg z (lift_ix2 h j k)

/-- The sums accumulator after a point: what it held plus the column sums of the point's block of z. -/
theorem pay4_at (x0 : Vec Ideal S10000x64 .f32) (x1 : Vec Ideal S64x64 .f32) (x2 : Vec Ideal S1x64 .f32)
    (v : Vec Ideal S1x64 .f32) (j : Fin 64) :
    k0_pay4 x0 x1 x2 v (ix2 0 j) = v (ix2 0 j) + ∑ r : Fin 10000, k0_pay3 x0 x1 x2 (ix2 r j) := by
  unfold k0_pay4
  dsimp only
  refine (addf_apply _ _ _).trans ?_
  refine congrArg₂ (· + ·) (congrFun (shapeCast_self v _) _) ?_
  refine (shapeCast_addUnit_apply ![64] _ _ (ix2 0 j)).trans ?_
  exact colsum_at _ _ _ _ j _ (tail_ix2 j)

/-- The sums-of-squares accumulator after a point. -/
theorem pay5_at (x0 : Vec Ideal S10000x64 .f32) (x1 : Vec Ideal S64x64 .f32) (x2 : Vec Ideal S1x64 .f32)
    (v : Vec Ideal S1x64 .f32) (j : Fin 64) :
    k0_pay5 x0 x1 x2 v (ix2 0 j)
      = v (ix2 0 j) + ∑ r : Fin 10000, mulf (k0_pay3 x0 x1 x2) (k0_pay3 x0 x1 x2) (ix2 r j) := by
  unfold k0_pay5
  dsimp only
  refine (addf_apply _ _ _).trans ?_
  refine congrArg₂ (· + ·) (congrFun (shapeCast_self v _) _) ?_
  refine (shapeCast_addUnit_apply ![64] _ _ (ix2 0 j)).trans ?_
  exact colsum_at _ _ _ _ j _ (tail_ix2 j)

end Values

/-! ## The region: what its windows read, and what each point leaves -/

section Region
variable (V : (c : Dev nD) → (b : Ref sig .tc) → Buf (Elt Ideal) ((c : Thread nD τ).loc b))

/-- The printed index maps, decided over the grid: the row-block windows are at block t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Window 0's block at point t is the block of rows of its array that starts at row 10000·t. -/
theorem blk0 (c : Dev nD) (t : Fin cfg0.N) :
    RowBlk (t.val * 10000) (iblk0 V c 0 t : Vec Ideal S10000x64 .f32)
      (V c (Pipeline.arrRef spec0 0) : FVec Ideal Cert.ReferenceIdeal.S100000x64 .f32) := by
  obtain ⟨e0, e1, -⟩ := idx_facts t
  refine RowBlk.of_read (fun y => ((cfg0.win 0).blk t).view.emb y) (fun y => ?_) (fun y => ?_) (fun y => rfl)
  · show win0_0.index t (0 : Fin 2) * 10000 + 1 * (y 0).val = t.val * 10000 + (y 0).val
    rw [e0]; omega
  · show win0_0.index t (1 : Fin 2) * 64 + 1 * (y 1).val = (y 1).val
    rw [e1]; omega

/-- Window 1's block is the whole weight matrix at every point. -/
theorem blk1 (c : Dev nD) (t : Fin cfg0.N) :
    (iblk0 V c 1 t : Vec Ideal S64x64 .f32) = (V c (Pipeline.arrRef spec0 1) : FVec Ideal Cert.ReferenceIdeal.S64x64 .f32) := by
  obtain ⟨-, -, e0, e1, -⟩ := idx_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- Window 2's block is the whole bias row at every point. -/
theorem blk2 (c : Dev nD) (t : Fin cfg0.N) :
    (iblk0 V c 2 t : Vec Ideal S1x64 .f32) = (V c (Pipeline.arrRef spec0 2) : FVec Ideal Cert.ReferenceIdeal.S1x64 .f32) := by
  obtain ⟨-, -, -, -, e0, e1, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- What the first point leaves in the three outputs' buffers: its block of z, and the column sums of the block and of
    its square over the zero row. -/
theorem outA3 (c : Dev nD) (t : Fin cfg0.N) (h0 : t.val % 10 = 0) :
    (outsAt0 V c t.val t.isLt).1 = k0_pay3 (iblk0 V c 0 t) (iblk0 V c 1 t) (iblk0 V c 2 t) := by
  rw [outsAt0_A V c t h0]
  dsimp only
  exact pieceA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

theorem outA4 (c : Dev nD) (t : Fin cfg0.N) (h0 : t.val % 10 = 0) :
    (outsAt0 V c t.val t.isLt).2.1 = k0_pay4 (iblk0 V c 0 t) (iblk0 V c 1 t) (iblk0 V c 2 t) (k0_pay1 (F := Ideal)) := by
  rw [outsAt0_A V c t h0]
  dsimp only
  exact pieceA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

theorem outA5 (c : Dev nD) (t : Fin cfg0.N) (h0 : t.val % 10 = 0) :
    (outsAt0 V c t.val t.isLt).2.2 = k0_pay5 (iblk0 V c 0 t) (iblk0 V c 1 t) (iblk0 V c 2 t) (k0_pay2 (F := Ideal)) := by
  rw [outsAt0_A V c t h0]
  dsimp only
  exact pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

/-- What a later point leaves: its block of z, and the accumulators the point before left plus the column sums. -/
theorem outB3 (c : Dev nD) (t : Fin cfg0.N) (h0 : ¬t.val % 10 = 0) :
    (outsAt0 V c t.val t.isLt).1 = k0_pay3 (iblk0 V c 0 t) (iblk0 V c 1 t) (iblk0 V c 2 t) := by
  rw [outsAt0_B V c t h0]
  dsimp only
  exact pieceB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2

theorem outB4 (c : Dev nD) (t : Fin cfg0.N) (h0 : ¬t.val % 10 = 0) :
    (outsAt0 V c t.val t.isLt).2.1 = k0_pay4 (iblk0 V c 0 t) (iblk0 V c 1 t) (iblk0 V c 2 t) (outsAt0 V c (t.val - 1) (Nat.lt_of_le_of_lt (Nat.sub_le _ _) t.isLt)).2.1 := by
  rw [outsAt0_B V c t h0]
  dsimp only
  exact pieceB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2

theorem outB5 (c : Dev nD) (t : Fin cfg0.N) (h0 : ¬t.val % 10 = 0) :
    (outsAt0 V c t.val t.isLt).2.2 = k0_pay5 (iblk0 V c 0 t) (iblk0 V c 1 t) (iblk0 V c 2 t) (outsAt0 V c (t.val - 1) (Nat.lt_of_le_of_lt (Nat.sub_le _ _) t.isLt)).2.2 := by
  rw [outsAt0_B V c t h0]
  dsimp only
  exact pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2

end Region

/-! ## The accumulators over the grid, and the arrays the region leaves -/

section Final
variable (V : (c : Dev nD) → (b : Ref sig .tc) → Buf (Elt Ideal) ((c : Thread nD τ).loc b))

open ChunkedSum

/-- The dense layer of the arrays the region finds. -/
abbrev Z (c : Dev nD) (b : FVec Ideal Cert.ReferenceIdeal.S64 .f32) : FVec Ideal Cert.ReferenceIdeal.S100000x64 .f32 :=
  Cert.RefSpec.lin64 (V c (Pipeline.arrRef spec0 0)) (V c (Pipeline.arrRef spec0 1)) b

/-- The block of z point t computes is the block of rows of the dense layer that starts at row 10000·t. -/
theorem zblk_pt (c : Dev nD) (b : FVec Ideal Cert.ReferenceIdeal.S64 .f32)
    (hb : V c (Pipeline.arrRef spec0 2) = Cert.RefSpec.row b) (t : Fin cfg0.N) :
    RowBlk (t.val * 10000) (k0_pay3 (iblk0 V c 0 t) (iblk0 V c 1 t) (iblk0 V c 2 t)) (Z V c b) :=
  zblk _ _ _ _ _ b (blk0 V c t) (blk1 V c t) ((blk2 V c t).trans hb)

/-- Output 3's buffer after point t holds the block of z the point computes. -/
theorem out3_eq (c : Dev nD) (t : Fin cfg0.N) :
    (outsAt0 V c t.val t.isLt).1 = k0_pay3 (iblk0 V c 0 t) (iblk0 V c 1 t) (iblk0 V c 2 t) := by
  by_cases h0 : t.val % 10 = 0
  · exact outA3 V c t h0
  · exact outB3 V c t h0

/-- One step of a sum over 100000 entries taken 10000 entries at a time. -/
theorem chunk_step (f : Fin 100000 → EReal) (g : Fin 10000 → EReal) (t : ℕ) (ht : t < 10) (prev : EReal)
    (hprev : prev = sumBelow f (t * 10000))
    (hg : ∀ (r : Fin 10000) (h : t * 10000 + r.val < 100000), g r = f ⟨t * 10000 + r.val, h⟩) :
    prev + ∑ r, g r = sumBelow f ((t + 1) * 10000) := by
  rw [show (t + 1) * 10000 = t * 10000 + 10000 by ring, sumBelow_add f _ _ (by omega), hprev]
  exact congrArg _ (Finset.sum_congr rfl fun r _ => hg r _)

/-- The zero row the first point stores. -/
theorem pay1_at (y : S1x64.Idx) : (k0_pay1 : FVec Ideal S1x64 .f32) y = 0 := Ideal.ofBits_zero_f32
theorem pay2_at (y : S1x64.Idx) : (k0_pay2 : FVec Ideal S1x64 .f32) y = 0 := Ideal.ofBits_zero_f32

/-- After point n the two accumulators hold, in column j, the sums of z and of z·z over the rows of the blocks
    up to and including block n. -/
theorem acc_inv (c : Dev nD) (b : FVec Ideal Cert.ReferenceIdeal.S64 .f32)
    (hb : V c (Pipeline.arrRef spec0 2) = Cert.RefSpec.row b) : ∀ (n : ℕ) (h : n < cfg0.N) (j : Fin 64),
    (outsAt0 V c n h).2.1 (ix2 0 j) = sumBelow (fun r : Fin 100000 => Z V c b (ix2 r j)) ((n + 1) * 10000)
    ∧ (outsAt0 V c n h).2.2 (ix2 0 j)
        = sumBelow (fun r : Fin 100000 => mulf (Z V c b) (Z V c b) (ix2 r j)) ((n + 1) * 10000)
  | 0, h, j => by
    have hz := zblk_pt V c b hb ⟨0, h⟩
    constructor
    · refine (congrFun (outA4 V c ⟨0, h⟩ rfl) (ix2 0 j)).trans ?_
      refine (pay4_at _ _ _ _ j).trans ?_
      exact chunk_step _ _ 0 (by omega) _ ((pay1_at _).trans (sumBelow_zero _).symm) (fun r hr => hz r hr j)
    · refine (congrFun (outA5 V c ⟨0, h⟩ rfl) (ix2 0 j)).trans ?_
      refine (pay5_at _ _ _ _ j).trans ?_
      exact chunk_step _ _ 0 (by omega) _ ((pay2_at _).trans (sumBelow_zero _).symm) (fun r hr => (hz.mul hz) r hr j)
  | n + 1, h, j => by
    have hN : cfg0.N = 10 := N_0
    have hB : ¬(⟨n + 1, h⟩ : Fin cfg0.N).val % 10 = 0 := by dsimp only; omega
    have ih := acc_inv c b hb n (Nat.lt_of_succ_lt h) j
    have hz := zblk_pt V c b hb ⟨n + 1, h⟩
    constructor
    · refine (congrFun (outB4 V c ⟨n + 1, h⟩ hB) (ix2 0 j)).trans ?_
      refine (pay4_at _ _ _ _ j).trans ?_
      exact chunk_step _ _ (n + 1) (by omega) _ ih.1 (fun r hr => hz r hr j)
    · refine (congrFun (outB5 V c ⟨n + 1, h⟩ hB) (ix2 0 j)).trans ?_
      refine (pay5_at _ _ _ _ j).trans ?_
      exact chunk_step _ _ (n + 1) (by omega) _ ih.2 (fun r hr => (hz.mul hz) r hr j)

/-- The reference's column sums, as a one-row matrix, read in column j: the sum of the column. -/
theorem row_colSum_at (z : FVec Ideal Cert.ReferenceIdeal.S100000x64 .f32) (j : Fin 64) :
    Cert.RefSpec.row (Cert.RefSpec.colSum z) (ix2 0 j) = ∑ r : Fin 100000, z (ix2 r j) :=
  (Cert.Stats.row_apply _ 0 j).trans (Cert.Stats.colSum_apply z j)

/-- Every index of a one-row matrix is (0, j). -/
theorem row_idx (y : S1x64.Idx) : y = ix2 0 (y 1) :=
  (eq_ix2 y).trans (congrArg (fun r => ix2 r (y 1)) (Fin.ext (by
    show (y 0).val = 0
    have := idx2_lt0 y; omega)))

/-- After the last point the sums accumulator is the reference's column sums of the dense layer … -/
theorem acc4_last (c : Dev nD) (b : FVec Ideal Cert.ReferenceIdeal.S64 .f32)
    (hb : V c (Pipeline.arrRef spec0 2) = Cert.RefSpec.row b) (t : Fin cfg0.N) (h9 : t.val = 9) :
    (outsAt0 V c t.val t.isLt).2.1 = Cert.RefSpec.row (Cert.RefSpec.colSum (Z V c b)) := by
  funext y
  obtain ⟨j, rfl⟩ : ∃ j : Fin 64, y = ix2 0 j := ⟨y 1, row_idx y⟩
  refine ((acc_inv V c b hb t.val t.isLt j).1).trans (Eq.trans ?_ (row_colSum_at (Z V c b) j).symm)
  rw [show (t.val + 1) * 10000 = 100000 by omega]
  exact sumBelow_all _

/-- … and the squares accumulator the column sums of its entrywise square. -/
theorem acc5_last (c : Dev nD) (b : FVec Ideal Cert.ReferenceIdeal.S64 .f32)
    (hb : V c (Pipeline.arrRef spec0 2) = Cert.RefSpec.row b) (t : Fin cfg0.N) (h9 : t.val = 9) :
    (outsAt0 V c t.val t.isLt).2.2 = Cert.RefSpec.row (Cert.RefSpec.colSum (mulf (Z V c b) (Z V c b))) := by
  funext y
  obtain ⟨j, rfl⟩ : ∃ j : Fin 64, y = ix2 0 j := ⟨y 1, row_idx y⟩
  refine ((acc_inv V c b hb t.val t.isLt j).2).trans (Eq.trans ?_ (row_colSum_at (mulf (Z V c b) (Z V c b)) j).symm)
  rw [show (t.val + 1) * 10000 = 100000 by omega]
  exact sumBelow_all _

end Final

/-! ## From the write-backs to the arrays -/

section Arrays
variable (V : (c : Dev nD) → (b : Ref sig .tc) → Buf (Elt Ideal) ((c : Thread nD τ).loc b))

/-- What point t writes back to output 3's array is block t of the dense layer. -/
theorem flushed3 (c : Dev nD) (b : FVec Ideal Cert.ReferenceIdeal.S64 .f32)
    (hb : V c (Pipeline.arrRef spec0 2) = Cert.RefSpec.row b) (t : Fin cfg0.N) :
    (dat0 V c).flushed 3 t = ((cfg0.win 3).blk t).view.read (Elt Ideal) (Z V c b) := by
  show (cfg0.win 3).cut (grid0.coords t) ((dat0 V c).after 3 t) = _
  rw [after0_3, out3_eq V c t]
  obtain ⟨-, -, -, -, -, -, e0, e1, -⟩ := idx_facts t
  funext y
  show k0_pay3 (iblk0 V c 0 t) (iblk0 V c 1 t) (iblk0 V c 2 t) y = Z V c b (((cfg0.win 3).blk t).view.emb y)
  refine (zblk_pt V c b hb t).read y _ ?_ ?_
  · show win0_3.index t (0 : Fin 2) * 10000 + 1 * (y 0).val = t.val * 10000 + (y 0).val
    rw [e0]; omega
  · show win0_3.index t (1 : Fin 2) * 64 + 1 * (y 1).val = (y 1).val
    rw [e1]; omega

/-- An index of output 3's array is in point t's block iff each coordinate is in the block's range on its axis. -/
theorem mem_blk3 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v18_0).slice (win0_3.rect t)).set ↔ _
  rw [View.set_slice_whole, Rect.mem_set_unit]
  exact Iff.rfl

/-- Output 3's array ends holding the dense layer: row r is written by point r / 10000. -/
theorem final3 (c : Dev nD) (b : FVec Ideal Cert.ReferenceIdeal.S64 .f32)
    (hb : V c (Pipeline.arrRef spec0 2) = Cert.RefSpec.row b) :
    (dat0 V c).arrAt 3 cfg0.N = Z V c b :=
  (dat0 V c).arrAt_eq_of_cover 3 (Z V c b) (fun t _ => flushed3 V c b hb t) fun i => by
    have hN : cfg0.N = 10 := N_0
    have hi0 : (i 0).val < 100000 := (i 0).isLt
    have hi1 : (i 1).val < 64 := (i 1).isLt
    refine ⟨⟨(i 0).val / 10000, by omega⟩, flush0_3 _, ?_⟩
    obtain ⟨-, -, -, -, -, -, e0, e1, -⟩ := idx_facts ⟨(i 0).val / 10000, by omega⟩
    rw [mem_blk3]
    intro a
    match a with
    | ⟨0, _⟩ =>
      show win0_3.index _ (0 : Fin 2) * 10000 ≤ (i 0).val ∧ (i 0).val < win0_3.index _ (0 : Fin 2) * 10000 + 10000
      rw [e0]; dsimp only; omega
    | ⟨1, _⟩ =>
      show win0_3.index _ (1 : Fin 2) * 64 ≤ (i 1).val ∧ (i 1).val < win0_3.index _ (1 : Fin 2) * 64 + 64
      rw [e1]; omega

/-- The accumulators' one write-back, after the last point, writes the whole one-row array. -/
theorem flushed4 (c : Dev nD) (b : FVec Ideal Cert.ReferenceIdeal.S64 .f32)
    (hb : V c (Pipeline.arrRef spec0 2) = Cert.RefSpec.row b) (t : Fin cfg0.N) (hf : (cfg0.win 4).flush t = true) :
    (dat0 V c).flushed 4 t = ((cfg0.win 4).blk t).view.read (Elt Ideal) (Cert.RefSpec.row (Cert.RefSpec.colSum (Z V c b))) := by
  have hN : cfg0.N = 10 := N_0
  have h9 : t.val = 9 := by have := (flush0_4 t).mp hf; have := t.isLt; omega
  obtain ⟨-, -, -, -, -, -, -, -, e0, e1, -⟩ := idx_facts t
  show (cfg0.win 4).cut (grid0.coords t) ((dat0 V c).after 4 t) = _
  rw [after0_4, acc4_last V c b hb t h9]
  funext y
  show Cert.RefSpec.row (Cert.RefSpec.colSum (Z V c b)) y = Cert.RefSpec.row (Cert.RefSpec.colSum (Z V c b)) (((cfg0.win 4).blk t).view.emb y)
  refine congrArg _ (funext fun a => Fin.ext ?_)
  match a with
  | ⟨0, _⟩ => show (y 0).val = win0_4.index t (0 : Fin 2) * 1 + 1 * (y 0).val; rw [e0]; omega
  | ⟨1, _⟩ => show (y 1).val = win0_4.index t (1 : Fin 2) * 64 + 1 * (y 1).val; rw [e1]; omega

theorem flushed5 (c : Dev nD) (b : FVec Ideal Cert.ReferenceIdeal.S64 .f32)
    (hb : V c (Pipeline.arrRef spec0 2) = Cert.RefSpec.row b) (t : Fin cfg0.N) (hf : (cfg0.win 5).flush t = true) :
    (dat0 V c).flushed 5 t = ((cfg0.win 5).blk t).view.read (Elt Ideal) (Cert.RefSpec.row (Cert.RefSpec.colSum (mulf (Z V c b) (Z V c b)))) := by
  have hN : cfg0.N = 10 := N_0
  have h9 : t.val = 9 := by have := (flush0_5 t).mp hf; have := t.isLt; omega
  obtain ⟨-, -, -, -, -, -, -, -, -, -, e0, e1⟩ := idx_facts t
  show (cfg0.win 5).cut (grid0.coords t) ((dat0 V c).after 5 t) = _
  rw [after0_5, acc5_last V c b hb t h9]
  funext y
  show Cert.RefSpec.row (Cert.RefSpec.colSum (mulf (Z V c b) (Z V c b))) y = Cert.RefSpec.row (Cert.RefSpec.colSum (mulf (Z V c b) (Z V c b))) (((cfg0.win 5).blk t).view.emb y)
  refine congrArg _ (funext fun a => Fin.ext ?_)
  match a with
  | ⟨0, _⟩ => show (y 0).val = win0_5.index t (0 : Fin 2) * 1 + 1 * (y 0).val; rw [e0]; omega
  | ⟨1, _⟩ => show (y 1).val = win0_5.index t (1 : Fin 2) * 64 + 1 * (y 1).val; rw [e1]; omega

/-- The last point's block of a one-row output is the whole array. -/
theorem cover4 (i : S1x64.Idx) : ∃ t : Fin cfg0.N, (cfg0.win 4).flush t = true ∧ i ∈ ((cfg0.win 4).blk t).view.set := by
  have hN : cfg0.N = 10 := N_0
  have hi0 : (i 0).val < 1 := (i 0).isLt
  have hi1 : (i 1).val < 64 := (i 1).isLt
  have h9 : 9 < cfg0.N := by omega
  refine ⟨⟨9, h9⟩, (flush0_4 _).mpr rfl, ?_⟩
  obtain ⟨-, -, -, -, -, -, -, -, e0, e1, -⟩ := idx_facts ⟨9, h9⟩
  show i ∈ ((View.whole main_v18_1).slice (win0_4.rect ⟨9, h9⟩)).set
  rw [View.set_slice_whole, Rect.mem_set_unit]
  intro a
  match a with
  | ⟨0, _⟩ =>
    show win0_4.index ⟨9, h9⟩ (0 : Fin 2) * 1 ≤ (i 0).val ∧ (i 0).val < win0_4.index ⟨9, h9⟩ (0 : Fin 2) * 1 + 1
    rw [e0]; omega
  | ⟨1, _⟩ =>
    show win0_4.index ⟨9, h9⟩ (1 : Fin 2) * 64 ≤ (i 1).val ∧ (i 1).val < win0_4.index ⟨9, h9⟩ (1 : Fin 2) * 64 + 64
    rw [e1]; omega

theorem cover5 (i : S1x64.Idx) : ∃ t : Fin cfg0.N, (cfg0.win 5).flush t = true ∧ i ∈ ((cfg0.win 5).blk t).view.set := by
  have hN : cfg0.N = 10 := N_0
  have hi0 : (i 0).val < 1 := (i 0).isLt
  have hi1 : (i 1).val < 64 := (i 1).isLt
  have h9 : 9 < cfg0.N := by omega
  refine ⟨⟨9, h9⟩, (flush0_5 _).mpr rfl, ?_⟩
  obtain ⟨-, -, -, -, -, -, -, -, -, -, e0, e1⟩ := idx_facts ⟨9, h9⟩
  show i ∈ ((View.whole main_v18_2).slice (win0_5.rect ⟨9, h9⟩)).set
  rw [View.set_slice_whole, Rect.mem_set_unit]
  intro a
  match a with
  | ⟨0, _⟩ =>
    show win0_5.index ⟨9, h9⟩ (0 : Fin 2) * 1 ≤ (i 0).val ∧ (i 0).val < win0_5.index ⟨9, h9⟩ (0 : Fin 2) * 1 + 1
    rw [e0]; omega
  | ⟨1, _⟩ =>
    show win0_5.index ⟨9, h9⟩ (1 : Fin 2) * 64 ≤ (i 1).val ∧ (i 1).val < win0_5.index ⟨9, h9⟩ (1 : Fin 2) * 64 + 64
    rw [e1]; omega

/-- THE REGION'S VALUE: with the bias row the reference's, output 3 ends at the dense layer z = a·W + b of the arrays
    the region finds, output 4 at the column sums of z and output 5 at the column sums of z·z, each as a one-row matrix. -/
theorem value (c : Dev nD)
    (b : FVec Ideal Cert.ReferenceIdeal.S64 .f32) (hb : V c (Pipeline.arrRef spec0 2) = Cert.RefSpec.row b) :
    (dat0 (F := Ideal) V c).arrAt 3 cfg0.N = Cert.RefSpec.lin64 (V c (Pipeline.arrRef spec0 0)) (V c (Pipeline.arrRef spec0 1)) b
    ∧ (dat0 (F := Ideal) V c).arrAt 4 cfg0.N = Cert.RefSpec.row (Cert.RefSpec.colSum (Cert.RefSpec.lin64 (V c (Pipeline.arrRef spec0 0)) (V c (Pipeline.arrRef spec0 1)) b))
    ∧ (dat0 (F := Ideal) V c).arrAt 5 cfg0.N = Cert.RefSpec.row (Cert.RefSpec.colSum (mulf (Cert.RefSpec.lin64 (V c (Pipeline.arrRef spec0 0)) (V c (Pipeline.arrRef spec0 1)) b) (Cert.RefSpec.lin64 (V c (Pipeline.arrRef spec0 0)) (V c (Pipeline.arrRef spec0 1)) b))) :=
  ⟨final3 V c b hb,
   (dat0 V c).arrAt_eq_of_cover 4 _ (flushed4 V c b hb) cover4,
   (dat0 V c).arrAt_eq_of_cover 5 _ (flushed5 V c b hb) cover5⟩

end Arrays

end Cert.KernelIdeal.Region0

end
-- ==== Proof.LibLeakyRows.lean ====
/-
  The leaky rectifier on a block of rows, at the extended reals.

  The map x ↦ x when x ≥ z, and s · x otherwise, is spelt with a comparison, a product with the slope and a
  selection between the entry and the product. It acts on each entry by itself, so on a block of rows of a matrix it
  gives the same block of rows of what it gives on the whole matrix. Inside a kernel body the threshold z and the
  slope s are scalars splat over the block; on the host they are rank-0 constants broadcast to the whole matrix. No
  finiteness is asked of any entry: the two sides are the same expression of the same entry.
-/
import proofs.«118196_j43138651521238_2_alg».proof.Proof.LibPlainRecord

noncomputable section

namespace Cert.Lib.DenseLayer

open Idealize.ShloMosaic Idealize.ShloMosaic.ValueIdx

/-- A rank-0 constant broadcast to a matrix holds the constant's value at every entry. -/
theorem scalarConst_apply {M K : Nat} (w : BitVec 32)
    (hB : (⟨0, ![]⟩ : Shape).BroadcastsInDim ⟨2, ![M, K]⟩ ![]) (i : (⟨2, ![M, K]⟩ : Shape).Idx) :
    broadcastInDim ⟨2, ![M, K]⟩ ![] hB (constant (F := Ideal) ⟨0, ![]⟩ .f32 w) i = Ideal.ofBits .f32 w :=
  broadcastInDim_apply ![] hB (constant (F := Ideal) ⟨0, ![]⟩ .f32 w) i ix0 (fun a => a.elim0)

/-- The leaky rectifier with threshold word `zw` and slope word `sw`: on a block of rows with splat scalars, it
    is the block of rows of the host's form with broadcast rank-0 constants. -/
theorem RowBlk.leaky {Mb M K : Nat} {off : Nat} {a : FVec Ideal ⟨2, ![Mb, K]⟩ .f32} {A : FVec Ideal ⟨2, ![M, K]⟩ .f32}
    (ha : RowBlk off a A) (zw sw : BitVec 32)
    (hB : (⟨0, ![]⟩ : Shape).BroadcastsInDim ⟨2, ![M, K]⟩ ![]) :
    RowBlk off
      (select (cmpf .oge a (broadcast ⟨2, ![Mb, K]⟩ (Scalar.ofBits (F := Ideal) .f32 zw))) a
        (mulf (broadcast ⟨2, ![Mb, K]⟩ (Scalar.ofBits (F := Ideal) .f32 sw)) a))
      (select (cmpf .oge A (broadcastInDim ⟨2, ![M, K]⟩ ![] hB (constant (F := Ideal) ⟨0, ![]⟩ .f32 zw))) A
        (mulf (broadcastInDim ⟨2, ![M, K]⟩ ![] hB (constant (F := Ideal) ⟨0, ![]⟩ .f32 sw)) A)) := fun r hr k => by
  rw [select_apply, select_apply, cmpf_apply, cmpf_apply, mulf_apply, mulf_apply, broadcast_apply, broadcast_apply,
    scalarConst_apply, scalarConst_apply, ha r hr k]
  rfl

end Cert.Lib.DenseLayer

end
-- ==== Proof.Region1.lean ====
/-
  The normalise-scale-shift-leaky step of region 1, computed on blocks of 10000 rows.

  At each of the ten grid points the body takes its block of rows of z and four one-row matrices — the column
  means μ, the column variances σ², the scales γ and the shifts β — and stores
  y = (z − μ)·rsqrt(σ² + ε)·γ + β where y ≥ 0 and 0.01·y elsewhere. The reciprocal square root is taken on the
  one-row matrix; every other operation acts on each entry of the block with the row operands repeated down
  the rows. So the block it stores is the same block of rows of the whole-array function of z, μ, σ², γ, β. The
  ten blocks tile the 100000 rows, so after the last write-back the output array is that function of the
  region's input arrays.
-/
import proofs.«118196_j43138651521238_2_alg».proof.Proof.Gen.KernelIdeal.Frame
import proofs.«118196_j43138651521238_2_alg».proof.Proof.RefSpec
import proofs.«118196_j43138651521238_2_alg».proof.Proof.LibBlockFormats
import proofs.«118196_j43138651521238_2_alg».proof.Proof.LibLeakyRows
import proofs.«118196_j43138651521238_2_alg».proof.Proof.LibRowRead
import Idealize.ShloMosaic.Lib.Pipeline.Value

set_option maxRecDepth 16384

noncomputable section

namespace Cert.KernelIdeal.Region1

open Cert.KernelIdeal Cert.KernelIdeal.Gen Idealize.ShloMosaic Idealize.ShloMosaic.ValueIdx Cert.Lib.DenseLayer
open Idealize.ShloMosaic.TcCoe Idealize.SL.Sem
open Idealize.ShloMosaic.Pipeline (Dat)

theorem hz : (![0, 0] : Fin 2 → Nat) = fun _ => 0 := funext fun a => by fin_cases a <;> rfl

/-- Entrywise differences of blocks of rows. -/
theorem rowBlk_sub {Mb M K : Nat} {off : Nat} {a b : FVec Ideal ⟨2, ![Mb, K]⟩ .f32} {A B : FVec Ideal ⟨2, ![M, K]⟩ .f32}
    (ha : RowBlk off a A) (hb : RowBlk off b B) : RowBlk off (subf a b) (subf A B) := fun r hr k => by
  rw [subf_apply, subf_apply, ha r hr k, hb r hr k]

/-- A vector of n numbers made a one-row matrix, read at an entry of the row. -/
theorem row_apply {n : Nat} (hn : n ≠ 1) (v : (⟨1, ![n]⟩ : Shape).Idx → EReal)
    (hb : (⟨1, ![n]⟩ : Shape).BroadcastsInDim ⟨2, ![1, n]⟩ ![1]) (p : Fin 1) (q : Fin n) :
    broadcastInDim ⟨2, ![1, n]⟩ ![1] hb v (ix2 p q) = v (ix1 q) :=
  broadcastInDim_apply ![1] hb v (ix2 p q) (ix1 q) (fun a => by
    match a with
    | ⟨0, _⟩ => exact (if_neg hn).symm)

/-- The reciprocal square root of σ² + ε taken on the one-row matrix is the one-row matrix of the reciprocal square
    roots taken on the vector: entry by entry both are rsqrt(σ²ₖ + ε). -/
theorem rsqrt_row (s2 : FVec Ideal Cert.ReferenceIdeal.S64 .f32) (w : BitVec 32) :
    rsqrt (addf (Cert.RefSpec.row s2) (broadcast S1x64 (Scalar.ofBits (F := Ideal) .f32 w)))
      = Cert.RefSpec.row (Host.rsqrt (F := Ideal) (addf s2
          (broadcastInDim Cert.ReferenceIdeal.S64 ![] Cert.ReferenceIdeal.Facts₀.bcast_S_S64
            (constant (F := Ideal) Cert.ReferenceIdeal.S_ .f32 w)))) := by
  funext j
  obtain ⟨p, q, rfl⟩ : ∃ (p : Fin 1) (q : Fin 64), j = ix2 p q := ⟨j 0, j 1, eq_ix2 j⟩
  unfold Cert.RefSpec.row
  have e1 := row_apply (n := 64) (by decide) s2 Cert.ReferenceIdeal.Facts₀.bcast_S64_S1x64_1 p q
  have e2 := row_apply (n := 64) (by decide) (Host.rsqrt (F := Ideal) (addf s2
      (broadcastInDim Cert.ReferenceIdeal.S64 ![] Cert.ReferenceIdeal.Facts₀.bcast_S_S64
        (constant (F := Ideal) Cert.ReferenceIdeal.S_ .f32 w)))) Cert.ReferenceIdeal.Facts₀.bcast_S64_S1x64_1 p q
  have e3 := broadcastInDim_apply ![] Cert.ReferenceIdeal.Facts₀.bcast_S_S64
    (constant (F := Ideal) Cert.ReferenceIdeal.S_ .f32 w) (ix1 q) ix0 (fun a => a.elim0)
  exact (congrArg Ideal.rsqrt (congrArg₂ (· + ·) e1 e3.symm)).trans e2.symm

/-- The body's payload on a block of rows of z and the four row operands: that block of rows of the whole-array
    normalise-scale-shift-leaky function. -/
theorem pay_rows (off : Nat) (x0 : Vec Ideal S10000x64 .f32) (x1 x2 x3 x4 : Vec Ideal S1x64 .f32)
    (Z : FVec Ideal Cert.ReferenceIdeal.S100000x64 .f32) (mu s2 g be : FVec Ideal Cert.ReferenceIdeal.S64 .f32)
    (h0 : RowBlk off x0 Z) (h1 : x1 = Cert.RefSpec.row mu) (h2 : x2 = Cert.RefSpec.row s2)
    (h3 : x3 = Cert.RefSpec.row g) (h4 : x4 = Cert.RefSpec.row be) :
    RowBlk off (k1_pay1 x0 x2 x1 x3 x4) (Cert.RefSpec.normact Z mu s2 g be) := by
  subst h1 h2 h3 h4
  unfold k1_pay1 Cert.RefSpec.normact Cert.RefSpec.rows
  refine RowBlk.leaky (RowBlk.add (RowBlk.mul (RowBlk.mul (rowBlk_sub (h0.castSelf _) ?_) ?_) ?_) ?_) _ _ _
  · rw [shapeCast_self]; exact RowBlk.bias _ _ _
  · rw [shapeCast_self, rsqrt_row]; exact RowBlk.bias _ _ _
  · rw [shapeCast_self]; exact RowBlk.bias _ _ _
  · rw [shapeCast_self]; exact RowBlk.bias _ _ _

/-- The index maps over the ten grid points: the blocks of z and of the output move down one block of rows per
    point; the four row operands stay whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The block of z at point t is its rows 10000·t … 10000·t + 9999. -/
theorem blk0_rows (c : Dev nD) (t : Fin cfg1.N) :
    RowBlk (t.val * 10000) (iblk1 V c 0 t : Vec Ideal S10000x64 .f32) (V c (Pipeline.arrRef spec1 0) : S100000x64.Idx → EReal) := by
  obtain ⟨e0, e1, -⟩ := idx_facts t
  refine RowBlk.of_read (fun y => ((cfg1.win 0).blk t).view.emb y) (fun y => ?_) (fun y => ?_) (fun y => rfl)
  · show win1_0.index t (0 : Fin 2) * 10000 + 1 * (y 0).val = _; omega
  · show win1_0.index t (1 : Fin 2) * 64 + 1 * (y 1).val = _; omega

/-- The block of each row operand at every point is the row operand. -/
theorem blk1_eq (c : Dev nD) (t : Fin cfg1.N) :
    (iblk1 V c 1 t : Vec Ideal S1x64 .f32) = (V c (Pipeline.arrRef spec1 1) : S1x64.Idx → EReal) := by
  obtain ⟨-, -, e0, e1, -⟩ := idx_facts t
  funext y
  show (V c (Pipeline.arrRef spec1 1) : S1x64.Idx → EReal) (((cfg1.win 1).blk t).view.emb y) = _
  refine congrArg _ (idx2_ext _ _ ?_ ?_)
  · show win1_1.index t (0 : Fin 2) * 1 + 1 * (y 0).val = _; omega
  · show win1_1.index t (1 : Fin 2) * 64 + 1 * (y 1).val = _; omega
theorem blk2_eq (c : Dev nD) (t : Fin cfg1.N) :
    (iblk1 V c 2 t : Vec Ideal S1x64 .f32) = (V c (Pipeline.arrRef spec1 2) : S1x64.Idx → EReal) := by
  obtain ⟨-, -, -, -, e0, e1, -⟩ := idx_facts t
  funext y
  show (V c (Pipeline.arrRef spec1 2) : S1x64.Idx → EReal) (((cfg1.win 2).blk t).view.emb y) = _
  refine congrArg _ (idx2_ext _ _ ?_ ?_)
  · show win1_2.index t (0 : Fin 2) * 1 + 1 * (y 0).val = _; omega
  · show win1_2.index t (1 : Fin 2) * 64 + 1 * (y 1).val = _; omega
theorem blk3_eq (c : Dev nD) (t : Fin cfg1.N) :
    (iblk1 V c 3 t : Vec Ideal S1x64 .f32) = (V c (Pipeline.arrRef spec1 3) : S1x64.Idx → EReal) := by
  obtain ⟨-, -, -, -, -, -, e0, e1, -⟩ := idx_facts t
  funext y
  show (V c (Pipeline.arrRef spec1 3) : S1x64.Idx → EReal) (((cfg1.win 3).blk t).view.emb y) = _
  refine congrArg _ (idx2_ext _ _ ?_ ?_)
  · show win1_3.index t (0 : Fin 2) * 1 + 1 * (y 0).val = _; omega
  · show win1_3.index t (1 : Fin 2) * 64 + 1 * (y 1).val = _; omega
theorem blk4_eq (c : Dev nD) (t : Fin cfg1.N) :
    (iblk1 V c 4 t : Vec Ideal S1x64 .f32) = (V c (Pipeline.arrRef spec1 4) : S1x64.Idx → EReal) := by
  obtain ⟨-, -, -, -, -, -, -, -, e0, e1, -⟩ := idx_facts t
  funext y
  show (V c (Pipeline.arrRef spec1 4) : S1x64.Idx → EReal) (((cfg1.win 4).blk t).view.emb y) = _
  refine congrArg _ (idx2_ext _ _ ?_ ?_)
  · show win1_4.index t (0 : Fin 2) * 1 + 1 * (y 0).val = _; omega
  · show win1_4.index t (1 : Fin 2) * 64 + 1 * (y 1).val = _; omega

/-- What point t writes back is block t of the whole-array function of the arrays as the region finds them. -/
theorem flushed_eq (c : Dev nD) (mu s2 g be : FVec Ideal Cert.ReferenceIdeal.S64 .f32)
    (h1 : V c (Pipeline.arrRef spec1 1) = Cert.RefSpec.row mu) (h2 : V c (Pipeline.arrRef spec1 2) = Cert.RefSpec.row s2)
    (h3 : V c (Pipeline.arrRef spec1 3) = Cert.RefSpec.row g) (h4 : V c (Pipeline.arrRef spec1 4) = Cert.RefSpec.row be)
    (t : Fin cfg1.N) :
    (dat1 (F := Ideal) V c).flushed 5 t = ((cfg1.win 5).blk t).view.read (Elt Ideal)
      (Cert.RefSpec.normact (V c (Pipeline.arrRef spec1 0)) mu s2 g be) := by
  show (cfg1.win 5).cut (grid1.coords t) ((dat1 (F := Ideal) V c).after 5 t) = _
  rw [after1_5]
  unfold out1_5
  rw [View.canon_unit_zero hz]
  simp only [View.ld_unit_zero (S := S10000x64) hz, View.ld_unit_zero (S := S1x64) hz]
  have key := pay_rows (t.val * 10000) (iblk1 V c 0 t) (iblk1 V c 1 t) (iblk1 V c 2 t) (iblk1 V c 3 t) (iblk1 V c 4 t)
    (V c (Pipeline.arrRef spec1 0)) mu s2 g be
    (blk0_rows V c t) ((blk1_eq V c t).trans h1) ((blk2_eq V c t).trans h2) ((blk3_eq V c t).trans h3)
    ((blk4_eq V c t).trans h4)
  obtain ⟨-, -, -, -, -, -, -, -, -, -, e0, e1⟩ := idx_facts t
  funext y
  refine key.at y (((cfg1.win 5).blk t).view.emb y) ?_ ?_
  · show win1_5.index t (0 : Fin 2) * 10000 + 1 * (y 0).val = _; omega
  · show win1_5.index t (1 : Fin 2) * 64 + 1 * (y 1).val = _; omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v29).slice (win1_5.rect t)).set ↔ _
  rw [View.set_slice_whole, Rect.mem_set_unit]
  exact Iff.rfl

/-- Row r of the output is in the block of point r / 10000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- After the region the output array is the normalise-scale-shift-leaky function of the region's input arrays as
    it finds them. -/
theorem value (c : Dev nD) (mu s2 g be : FVec Ideal Cert.ReferenceIdeal.S64 .f32)
    (h1 : V c (Pipeline.arrRef spec1 1) = Cert.RefSpec.row mu) (h2 : V c (Pipeline.arrRef spec1 2) = Cert.RefSpec.row s2)
    (h3 : V c (Pipeline.arrRef spec1 3) = Cert.RefSpec.row g) (h4 : V c (Pipeline.arrRef spec1 4) = Cert.RefSpec.row be) :
    (dat1 (F := Ideal) V c).arrAt 5 cfg1.N
      = Cert.RefSpec.normact (V c (Pipeline.arrRef spec1 0)) mu s2 g be :=
  (dat1 (F := Ideal) V c).arrAt_eq_of_cover 5 _ (fun t _ => flushed_eq V c mu s2 g be h1 h2 h3 h4 t) cover

end Cert.KernelIdeal.Region1

end
-- ==== Proof.Region2.lean ====
/-
  Region 2 of the kernel: the dense layer z = a·W + b taken ten row blocks of 10000 rows at a time, with the
  column sums of z and of z·z accumulated over the blocks.
-/
import proofs.«118196_j43138651521238_2_alg».proof.Proof.Gen.KernelIdeal.Frame
import proofs.«118196_j43138651521238_2_alg».proof.Proof.RefSpec
import proofs.«118196_j43138651521238_2_alg».proof.Proof.LibDenseLayer
import proofs.«118196_j43138651521238_2_alg».proof.Proof.LibPlainRecord
import proofs.«118196_j43138651521238_2_alg».proof.Proof.LibBlockFormats
import proofs.«118196_j43138651521238_2_alg».proof.Proof.LibRowRead
import proofs.«118196_j43138651521238_2_alg».proof.Proof.LibChunkedSum
import proofs.«118196_j43138651521238_2_alg».proof.Proof.Stats
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

open scoped BigOperators

namespace Cert.KernelIdeal.Region2

open Cert.KernelIdeal Cert.KernelIdeal.Gen Idealize.ShloMosaic Idealize.ShloMosaic.ValueIdx Cert.Lib.DenseLayer
open Idealize.ShloMosaic.TcCoe Idealize.SL.Sem
open Idealize.ShloMosaic.Pipeline (Dat)

section Pieces
variable {F : FTy → Type} [FloatOps F]

theorem hz : (![0, 0] : Fin 2 → Nat) = fun _ => 0 := funext fun a => by fin_cases a <;> rfl

theorem pieceB3 (c : Dev nD) (i : grid2.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond2_0 i)
    (x0 : Vec F S10000x64 .f32) (x1 : Vec F S64x64 .f32) (x2 : Vec F S1x64 .f32) (xo4 xo5 : Vec F S1x64 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread,
    View.ld_unit_zero (S := S10000x64) hz, View.ld_unit_zero (S := S64x64) hz, View.ld_unit_zero (S := S1x64) hz]

theorem pieceB4 (c : Dev nD) (i : grid2.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond2_0 i)
    (x0 : Vec F S10000x64 .f32) (x1 : Vec F S64x64 .f32) (x2 : Vec F S1x64 .f32) (xo4 xo5 : Vec F S1x64 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread,
    View.ld_unit_zero (S := S10000x64) hz, View.ld_unit_zero (S := S64x64) hz, View.ld_unit_zero (S := S1x64) hz]

theorem pieceB5 (c : Dev nD) (i : grid2.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond2_0 i)
    (x0 : Vec F S10000x64 .f32) (x1 : Vec F S64x64 .f32) (x2 : Vec F S1x64 .f32) (xo4 xo5 : Vec F S1x64 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h6.read_unread,
    View.ld_unit_zero (S := S10000x64) hz, View.ld_unit_zero (S := S64x64) hz, View.ld_unit_zero (S := S1x64) hz]

theorem pieceA3 (c : Dev nD) (i : grid2.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond2_0 i)
    (x0 : Vec F S10000x64 .f32) (x1 : Vec F S64x64 .f32) (x2 : Vec F S1x64 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  sl_unfold_words
  rw [View.canon_unit_zero hz]
  simp only [View.readAt_eq_ld, h1.read_unread, h2.read_unread, h3.read_unread,
    View.ld_unit_zero (S := S10000x64) hz, View.ld_unit_zero (S := S64x64) hz, View.ld_unit_zero (S := S1x64) hz]

theorem pieceA4 (c : Dev nD) (i : grid2.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond2_0 i)
    (x0 : Vec F S10000x64 .f32) (x1 : Vec F S64x64 .f32) (x2 : Vec F S1x64 .f32) :
    out2_A_4 c i a1 h1 a2 h2 a3 h3 a4 h4 a5 h5 a6 h6 hc x0 x1 x2 = k2_pay4 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S10000x64) hz, View.ld_unit_zero (S := S64x64) hz, View.ld_unit_zero (S := S1x64) hz]

theorem pieceA5 (c : Dev nD) (i : grid2.Coords) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond2_0 i)
    (x0 : Vec F S10000x64 .f32) (x1 : Vec F S64x64 .f32) (x2 : Vec F S1x64 .f32) :
    out2_A_5 c i a1 h1 a2 h2 a3 h3 a4 h4 a5 h5 a6 h6 hc x0 x1 x2 = k2_pay5 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S10000x64) hz, View.ld_unit_zero (S := S64x64) hz, View.ld_unit_zero (S := S1x64) hz]

end Pieces

/-! ## The arithmetic of one point, at the extended reals -/

section Values

theorem plainB : Plain dot_S10000x64_S64x64_S10000x64_1_0_0_1_n_n := Plain.of_fields _ rfl rfl rfl rfl rfl rfl
theorem plainH : Plain Cert.ReferenceIdeal.dot_S100000x64_S64x64_S100000x64_1_0_0_1_n_n :=
  Plain.of_fields _ rfl rfl rfl rfl rfl rfl

/-- The block of z the body computes from a block of rows of a, the weights and the bias row is that block of rows
    of the dense layer of the whole of a. -/
theorem zblk {off : Nat} (x0 : Vec Ideal S10000x64 .f32) (x1 : Vec Ideal S64x64 .f32) (x2 : Vec Ideal S1x64 .f32)
    (a : FVec Ideal Cert.ReferenceIdeal.S100000x64 .f32) (W : FVec Ideal Cert.ReferenceIdeal.S64x64 .f32)
    (b : FVec Ideal Cert.ReferenceIdeal.S64 .f32)
    (h0 : RowBlk off x0 a) (h1 : x1 = W) (h2 : x2 = Cert.RefSpec.row b) :
    RowBlk off (k2_pay3 x0 x1 x2) (Cert.RefSpec.lin64 a W b) := by
  subst h1 h2
  unfold k2_pay3 Cert.RefSpec.lin64 Cert.RefSpec.rows
  dsimp only
  refine RowBlk.add (RowBlk.matmul plainB plainH (h0.castSelf _) x1 _ _) ?_
  rw [shapeCast_self]
  exact RowBlk.bias _ _ _

/-- The reduced index j with row k put back is (k, j). -/
theorem lift_ix2 (h : S10000x64.Reduces [0] S64) (j : Fin 64) (k : Fin (S10000x64.size 0)) :
    h.lift (ix1 j) k = ix2 (⟨k.val, k.isLt⟩ : Fin 10000) j := by
  funext c; apply Fin.ext
  fin_cases c <;> rfl

/-- Index (0, j) of a one-row matrix with its unit axis dropped is j. -/
theorem tail_ix2 (j : Fin 64) : (fun a : Fin 1 => (ix2 (0 : Fin 1) j) a.succ) = ix1 j :=
  funext fun a => by match a with | ⟨0, _⟩ => rfl

/-- The column sums of a block, as the body takes them. -/
theorem colsum_at (z : FVec Ideal S10000x64 .f32) (h : S10000x64.Reduces [0] S64) (hφ : FKind.Formats FTy.f32)
    (hacc : (0x00000000#32 : BitVec 32) = 0x00000000#32) (j : Fin 64) (q : S64.Idx) (hq : q = ix1 j) :
    multiReduction (F := Ideal) .add [0] S64 z 0x00000000#32 h hφ hacc q = ∑ r : Fin 10000, z (ix2 r j) := by
  subst hq
  refine (Ideal.multiReduction_add_single z 0x00000000#32 h hφ hacc (ix1 j)).trans ?_
  show ∑ k : Fin 10000, z (h.lift (ix1 j) k) = _
  exact Finset.sum_congr rfl fun k _ => congrArg z (lift_ix2 h j k)

/-- The sums accumulator after a point: what it held plus the column sums of the point's block of z. -/
theorem pay4_at (x0 : Vec Ideal S10000x64 .f32) (x1 : Vec Ideal S64x64 .f32) (x2 : Vec Ideal S1x64 .f32)
    (v : Vec Ideal S1x64 .f32) (j : Fin 64) :
    k2_pay4 x0 x1 x2 v (ix2 0 j) = v (ix2 0 j) + ∑ r : Fin 10000, k2_pay3 x0 x1 x2 (ix2 r j) := by
  unfold k2_pay4
  dsimp only
  refine (addf_apply _ _ _).trans ?_
  refine congrArg₂ (· + ·) (congrFun (shapeCast_self v _) _) ?_
  refine (shapeCast_addUnit_apply ![64] _ _ (ix2 0 j)).trans ?_
  exact colsum_at _ _ _ _ j _ (tail_ix2 j)

/-- The sums-of-squares accumulator after a point. -/
theorem pay5_at (x0 : Vec Ideal S10000x64 .f32) (x1 : Vec Ideal S64x64 .f32) (x2 : Vec Ideal S1x64 .f32)
    (v : Vec Ideal S1x64 .f32) (j : Fin 64) :
    k2_pay5 x0 x1 x2 v (ix2 0 j)
      = v (ix2 0 j) + ∑ r : Fin 10000, mulf (k2_pay3 x0 x1 x2) (k2_pay3 x0 x1 x2) (ix2 r j) := by
  unfold k2_pay5
  dsimp only
  refine (addf_apply _ _ _).trans ?_
  refine congrArg₂ (· + ·) (congrFun (shapeCast_self v _) _) ?_
  refine (shapeCast_addUnit_apply ![64] _ _ (ix2 0 j)).trans ?_
  exact colsum_at _ _ _ _ j _ (tail_ix2 j)

end Values

/-! ## The region: what its windows read, and what each point leaves -/

section Region
variable (V : (c : Dev nD) → (b : Ref sig .tc) → Buf (Elt Ideal) ((c : Thread nD τ).loc b))

/-- The printed index maps, decided over the grid: the row-block windows are at block t, the others at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Window 0's block at point t is the block of rows of its array that starts at row 10000·t. -/
theorem blk0 (c : Dev nD) (t : Fin cfg2.N) :
    RowBlk (t.val * 10000) (iblk2 V c 0 t : Vec Ideal S10000x64 .f32)
      (V c (Pipeline.arrRef spec2 0) : FVec Ideal Cert.ReferenceIdeal.S100000x64 .f32) := by
  obtain ⟨e0, e1, -⟩ := idx_facts t
  refine RowBlk.of_read (fun y => ((cfg2.win 0).blk t).view.emb y) (fun y => ?_) (fun y => ?_) (fun y => rfl)
  · show win2_0.index t (0 : Fin 2) * 10000 + 1 * (y 0).val = t.val * 10000 + (y 0).val
    rw [e0]; omega
  · show win2_0.index t (1 : Fin 2) * 64 + 1 * (y 1).val = (y 1).val
    rw [e1]; omega

/-- Window 1's block is the whole weight matrix at every point. -/
theorem blk1 (c : Dev nD) (t : Fin cfg2.N) :
    (iblk2 V c 1 t : Vec Ideal S64x64 .f32) = (V c (Pipeline.arrRef spec2 1) : FVec Ideal Cert.ReferenceIdeal.S64x64 .f32) := by
  obtain ⟨-, -, e0, e1, -⟩ := idx_facts t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- Window 2's block is the whole bias row at every point. -/
theorem blk2 (c : Dev nD) (t : Fin cfg2.N) :
    (iblk2 V c 2 t : Vec Ideal S1x64 .f32) = (V c (Pipeline.arrRef spec2 2) : FVec Ideal Cert.ReferenceIdeal.S1x64 .f32) := by
  obtain ⟨-, -, -, -, e0, e1, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- What the first point leaves in the three outputs' buffers: its block of z, and the column sums of the block and of
    its square over the zero row. -/
theorem outA3 (c : Dev nD) (t : Fin cfg2.N) (h0 : t.val % 10 = 0) :
    (outsAt2 V c t.val t.isLt).1 = k2_pay3 (iblk2 V c 0 t) (iblk2 V c 1 t) (iblk2 V c 2 t) := by
  rw [outsAt2_A V c t h0]
  dsimp only
  exact pieceA3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outA4 (c : Dev nD) (t : Fin cfg2.N) (h0 : t.val % 10 = 0) :
    (outsAt2 V c t.val t.isLt).2.1 = k2_pay4 (iblk2 V c 0 t) (iblk2 V c 1 t) (iblk2 V c 2 t) (k2_pay1 (F := Ideal)) := by
  rw [outsAt2_A V c t h0]
  dsimp only
  exact pieceA4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outA5 (c : Dev nD) (t : Fin cfg2.N) (h0 : t.val % 10 = 0) :
    (outsAt2 V c t.val t.isLt).2.2 = k2_pay5 (iblk2 V c 0 t) (iblk2 V c 1 t) (iblk2 V c 2 t) (k2_pay2 (F := Ideal)) := by
  rw [outsAt2_A V c t h0]
  dsimp only
  exact pieceA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

/-- What a later point leaves: its block of z, and the accumulators the point before left plus the column sums. -/
theorem outB3 (c : Dev nD) (t : Fin cfg2.N) (h0 : ¬t.val % 10 = 0) :
    (outsAt2 V c t.val t.isLt).1 = k2_pay3 (iblk2 V c 0 t) (iblk2 V c 1 t) (iblk2 V c 2 t) := by
  rw [outsAt2_B V c t h0]
  dsimp only
  exact pieceB3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1 (outsAt2 V c (t.val - 1) (Nat.lt_of_le_of_lt (Nat.sub_le _ _) t.isLt)).2.2

theorem outB4 (c : Dev nD) (t : Fin cfg2.N) (h0 : ¬t.val % 10 = 0) :
    (outsAt2 V c t.val t.isLt).2.1 = k2_pay4 (iblk2 V c 0 t) (iblk2 V c 1 t) (iblk2 V c 2 t) (outsAt2 V c (t.val - 1) (Nat.lt_of_le_of_lt (Nat.sub_le _ _) t.isLt)).2.1 := by
  rw [outsAt2_B V c t h0]
  dsimp only
  exact pieceB4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1 (outsAt2 V c (t.val - 1) (Nat.lt_of_le_of_lt (Nat.sub_le _ _) t.isLt)).2.2

theorem outB5 (c : Dev nD) (t : Fin cfg2.N) (h0 : ¬t.val % 10 = 0) :
    (outsAt2 V c t.val t.isLt).2.2 = k2_pay5 (iblk2 V c 0 t) (iblk2 V c 1 t) (iblk2 V c 2 t) (outsAt2 V c (t.val - 1) (Nat.lt_of_le_of_lt (Nat.sub_le _ _) t.isLt)).2.2 := by
  rw [outsAt2_B V c t h0]
  dsimp only
  exact pieceB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1 (outsAt2 V c (t.val - 1) (Nat.lt_of_le_of_lt (Nat.sub_le _ _) t.isLt)).2.2

end Region

/-! ## The accumulators over the grid, and the arrays the region leaves -/

section Final
variable (V : (c : Dev nD) → (b : Ref sig .tc) → Buf (Elt Ideal) ((c : Thread nD τ).loc b))

open ChunkedSum

/-- The dense layer of the arrays the region finds. -/
abbrev Z (c : Dev nD) (b : FVec Ideal Cert.ReferenceIdeal.S64 .f32) : FVec Ideal Cert.ReferenceIdeal.S100000x64 .f32 :=
  Cert.RefSpec.lin64 (V c (Pipeline.arrRef spec2 0)) (V c (Pipeline.arrRef spec2 1)) b

/-- The block of z point t computes is the block of rows of the dense layer that starts at row 10000·t. -/
theorem zblk_pt (c : Dev nD) (b : FVec Ideal Cert.ReferenceIdeal.S64 .f32)
    (hb : V c (Pipeline.arrRef spec2 2) = Cert.RefSpec.row b) (t : Fin cfg2.N) :
    RowBlk (t.val * 10000) (k2_pay3 (iblk2 V c 0 t) (iblk2 V c 1 t) (iblk2 V c 2 t)) (Z V c b) :=
  zblk _ _ _ _ _ b (blk0 V c t) (blk1 V c t) ((blk2 V c t).trans hb)

/-- Output 3's buffer after point t holds the block of z the point computes. -/
theorem out3_eq (c : Dev nD) (t : Fin cfg2.N) :
    (outsAt2 V c t.val t.isLt).1 = k2_pay3 (iblk2 V c 0 t) (iblk2 V c 1 t) (iblk2 V c 2 t) := by
  by_cases h0 : t.val % 10 = 0
  · exact outA3 V c t h0
  · exact outB3 V c t h0

/-- One step of a sum over 100000 entries taken 10000 entries at a time. -/
theorem chunk_step (f : Fin 100000 → EReal) (g : Fin 10000 → EReal) (t : ℕ) (ht : t < 10) (prev : EReal)
    (hprev : prev = sumBelow f (t * 10000))
    (hg : ∀ (r : Fin 10000) (h : t * 10000 + r.val < 100000), g r = f ⟨t * 10000 + r.val, h⟩) :
    prev + ∑ r, g r = sumBelow f ((t + 1) * 10000) := by
  rw [show (t + 1) * 10000 = t * 10000 + 10000 by ring, sumBelow_add f _ _ (by omega), hprev]
  exact congrArg _ (Finset.sum_congr rfl fun r _ => hg r _)

/-- The zero row the first point stores. -/
theorem pay1_at (y : S1x64.Idx) : (k2_pay1 : FVec Ideal S1x64 .f32) y = 0 := Ideal.ofBits_zero_f32
theorem pay2_at (y : S1x64.Idx) : (k2_pay2 : FVec Ideal S1x64 .f32) y = 0 := Ideal.ofBits_zero_f32

/-- After point n the two accumulators hold, in column j, the sums of z and of z·z over the rows of the blocks
    up to and including block n. -/
theorem acc_inv (c : Dev nD) (b : FVec Ideal Cert.ReferenceIdeal.S64 .f32)
    (hb : V c (Pipeline.arrRef spec2 2) = Cert.RefSpec.row b) : ∀ (n : ℕ) (h : n < cfg2.N) (j : Fin 64),
    (outsAt2 V c n h).2.1 (ix2 0 j) = sumBelow (fun r : Fin 100000 => Z V c b (ix2 r j)) ((n + 1) * 10000)
    ∧ (outsAt2 V c n h).2.2 (ix2 0 j)
        = sumBelow (fun r : Fin 100000 => mulf (Z V c b) (Z V c b) (ix2 r j)) ((n + 1) * 10000)
  | 0, h, j => by
    have hz := zblk_pt V c b hb ⟨0, h⟩
    constructor
    · refine (congrFun (outA4 V c ⟨0, h⟩ rfl) (ix2 0 j)).trans ?_
      refine (pay4_at _ _ _ _ j).trans ?_
      exact chunk_step _ _ 0 (by omega) _ ((pay1_at _).trans (sumBelow_zero _).symm) (fun r hr => hz r hr j)
    · refine (congrFun (outA5 V c ⟨0, h⟩ rfl) (ix2 0 j)).trans ?_
      refine (pay5_at _ _ _ _ j).trans ?_
      exact chunk_step _ _ 0 (by omega) _ ((pay2_at _).trans (sumBelow_zero _).symm) (fun r hr => (hz.mul hz) r hr j)
  | n + 1, h, j => by
    have hN : cfg2.N = 10 := N_2
    have hB : ¬(⟨n + 1, h⟩ : Fin cfg2.N).val % 10 = 0 := by dsimp only; omega
    have ih := acc_inv c b hb n (Nat.lt_of_succ_lt h) j
    have hz := zblk_pt V c b hb ⟨n + 1, h⟩
    constructor
    · refine (congrFun (outB4 V c ⟨n + 1, h⟩ hB) (ix2 0 j)).trans ?_
      refine (pay4_at _ _ _ _ j).trans ?_
      exact chunk_step _ _ (n + 1) (by omega) _ ih.1 (fun r hr => hz r hr j)
    · refine (congrFun (outB5 V c ⟨n + 1, h⟩ hB) (ix2 0 j)).trans ?_
      refine (pay5_at _ _ _ _ j).trans ?_
      exact chunk_step _ _ (n + 1) (by omega) _ ih.2 (fun r hr => (hz.mul hz) r hr j)

/-- The reference's column sums, as a one-row matrix, read in column j: the sum of the column. -/
theorem row_colSum_at (z : FVec Ideal Cert.ReferenceIdeal.S100000x64 .f32) (j : Fin 64) :
    Cert.RefSpec.row (Cert.RefSpec.colSum z) (ix2 0 j) = ∑ r : Fin 100000, z (ix2 r j) :=
  (Cert.Stats.row_apply _ 0 j).trans (Cert.Stats.colSum_apply z j)

/-- Every index of a one-row matrix is (0, j). -/
theorem row_idx (y : S1x64.Idx) : y = ix2 0 (y 1) :=
  (eq_ix2 y).trans (congrArg (fun r => ix2 r (y 1)) (Fin.ext (by
    show (y 0).val = 0
    have := idx2_lt0 y; omega)))

/-- After the last point the sums accumulator is the reference's column sums of the dense layer … -/
theorem acc4_last (c : Dev nD) (b : FVec Ideal Cert.ReferenceIdeal.S64 .f32)
    (hb : V c (Pipeline.arrRef spec2 2) = Cert.RefSpec.row b) (t : Fin cfg2.N) (h9 : t.val = 9) :
    (outsAt2 V c t.val t.isLt).2.1 = Cert.RefSpec.row (Cert.RefSpec.colSum (Z V c b)) := by
  funext y
  obtain ⟨j, rfl⟩ : ∃ j : Fin 64, y = ix2 0 j := ⟨y 1, row_idx y⟩
  refine ((acc_inv V c b hb t.val t.isLt j).1).trans (Eq.trans ?_ (row_colSum_at (Z V c b) j).symm)
  rw [show (t.val + 1) * 10000 = 100000 by omega]
  exact sumBelow_all _

/-- … and the squares accumulator the column sums of its entrywise square. -/
theorem acc5_last (c : Dev nD) (b : FVec Ideal Cert.ReferenceIdeal.S64 .f32)
    (hb : V c (Pipeline.arrRef spec2 2) = Cert.RefSpec.row b) (t : Fin cfg2.N) (h9 : t.val = 9) :
    (outsAt2 V c t.val t.isLt).2.2 = Cert.RefSpec.row (Cert.RefSpec.colSum (mulf (Z V c b) (Z V c b))) := by
  funext y
  obtain ⟨j, rfl⟩ : ∃ j : Fin 64, y = ix2 0 j := ⟨y 1, row_idx y⟩
  refine ((acc_inv V c b hb t.val t.isLt j).2).trans (Eq.trans ?_ (row_colSum_at (mulf (Z V c b) (Z V c b)) j).symm)
  rw [show (t.val + 1) * 10000 = 100000 by omega]
  exact sumBelow_all _

end Final

/-! ## From the write-backs to the arrays -/

section Arrays
variable (V : (c : Dev nD) → (b : Ref sig .tc) → Buf (Elt Ideal) ((c : Thread nD τ).loc b))

/-- What point t writes back to output 3's array is block t of the dense layer. -/
theorem flushed3 (c : Dev nD) (b : FVec Ideal Cert.ReferenceIdeal.S64 .f32)
    (hb : V c (Pipeline.arrRef spec2 2) = Cert.RefSpec.row b) (t : Fin cfg2.N) :
    (dat2 V c).flushed 3 t = ((cfg2.win 3).blk t).view.read (Elt Ideal) (Z V c b) := by
  show (cfg2.win 3).cut (grid2.coords t) ((dat2 V c).after 3 t) = _
  rw [after2_3, out3_eq V c t]
  obtain ⟨-, -, -, -, -, -, e0, e1, -⟩ := idx_facts t
  funext y
  show k2_pay3 (iblk2 V c 0 t) (iblk2 V c 1 t) (iblk2 V c 2 t) y = Z V c b (((cfg2.win 3).blk t).view.emb y)
  refine (zblk_pt V c b hb t).read y _ ?_ ?_
  · show win2_3.index t (0 : Fin 2) * 10000 + 1 * (y 0).val = t.val * 10000 + (y 0).val
    rw [e0]; omega
  · show win2_3.index t (1 : Fin 2) * 64 + 1 * (y 1).val = (y 1).val
    rw [e1]; omega

/-- An index of output 3's array is in point t's block iff each coordinate is in the block's range on its axis. -/
theorem mem_blk3 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v44_0).slice (win2_3.rect t)).set ↔ _
  rw [View.set_slice_whole, Rect.mem_set_unit]
  exact Iff.rfl

/-- Output 3's array ends holding the dense layer: row r is written by point r / 10000. -/
theorem final3 (c : Dev nD) (b : FVec Ideal Cert.ReferenceIdeal.S64 .f32)
    (hb : V c (Pipeline.arrRef spec2 2) = Cert.RefSpec.row b) :
    (dat2 V c).arrAt 3 cfg2.N = Z V c b :=
  (dat2 V c).arrAt_eq_of_cover 3 (Z V c b) (fun t _ => flushed3 V c b hb t) fun i => by
    have hN : cfg2.N = 10 := N_2
    have hi0 : (i 0).val < 100000 := (i 0).isLt
    have hi1 : (i 1).val < 64 := (i 1).isLt
    refine ⟨⟨(i 0).val / 10000, by omega⟩, flush2_3 _, ?_⟩
    obtain ⟨-, -, -, -, -, -, e0, e1, -⟩ := idx_facts ⟨(i 0).val / 10000, by omega⟩
    rw [mem_blk3]
    intro a
    match a with
    | ⟨0, _⟩ =>
      show win2_3.index _ (0 : Fin 2) * 10000 ≤ (i 0).val ∧ (i 0).val < win2_3.index _ (0 : Fin 2) * 10000 + 10000
      rw [e0]; dsimp only; omega
    | ⟨1, _⟩ =>
      show win2_3.index _ (1 : Fin 2) * 64 ≤ (i 1).val ∧ (i 1).val < win2_3.index _ (1 : Fin 2) * 64 + 64
      rw [e1]; omega

/-- The accumulators' one write-back, after the last point, writes the whole one-row array. -/
theorem flushed4 (c : Dev nD) (b : FVec Ideal Cert.ReferenceIdeal.S64 .f32)
    (hb : V c (Pipeline.arrRef spec2 2) = Cert.RefSpec.row b) (t : Fin cfg2.N) (hf : (cfg2.win 4).flush t = true) :
    (dat2 V c).flushed 4 t = ((cfg2.win 4).blk t).view.read (Elt Ideal) (Cert.RefSpec.row (Cert.RefSpec.colSum (Z V c b))) := by
  have hN : cfg2.N = 10 := N_2
  have h9 : t.val = 9 := by have := (flush2_4 t).mp hf; have := t.isLt; omega
  obtain ⟨-, -, -, -, -, -, -, -, e0, e1, -⟩ := idx_facts t
  show (cfg2.win 4).cut (grid2.coords t) ((dat2 V c).after 4 t) = _
  rw [after2_4, acc4_last V c b hb t h9]
  funext y
  show Cert.RefSpec.row (Cert.RefSpec.colSum (Z V c b)) y = Cert.RefSpec.row (Cert.RefSpec.colSum (Z V c b)) (((cfg2.win 4).blk t).view.emb y)
  refine congrArg _ (funext fun a => Fin.ext ?_)
  match a with
  | ⟨0, _⟩ => show (y 0).val = win2_4.index t (0 : Fin 2) * 1 + 1 * (y 0).val; rw [e0]; omega
  | ⟨1, _⟩ => show (y 1).val = win2_4.index t (1 : Fin 2) * 64 + 1 * (y 1).val; rw [e1]; omega

theorem flushed5 (c : Dev nD) (b : FVec Ideal Cert.ReferenceIdeal.S64 .f32)
    (hb : V c (Pipeline.arrRef spec2 2) = Cert.RefSpec.row b) (t : Fin cfg2.N) (hf : (cfg2.win 5).flush t = true) :
    (dat2 V c).flushed 5 t = ((cfg2.win 5).blk t).view.read (Elt Ideal) (Cert.RefSpec.row (Cert.RefSpec.colSum (mulf (Z V c b) (Z V c b)))) := by
  have hN : cfg2.N = 10 := N_2
  have h9 : t.val = 9 := by have := (flush2_5 t).mp hf; have := t.isLt; omega
  obtain ⟨-, -, -, -, -, -, -, -, -, -, e0, e1⟩ := idx_facts t
  show (cfg2.win 5).cut (grid2.coords t) ((dat2 V c).after 5 t) = _
  rw [after2_5, acc5_last V c b hb t h9]
  funext y
  show Cert.RefSpec.row (Cert.RefSpec.colSum (mulf (Z V c b) (Z V c b))) y = Cert.RefSpec.row (Cert.RefSpec.colSum (mulf (Z V c b) (Z V c b))) (((cfg2.win 5).blk t).view.emb y)
  refine congrArg _ (funext fun a => Fin.ext ?_)
  match a with
  | ⟨0, _⟩ => show (y 0).val = win2_5.index t (0 : Fin 2) * 1 + 1 * (y 0).val; rw [e0]; omega
  | ⟨1, _⟩ => show (y 1).val = win2_5.index t (1 : Fin 2) * 64 + 1 * (y 1).val; rw [e1]; omega

/-- The last point's block of a one-row output is the whole array. -/
theorem cover4 (i : S1x64.Idx) : ∃ t : Fin cfg2.N, (cfg2.win 4).flush t = true ∧ i ∈ ((cfg2.win 4).blk t).view.set := by
  have hN : cfg2.N = 10 := N_2
  have hi0 : (i 0).val < 1 := (i 0).isLt
  have hi1 : (i 1).val < 64 := (i 1).isLt
  have h9 : 9 < cfg2.N := by omega
  refine ⟨⟨9, h9⟩, (flush2_4 _).mpr rfl, ?_⟩
  obtain ⟨-, -, -, -, -, -, -, -, e0, e1, -⟩ := idx_facts ⟨9, h9⟩
  show i ∈ ((View.whole main_v44_1).slice (win2_4.rect ⟨9, h9⟩)).set
  rw [View.set_slice_whole, Rect.mem_set_unit]
  intro a
  match a with
  | ⟨0, _⟩ =>
    show win2_4.index ⟨9, h9⟩ (0 : Fin 2) * 1 ≤ (i 0).val ∧ (i 0).val < win2_4.index ⟨9, h9⟩ (0 : Fin 2) * 1 + 1
    rw [e0]; omega
  | ⟨1, _⟩ =>
    show win2_4.index ⟨9, h9⟩ (1 : Fin 2) * 64 ≤ (i 1).val ∧ (i 1).val < win2_4.index ⟨9, h9⟩ (1 : Fin 2) * 64 + 64
    rw [e1]; omega

theorem cover5 (i : S1x64.Idx) : ∃ t : Fin cfg2.N, (cfg2.win 5).flush t = true ∧ i ∈ ((cfg2.win 5).blk t).view.set := by
  have hN : cfg2.N = 10 := N_2
  have hi0 : (i 0).val < 1 := (i 0).isLt
  have hi1 : (i 1).val < 64 := (i 1).isLt
  have h9 : 9 < cfg2.N := by omega
  refine ⟨⟨9, h9⟩, (flush2_5 _).mpr rfl, ?_⟩
  obtain ⟨-, -, -, -, -, -, -, -, -, -, e0, e1⟩ := idx_facts ⟨9, h9⟩
  show i ∈ ((View.whole main_v44_2).slice (win2_5.rect ⟨9, h9⟩)).set
  rw [View.set_slice_whole, Rect.mem_set_unit]
  intro a
  match a with
  | ⟨0, _⟩ =>
    show win2_5.index ⟨9, h9⟩ (0 : Fin 2) * 1 ≤ (i 0).val ∧ (i 0).val < win2_5.index ⟨9, h9⟩ (0 : Fin 2) * 1 + 1
    rw [e0]; omega
  | ⟨1, _⟩ =>
    show win2_5.index ⟨9, h9⟩ (1 : Fin 2) * 64 ≤ (i 1).val ∧ (i 1).val < win2_5.index ⟨9, h9⟩ (1 : Fin 2) * 64 + 64
    rw [e1]; omega

/-- THE REGION'S VALUE: with the bias row the reference's, output 3 ends at the dense layer z = a·W + b of the arrays
    the region finds, output 4 at the column sums of z and output 5 at the column sums of z·z, each as a one-row matrix. -/
theorem value (c : Dev nD)
    (b : FVec Ideal Cert.ReferenceIdeal.S64 .f32) (hb : V c (Pipeline.arrRef spec2 2) = Cert.RefSpec.row b) :
    (dat2 (F := Ideal) V c).arrAt 3 cfg2.N = Cert.RefSpec.lin64 (V c (Pipeline.arrRef spec2 0)) (V c (Pipeline.arrRef spec2 1)) b
    ∧ (dat2 (F := Ideal) V c).arrAt 4 cfg2.N = Cert.RefSpec.row (Cert.RefSpec.colSum (Cert.RefSpec.lin64 (V c (Pipeline.arrRef spec2 0)) (V c (Pipeline.arrRef spec2 1)) b))
    ∧ (dat2 (F := Ideal) V c).arrAt 5 cfg2.N = Cert.RefSpec.row (Cert.RefSpec.colSum (mulf (Cert.RefSpec.lin64 (V c (Pipeline.arrRef spec2 0)) (V c (Pipeline.arrRef spec2 1)) b) (Cert.RefSpec.lin64 (V c (Pipeline.arrRef spec2 0)) (V c (Pipeline.arrRef spec2 1)) b))) :=
  ⟨final3 V c b hb,
   (dat2 V c).arrAt_eq_of_cover 4 _ (flushed4 V c b hb) cover4,
   (dat2 V c).arrAt_eq_of_cover 5 _ (flushed5 V c b hb) cover5⟩

end Arrays

end Cert.KernelIdeal.Region2

end
-- ==== Proof.Region3.lean ====
/-
  The normalise-scale-shift-leaky step of region 3, computed on blocks of 10000 rows.

  At each of the ten grid points the body takes its block of rows of z and four one-row matrices — the column
  means μ, the column variances σ², the scales γ and the shifts β — and stores
  y = (z − μ)·rsqrt(σ² + ε)·γ + β where y ≥ 0 and 0.01·y elsewhere. The reciprocal square root is taken on the
  one-row matrix; every other operation acts on each entry of the block with the row operands repeated down
  the rows. So the block it stores is the same block of rows of the whole-array function of z, μ, σ², γ, β. The
  ten blocks tile the 100000 rows, so after the last write-back the output array is that function of the
  region's input arrays.
-/
import proofs.«118196_j43138651521238_2_alg».proof.Proof.Gen.KernelIdeal.Frame
import proofs.«118196_j43138651521238_2_alg».proof.Proof.RefSpec
import proofs.«118196_j43138651521238_2_alg».proof.Proof.LibBlockFormats
import proofs.«118196_j43138651521238_2_alg».proof.Proof.LibLeakyRows
import proofs.«118196_j43138651521238_2_alg».proof.Proof.LibRowRead
import Idealize.ShloMosaic.Lib.Pipeline.Value

set_option maxRecDepth 16384

noncomputable section

namespace Cert.KernelIdeal.Region3

open Cert.KernelIdeal Cert.KernelIdeal.Gen Idealize.ShloMosaic Idealize.ShloMosaic.ValueIdx Cert.Lib.DenseLayer
open Idealize.ShloMosaic.TcCoe Idealize.SL.Sem
open Idealize.ShloMosaic.Pipeline (Dat)

theorem hz : (![0, 0] : Fin 2 → Nat) = fun _ => 0 := funext fun a => by fin_cases a <;> rfl

/-- Entrywise differences of blocks of rows. -/
theorem rowBlk_sub {Mb M K : Nat} {off : Nat} {a b : FVec Ideal ⟨2, ![Mb, K]⟩ .f32} {A B : FVec Ideal ⟨2, ![M, K]⟩ .f32}
    (ha : RowBlk off a A) (hb : RowBlk off b B) : RowBlk off (subf a b) (subf A B) := fun r hr k => by
  rw [subf_apply, subf_apply, ha r hr k, hb r hr k]

/-- A vector of n numbers made a one-row matrix, read at an entry of the row. -/
theorem row_apply {n : Nat} (hn : n ≠ 1) (v : (⟨1, ![n]⟩ : Shape).Idx → EReal)
    (hb : (⟨1, ![n]⟩ : Shape).BroadcastsInDim ⟨2, ![1, n]⟩ ![1]) (p : Fin 1) (q : Fin n) :
    broadcastInDim ⟨2, ![1, n]⟩ ![1] hb v (ix2 p q) = v (ix1 q) :=
  broadcastInDim_apply ![1] hb v (ix2 p q) (ix1 q) (fun a => by
    match a with
    | ⟨0, _⟩ => exact (if_neg hn).symm)

/-- The reciprocal square root of σ² + ε taken on the one-row matrix is the one-row matrix of the reciprocal square
    roots taken on the vector: entry by entry both are rsqrt(σ²ₖ + ε). -/
theorem rsqrt_row (s2 : FVec Ideal Cert.ReferenceIdeal.S64 .f32) (w : BitVec 32) :
    rsqrt (addf (Cert.RefSpec.row s2) (broadcast S1x64 (Scalar.ofBits (F := Ideal) .f32 w)))
      = Cert.RefSpec.row (Host.rsqrt (F := Ideal) (addf s2
          (broadcastInDim Cert.ReferenceIdeal.S64 ![] Cert.ReferenceIdeal.Facts₀.bcast_S_S64
            (constant (F := Ideal) Cert.ReferenceIdeal.S_ .f32 w)))) := by
  funext j
  obtain ⟨p, q, rfl⟩ : ∃ (p : Fin 1) (q : Fin 64), j = ix2 p q := ⟨j 0, j 1, eq_ix2 j⟩
  unfold Cert.RefSpec.row
  have e1 := row_apply (n := 64) (by decide) s2 Cert.ReferenceIdeal.Facts₀.bcast_S64_S1x64_1 p q
  have e2 := row_apply (n := 64) (by decide) (Host.rsqrt (F := Ideal) (addf s2
      (broadcastInDim Cert.ReferenceIdeal.S64 ![] Cert.ReferenceIdeal.Facts₀.bcast_S_S64
        (constant (F := Ideal) Cert.ReferenceIdeal.S_ .f32 w)))) Cert.ReferenceIdeal.Facts₀.bcast_S64_S1x64_1 p q
  have e3 := broadcastInDim_apply ![] Cert.ReferenceIdeal.Facts₀.bcast_S_S64
    (constant (F := Ideal) Cert.ReferenceIdeal.S_ .f32 w) (ix1 q) ix0 (fun a => a.elim0)
  exact (congrArg Ideal.rsqrt (congrArg₂ (· + ·) e1 e3.symm)).trans e2.symm

/-- The body's payload on a block of rows of z and the four row operands: that block of rows of the whole-array
    normalise-scale-shift-leaky function. -/
theorem pay_rows (off : Nat) (x0 : Vec Ideal S10000x64 .f32) (x1 x2 x3 x4 : Vec Ideal S1x64 .f32)
    (Z : FVec Ideal Cert.ReferenceIdeal.S100000x64 .f32) (mu s2 g be : FVec Ideal Cert.ReferenceIdeal.S64 .f32)
    (h0 : RowBlk off x0 Z) (h1 : x1 = Cert.RefSpec.row mu) (h2 : x2 = Cert.RefSpec.row s2)
    (h3 : x3 = Cert.RefSpec.row g) (h4 : x4 = Cert.RefSpec.row be) :
    RowBlk off (k3_pay1 x0 x2 x1 x3 x4) (Cert.RefSpec.normact Z mu s2 g be) := by
  subst h1 h2 h3 h4
  unfold k3_pay1 Cert.RefSpec.normact Cert.RefSpec.rows
  refine RowBlk.leaky (RowBlk.add (RowBlk.mul (RowBlk.mul (rowBlk_sub (h0.castSelf _) ?_) ?_) ?_) ?_) _ _ _
  · rw [shapeCast_self]; exact RowBlk.bias _ _ _
  · rw [shapeCast_self, rsqrt_row]; exact RowBlk.bias _ _ _
  · rw [shapeCast_self]; exact RowBlk.bias _ _ _
  · rw [shapeCast_self]; exact RowBlk.bias _ _ _

/-- The index maps over the ten grid points: the blocks of z and of the output move down one block of rows per
    point; the four row operands stay whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- The block of z at point t is its rows 10000·t … 10000·t + 9999. -/
theorem blk0_rows (c : Dev nD) (t : Fin cfg3.N) :
    RowBlk (t.val * 10000) (iblk3 V c 0 t : Vec Ideal S10000x64 .f32) (V c (Pipeline.arrRef spec3 0) : S100000x64.Idx → EReal) := by
  obtain ⟨e0, e1, -⟩ := idx_facts t
  refine RowBlk.of_read (fun y => ((cfg3.win 0).blk t).view.emb y) (fun y => ?_) (fun y => ?_) (fun y => rfl)
  · show win3_0.index t (0 : Fin 2) * 10000 + 1 * (y 0).val = _; omega
  · show win3_0.index t (1 : Fin 2) * 64 + 1 * (y 1).val = _; omega

/-- The block of each row operand at every point is the row operand. -/
theorem blk1_eq (c : Dev nD) (t : Fin cfg3.N) :
    (iblk3 V c 1 t : Vec Ideal S1x64 .f32) = (V c (Pipeline.arrRef spec3 1) : S1x64.Idx → EReal) := by
  obtain ⟨-, -, e0, e1, -⟩ := idx_facts t
  funext y
  show (V c (Pipeline.arrRef spec3 1) : S1x64.Idx → EReal) (((cfg3.win 1).blk t).view.emb y) = _
  refine congrArg _ (idx2_ext _ _ ?_ ?_)
  · show win3_1.index t (0 : Fin 2) * 1 + 1 * (y 0).val = _; omega
  · show win3_1.index t (1 : Fin 2) * 64 + 1 * (y 1).val = _; omega
theorem blk2_eq (c : Dev nD) (t : Fin cfg3.N) :
    (iblk3 V c 2 t : Vec Ideal S1x64 .f32) = (V c (Pipeline.arrRef spec3 2) : S1x64.Idx → EReal) := by
  obtain ⟨-, -, -, -, e0, e1, -⟩ := idx_facts t
  funext y
  show (V c (Pipeline.arrRef spec3 2) : S1x64.Idx → EReal) (((cfg3.win 2).blk t).view.emb y) = _
  refine congrArg _ (idx2_ext _ _ ?_ ?_)
  · show win3_2.index t (0 : Fin 2) * 1 + 1 * (y 0).val = _; omega
  · show win3_2.index t (1 : Fin 2) * 64 + 1 * (y 1).val = _; omega
theorem blk3_eq (c : Dev nD) (t : Fin cfg3.N) :
    (iblk3 V c 3 t : Vec Ideal S1x64 .f32) = (V c (Pipeline.arrRef spec3 3) : S1x64.Idx → EReal) := by
  obtain ⟨-, -, -, -, -, -, e0, e1, -⟩ := idx_facts t
  funext y
  show (V c (Pipeline.arrRef spec3 3) : S1x64.Idx → EReal) (((cfg3.win 3).blk t).view.emb y) = _
  refine congrArg _ (idx2_ext _ _ ?_ ?_)
  · show win3_3.index t (0 : Fin 2) * 1 + 1 * (y 0).val = _; omega
  · show win3_3.index t (1 : Fin 2) * 64 + 1 * (y 1).val = _; omega
theorem blk4_eq (c : Dev nD) (t : Fin cfg3.N) :
    (iblk3 V c 4 t : Vec Ideal S1x64 .f32) = (V c (Pipeline.arrRef spec3 4) : S1x64.Idx → EReal) := by
  obtain ⟨-, -, -, -, -, -, -, -, e0, e1, -⟩ := idx_facts t
  funext y
  show (V c (Pipeline.arrRef spec3 4) : S1x64.Idx → EReal) (((cfg3.win 4).blk t).view.emb y) = _
  refine congrArg _ (idx2_ext _ _ ?_ ?_)
  · show win3_4.index t (0 : Fin 2) * 1 + 1 * (y 0).val = _; omega
  · show win3_4.index t (1 : Fin 2) * 64 + 1 * (y 1).val = _; omega

/-- What point t writes back is block t of the whole-array function of the arrays as the region finds them. -/
theorem flushed_eq (c : Dev nD) (mu s2 g be : FVec Ideal Cert.ReferenceIdeal.S64 .f32)
    (h1 : V c (Pipeline.arrRef spec3 1) = Cert.RefSpec.row mu) (h2 : V c (Pipeline.arrRef spec3 2) = Cert.RefSpec.row s2)
    (h3 : V c (Pipeline.arrRef spec3 3) = Cert.RefSpec.row g) (h4 : V c (Pipeline.arrRef spec3 4) = Cert.RefSpec.row be)
    (t : Fin cfg3.N) :
    (dat3 (F := Ideal) V c).flushed 5 t = ((cfg3.win 5).blk t).view.read (Elt Ideal)
      (Cert.RefSpec.normact (V c (Pipeline.arrRef spec3 0)) mu s2 g be) := by
  show (cfg3.win 5).cut (grid3.coords t) ((dat3 (F := Ideal) V c).after 5 t) = _
  rw [after3_5]
  unfold out3_5
  rw [View.canon_unit_zero hz]
  simp only [View.ld_unit_zero (S := S10000x64) hz, View.ld_unit_zero (S := S1x64) hz]
  have key := pay_rows (t.val * 10000) (iblk3 V c 0 t) (iblk3 V c 1 t) (iblk3 V c 2 t) (iblk3 V c 3 t) (iblk3 V c 4 t)
    (V c (Pipeline.arrRef spec3 0)) mu s2 g be
    (blk0_rows V c t) ((blk1_eq V c t).trans h1) ((blk2_eq V c t).trans h2) ((blk3_eq V c t).trans h3)
    ((blk4_eq V c t).trans h4)
  obtain ⟨-, -, -, -, -, -, -, -, -, -, e0, e1⟩ := idx_facts t
  funext y
  refine key.at y (((cfg3.win 5).blk t).view.emb y) ?_ ?_
  · show win3_5.index t (0 : Fin 2) * 10000 + 1 * (y 0).val = _; omega
  · show win3_5.index t (1 : Fin 2) * 64 + 1 * (y 1).val = _; omega

/-- An index of the output array is in point t's block iff each coordinate is in the block's range on its axis. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v55).slice (win3_5.rect t)).set ↔ _
  rw [View.set_slice_whole, Rect.mem_set_unit]
  exact Iff.rfl

/-- Row r of the output is in the block of point r / 10000. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-- After the region the output array is the normalise-scale-shift-leaky function of the region's input arrays as
    it finds them. -/
theorem value (c : Dev nD) (mu s2 g be : FVec Ideal Cert.ReferenceIdeal.S64 .f32)
    (h1 : V c (Pipeline.arrRef spec3 1) = Cert.RefSpec.row mu) (h2 : V c (Pipeline.arrRef spec3 2) = Cert.RefSpec.row s2)
    (h3 : V c (Pipeline.arrRef spec3 3) = Cert.RefSpec.row g) (h4 : V c (Pipeline.arrRef spec3 4) = Cert.RefSpec.row be) :
    (dat3 (F := Ideal) V c).arrAt 5 cfg3.N
      = Cert.RefSpec.normact (V c (Pipeline.arrRef spec3 0)) mu s2 g be :=
  (dat3 (F := Ideal) V c).arrAt_eq_of_cover 5 _ (fun t _ => flushed_eq V c mu s2 g be h1 h2 h3 h4 t) cover

end Cert.KernelIdeal.Region3

end
-- ==== Proof.Region4.lean ====
/-
  The last region: the dense layer a·W + b, 64 → 32 features, computed on blocks of 10000 rows.

  At each of the ten grid points the body multiplies its block of rows of a by the whole of W (both first cast
  to a narrower float format, which at the extended reals changes nothing), into the zero accumulator, and adds
  the one bias row to every row. Each of these acts on every row by itself, so the block it stores is the same
  block of rows of a·W + b computed on the whole array. The ten blocks tile the 100000 rows, so after the last
  write-back the output array is a·W + b.
-/
import proofs.«118196_j43138651521238_2_alg».proof.Proof.Gen.KernelIdeal.Frame
import proofs.«118196_j43138651521238_2_alg».proof.Proof.RefSpec
import proofs.«118196_j43138651521238_2_alg».proof.Proof.LibBlockFormats
import proofs.«118196_j43138651521238_2_alg».proof.Proof.LibRowRead
import Idealize.ShloMosaic.Lib.Pipeline.Value

set_option maxRecDepth 16384

noncomputable section

namespace Cert.KernelIdeal.Region4

open Cert.KernelIdeal Cert.KernelIdeal.Gen Idealize.ShloMosaic Idealize.ShloMosaic.ValueIdx Cert.Lib.DenseLayer
open Idealize.ShloMosaic.TcCoe Idealize.SL.Sem
open Idealize.ShloMosaic.Pipeline (Dat)

theorem hz : (![0, 0] : Fin 2 → Nat) = fun _ => 0 := funext fun a => by fin_cases a <;> rfl

/-- The body's product record and the host's contract the left factor's columns with the right factor's rows. -/
theorem plain_body : Plain dot_S10000x64_S64x32_S10000x32_1_0_0_1_n_n := Plain.of_fields _ rfl rfl rfl rfl rfl rfl
theorem plain_host : Plain Cert.ReferenceIdeal.dot_S100000x64_S64x32_S100000x32_1_0_0_1_n_n :=
  Plain.of_fields _ rfl rfl rfl rfl rfl rfl

/-- The body's payload on a block of rows of a, the whole of W and the bias row: that block of rows of a·W + b. -/
theorem pay_rows (off : Nat) (x0 : Vec Ideal S10000x64 .f32) (x1 : Vec Ideal S64x32 .f32) (x2 : Vec Ideal S1x32 .f32)
    (A : FVec Ideal Cert.ReferenceIdeal.S100000x64 .f32) (b : FVec Ideal Cert.ReferenceIdeal.S32 .f32)
    (W : FVec Ideal Cert.ReferenceIdeal.S64x32 .f32)
    (h0 : RowBlk off x0 A) (h1 : x1 = W) (h2 : x2 = Cert.RefSpec.row32 b) :
    RowBlk off (k4_pay1 x0 x1 x2) (Cert.RefSpec.lin32 A W b) := by
  subst h1
  unfold k4_pay1 Cert.RefSpec.lin32 Cert.RefSpec.rows32
  refine RowBlk.add (RowBlk.matmul plain_body plain_host (h0.castSelf _) x1 _ _) ?_
  rw [shapeCast_self, h2]
  exact RowBlk.bias _ _ _

/-- The index maps over the ten grid points: the blocks of a and of the output move down one block of rows per
    point; W and the bias row stay whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- The block of a at point t is its rows 10000·t … 10000·t + 9999. -/
theorem blk0_rows (c : Dev nD) (t : Fin cfg4.N) :
    RowBlk (t.val * 10000) (iblk4 V c 0 t : Vec Ideal S10000x64 .f32) (V c (Pipeline.arrRef spec4 0) : S100000x64.Idx → EReal) := by
  obtain ⟨e0, e1, -⟩ := idx_facts t
  refine RowBlk.of_read (fun y => ((cfg4.win 0).blk t).view.emb y) (fun y => ?_) (fun y => ?_) (fun y => rfl)
  · show win4_0.index t (0 : Fin 2) * 10000 + 1 * (y 0).val = _; omega
  · show win4_0.index t (1 : Fin 2) * 64 + 1 * (y 1).val = _; omega

/-- The block of W at every point is W. -/
theorem blk1_eq (c : Dev nD) (t : Fin cfg4.N) :
    (iblk4 V c 1 t : Vec Ideal S64x32 .f32) = (V c (Pipeline.arrRef spec4 1) : S64x32.Idx → EReal) := by
  obtain ⟨-, -, e0, e1, -⟩ := idx_facts t
  funext y
  show (V c (Pipeline.arrRef spec4 1) : S64x32.Idx → EReal) (((cfg4.win 1).blk t).view.emb y) = _
  refine congrArg _ (idx2_ext _ _ ?_ ?_)
  · show win4_1.index t (0 : Fin 2) * 64 + 1 * (y 0).val = _; omega
  · show win4_1.index t (1 : Fin 2) * 32 + 1 * (y 1).val = _; omega

/-- The block of the bias row at every point is the bias row. -/
theorem blk2_eq (c : Dev nD) (t : Fin cfg4.N) :
    (iblk4 V c 2 t : Vec Ideal S1x32 .f32) = (V c (Pipeline.arrRef spec4 2) : S1x32.Idx → EReal) := by
  obtain ⟨-, -, -, -, e0, e1, -⟩ := idx_facts t
  funext y
  show (V c (Pipeline.arrRef spec4 2) : S1x32.Idx → EReal) (((cfg4.win 2).blk t).view.emb y) = _
  refine congrArg _ (idx2_ext _ _ ?_ ?_)
  · show win4_2.index t (0 : Fin 2) * 1 + 1 * (y 0).val = _; omega
  · show win4_2.index t (1 : Fin 2) * 32 + 1 * (y 1).val = _; omega

/-- What point t writes back is block t of a·W + b of the arrays as the region finds them. -/
theorem flushed_eq (c : Dev nD) (b : FVec Ideal Cert.ReferenceIdeal.S32 .f32)
    (hb : V c (Pipeline.arrRef spec4 2) = Cert.RefSpec.row32 b) (t : Fin cfg4.N) :
    (dat4 (F := Ideal) V c).flushed 3 t = ((cfg4.win 3).blk t).view.read (Elt Ideal)
      (Cert.RefSpec.lin32 (V c (Pipeline.arrRef spec4 0)) (V c (Pipeline.arrRef spec4 1)) b) := by
  show (cfg4.win 3).cut (grid4.coords t) ((dat4 (F := Ideal) V c).after 3 t) = _
  rw [after4_3]
  unfold out4_3
  rw [View.canon_unit_zero hz]
  simp only [View.ld_unit_zero (S := S10000x64) hz, View.ld_unit_zero (S := S64x32) hz, View.ld_unit_zero (S := S1x32) hz]
  have key := pay_rows (t.val * 10000) (iblk4 V c 0 t) (iblk4 V c 1 t) (iblk4 V c 2 t)
    (V c (Pipeline.arrRef spec4 0)) b (V c (Pipeline.arrRef spec4 1))
    (blk0_rows V c t) (blk1_eq V c t) ((blk2_eq V c t).trans hb)
  obtain ⟨-, -, -, -, -, -, e0, e1⟩ := idx_facts t
  funext y
  refine key.at y (((cfg4.win 3).blk t).view.emb y) ?_ ?_
  · show win4_3.index t (0 : Fin 2) * 10000 + 1 * (y 0).val = _; omega
  · show win4_3.index t (1 : Fin 2) * 32 + 1 * (y 1).val = _; omega

/-- An index of the output array is in point t's block iff each coordinate is in the block's range on its axis. -/
theorem mem_blk (t : Fin cfg4.N) (i : S100000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole main_v70).slice (win4_3.rect t)).set ↔ _
  rw [View.set_slice_whole, Rect.mem_set_unit]
  exact Iff.rfl

/-- Row r of the output is in the block of point r / 10000. -/
theorem cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  obtain ⟨t, ht⟩ : ∃ t : Fin cfg4.N, t.val = (i 0).val / 10000 :=
    ⟨⟨(i 0).val / 10000, by rw [show cfg4.N = 10 from N_4]; omega⟩, rfl⟩
  obtain ⟨-, -, -, -, -, -, e0, e1⟩ := idx_facts t
  refine ⟨t, flush4_3 t, ?_⟩
  rw [mem_blk]
  intro a
  match a with
  | ⟨0, _⟩ =>
    show win4_3.index t (0 : Fin 2) * 10000 ≤ (i 0).val ∧ (i 0).val < win4_3.index t (0 : Fin 2) * 10000 + 10000
    omega
  | ⟨1, _⟩ =>
    show win4_3.index t (1 : Fin 2) * 32 ≤ (i 1).val ∧ (i 1).val < win4_3.index t (1 : Fin 2) * 32 + 32
    omega

/-- After the region the output array is a·W + b of the region's input arrays as it finds them. -/
theorem value (c : Dev nD) (b : FVec Ideal Cert.ReferenceIdeal.S32 .f32)
    (hb : V c (Pipeline.arrRef spec4 2) = Cert.RefSpec.row32 b) :
    (dat4 (F := Ideal) V c).arrAt 3 cfg4.N
      = Cert.RefSpec.lin32 (V c (Pipeline.arrRef spec4 0)) (V c (Pipeline.arrRef spec4 1)) b :=
  (dat4 (F := Ideal) V c).arrAt_eq_of_cover 3 _ (fun t _ => flushed_eq V c b hb t) cover

end Cert.KernelIdeal.Region4

end
-- ==== Proof.BatchNorm.lean ====
/-
  Batch statistics of a real matrix, read entry by entry.

  For a 100000 × 64 matrix z of real numbers: the reference's column mean is (Σ_r z[r,j]) / 100000 and its column
  variance (jnp.var: centre, square, sum, divide by 100000 − 0, the guard 100000 − 0 > 0 true) is the two-pass
  population variance; the one-row arrays a kernel computes from the column sums S and the column sums of squares Q —
  S / 100000 and max (Q / 100000 − (S / 100000)², 0) — are the same numbers (the one-pass / two-pass variance identity on reals).
-/
import proofs.«118196_j43138651521238_2_alg».proof.Proof.Stats

noncomputable section

open scoped BigOperators

namespace Cert.Stats

open Idealize.ShloMosaic Idealize.ShloMosaic.ValueIdx Cert.ReferenceIdeal Cert.ReferenceIdeal.Facts₀ Cert.RefSpec RealEntries Cert.Lib.Variance

/-- Column j of a matrix of reals. -/
def col (a : S100000x64.Idx → ℝ) (j : Fin 64) : Fin 100000 → ℝ := fun r => a (ix2 r j)

/-- The word for 100000 as the cast of the natural number (the form the variance identity is stated in). -/
theorem ofBits_rows_nat : Ideal.ofBits .f32 0x47C35000#32 = (((100000 : ℕ) : ℝ) : EReal) := by
  rw [Cert.Consts.ofBits_rows, Nat.cast_ofNat]

theorem rows_ne : ((100000 : ℕ) : ℝ) ≠ 0 := by norm_num

/-- The column mean at column j. -/
theorem mean_read (z : FVec Ideal S100000x64 .f32) (a : S100000x64.Idx → ℝ) (ha : ∀ i, z i = ((a i : ℝ) : EReal)) (j : Fin 64) :
    mean z (ix1 j) = (((∑ r, col a j r) * (1 / ((100000 : ℕ) : ℝ)) : ℝ) : EReal) := by
  show Ideal.div (colSum z (ix1 j)) (broadcastInDim S64 ![] bcast_S_S64 (constant (F := Ideal) S_ .f32 0x47C35000#32) (ix1 j)) = _
  rw [colSum_apply, bcast0_apply, constant_apply, ofBits_rows_nat]
  simp only [ha]
  rw [← coe_sum, Ideal.div_coe rows_ne, ← EReal.coe_mul]
  rfl

/-- The number of rows less no degree of freedom is 100000. -/
theorem dof_zero : dof (constantI S_ 32 0#32) ix0 = (((100000 : ℕ) : ℝ) : EReal) := by
  show Ideal.ofBits .f32 0x47C35000#32 - ((((0#32 : BitVec 32).toInt : ℤ) : ℝ) : EReal) = _
  have h0 : (0#32 : BitVec 32).toInt = 0 := by decide
  rw [h0, Int.cast_zero, EReal.coe_zero, sub_zero, ofBits_rows_nat]

/-- A centred entry: the entry less the column's mean. -/
theorem centred_apply (z : FVec Ideal S100000x64 .f32) (r : Fin 100000) (j : Fin 64) :
    centred z (ix2 r j) = z (ix2 r j) - Ideal.div (∑ r : Fin 100000, z (ix2 r j)) (((100000 : ℕ) : ℝ) : EReal) := by
  show z (ix2 r j) - rows (Host.divf (F := Ideal) (row (colSum z))
      (broadcastInDim S1x64 ![] bcast_S_S1x64 (constant (F := Ideal) S_ .f32 0x47C35000#32))) (ix2 r j) = _
  rw [rows_apply]
  show z (ix2 r j) - Ideal.div (row (colSum z) (ix2 0 j))
      (broadcastInDim S1x64 ![] bcast_S_S1x64 (constant (F := Ideal) S_ .f32 0x47C35000#32) (ix2 0 j)) = _
  rw [row_apply, colSum_apply, bcast0_apply, constant_apply, ofBits_rows_nat]

/-- The column variance at column j is the real two-pass population variance. -/
theorem var_read (z : FVec Ideal S100000x64 .f32) (a : S100000x64.Idx → ℝ) (ha : ∀ i, z i = ((a i : ℝ) : EReal)) (j : Fin 64) :
    var z (ix1 j) = (((∑ r, (col a j r - (∑ r, col a j r) * (1 / ((100000 : ℕ) : ℝ))) * (col a j r - (∑ r, col a j r) * (1 / ((100000 : ℕ) : ℝ))))
        * (1 / ((100000 : ℕ) : ℝ)) : ℝ) : EReal) := by
  show Scalar.select (broadcastInDim S64 ![] bcast_S_S64 (cmpf .ogt (dof (constantI S_ 32 0#32)) (constant (F := Ideal) S_ .f32 0x00000000#32)) (ix1 j))
      (Ideal.div (colSum (mulf (centred z) (centred z)) (ix1 j)) (broadcastInDim S64 ![] bcast_S_S64 (dof (constantI S_ 32 0#32)) (ix1 j)))
      (broadcastInDim S64 ![] bcast_S_S64 (id (constant (F := Ideal) S_ .f32 0x7FC00000#32)) (ix1 j)) = _
  rw [bcast0_apply, bcast0_apply, colSum_apply]
  have hc : cmpf .ogt (dof (constantI S_ 32 0#32)) (constant (F := Ideal) S_ .f32 0x00000000#32) ix0 = 1#1 := by
    show Ideal.cmp .ogt (dof (constantI S_ 32 0#32) ix0) (Ideal.ofBits .f32 0x00000000#32) = 1#1
    rw [dof_zero, Cert.Consts.ofBits_zero]
    show BitVec.ofBool (decide ((0 : EReal) < (((100000 : ℕ) : ℝ) : EReal))) = 1#1
    rw [decide_eq_true (by exact_mod_cast (by norm_num : (0 : ℝ) < ((100000 : ℕ) : ℝ)))]
    rfl
  rw [hc, dof_zero]
  show Ideal.div (∑ r : Fin 100000, mulf (centred z) (centred z) (ix2 r j)) _ = _
  simp only [mulf_apply, centred_apply, ha]
  exact two_pass_ereal 100000 (by norm_num) (col a j)

/-- The kernel's one-row mean, the column sums' row over 100000, is the row of the reference's column means. -/
theorem kmean_eq (z : FVec Ideal S100000x64 .f32) (hb : S_.BroadcastsInDim S1x64 (![] : Fin 0 → Fin S1x64.rank)) :
    Host.divf (F := Ideal) (row (colSum z)) (broadcastInDim S1x64 ![] hb (constant (F := Ideal) S_ .f32 0x47C35000#32)) = row (mean z) := by
  funext i
  obtain ⟨q, j, rfl⟩ : ∃ (q : Fin 1) (j : Fin 64), i = ix2 q j := ⟨i 0, i 1, eq_ix2 i⟩
  show Ideal.div (row (colSum z) (ix2 q j)) (broadcastInDim S1x64 ![] hb (constant (F := Ideal) S_ .f32 0x47C35000#32) (ix2 q j)) = _
  rw [row_apply, row_apply, bcast0_apply]
  show _ = Ideal.div (colSum z (ix1 j)) (broadcastInDim S64 ![] bcast_S_S64 (constant (F := Ideal) S_ .f32 0x47C35000#32) (ix1 j))
  rw [bcast0_apply]

/-- The kernel's one-row variance max (Q/100000 − (S/100000)², 0), from the column sums S and the column sums of
    squares Q of a REAL matrix, is the row of the reference's column variances. -/
theorem kvar_eq (z : FVec Ideal S100000x64 .f32) (hz : IsReal z) (hb : S_.BroadcastsInDim S1x64 (![] : Fin 0 → Fin S1x64.rank)) :
    maximumf
      (subf (Host.divf (F := Ideal) (row (colSum (mulf z z))) (broadcastInDim S1x64 ![] hb (constant (F := Ideal) S_ .f32 0x47C35000#32)))
        (mulf (Host.divf (F := Ideal) (row (colSum z)) (broadcastInDim S1x64 ![] hb (constant (F := Ideal) S_ .f32 0x47C35000#32)))
          (Host.divf (F := Ideal) (row (colSum z)) (broadcastInDim S1x64 ![] hb (constant (F := Ideal) S_ .f32 0x47C35000#32)))))
      (broadcastInDim S1x64 ![] hb (constant (F := Ideal) S_ .f32 0x00000000#32))
      = row (var z) := by
  choose a ha using hz
  funext i
  obtain ⟨q, j, rfl⟩ : ∃ (q : Fin 1) (j : Fin 64), i = ix2 q j := ⟨i 0, i 1, eq_ix2 i⟩
  rw [row_apply, var_read z a ha j, ← var_ereal 100000 (by norm_num) (col a j)]
  show max (Ideal.div (row (colSum (mulf z z)) (ix2 q j)) (broadcastInDim S1x64 ![] hb (constant (F := Ideal) S_ .f32 0x47C35000#32) (ix2 q j))
      - Ideal.div (row (colSum z) (ix2 q j)) (broadcastInDim S1x64 ![] hb (constant (F := Ideal) S_ .f32 0x47C35000#32) (ix2 q j))
        * Ideal.div (row (colSum z) (ix2 q j)) (broadcastInDim S1x64 ![] hb (constant (F := Ideal) S_ .f32 0x47C35000#32) (ix2 q j)))
      (broadcastInDim S1x64 ![] hb (constant (F := Ideal) S_ .f32 0x00000000#32) (ix2 q j)) = _
  rw [row_apply, row_apply, colSum_apply, colSum_apply, bcast0_apply, bcast0_apply, constant_apply, constant_apply, ofBits_rows_nat,
    Cert.Consts.ofBits_zero]
  simp only [mulf_apply, ha]
  rfl

end Cert.Stats

end
-- ==== Proof.Reals.lean ====
/-
  Every entry is a real number, for the arrays the batch statistics are taken of.

  The precondition says, input by input, that every entry's absolute value is below +∞: so every entry of each
  float input is a real number. Message passing (re-indexing, entrywise products, finite sums into a zero
  array), a dense layer (finite sums of products plus a bias row) and the normalise-scale-shift-leaky step
  (differences, products and sums of reals, the reciprocal square root of a positive real, a choice between two
  reals) each turn real-valued arrays into real-valued arrays.
-/
import proofs.«118196_j43138651521238_2_alg».proof.Proof.RefSpec
import proofs.«118196_j43138651521238_2_alg».proof.Proof.LibRealEntries
import proofs.«118196_j43138651521238_2_alg».proof.Proof.Consts
import proofs.«118196_j43138651521238_2_alg».proof.Pre_finite_inputs
import proofs.«118196_j43138651521238_2_alg».proof.Proof.Gen.Pre_finite_inputs
import Idealize.ShloMosaic.Lib.ReduceAll
import Idealize.ShloMosaic.Lib.Pipeline.Value

noncomputable section

namespace Cert.Reals

open RealEntries Cert.RefSpec Cert.ReferenceIdeal Idealize.ShloMosaic Idealize.ShloMosaic.ValueIdx

/-! ## The precondition: every float input is real-valued -/

instance : Subsingleton (⟨0, ![]⟩ : Shape).Idx := ⟨fun a b => funext fun d => d.elim0⟩

/-- One conjunct of the precondition: the reduction by "and" of |x| < +∞ over all of x is 1, so x is real-valued. -/
theorem real_of_all {s : Shape} {axes : List (Fin s.rank)} (x : FVec Ideal s .f32)
    (hB : (⟨0, ![]⟩ : Shape).BroadcastsInDim s ![]) (h : s.ReducesTo axes ⟨0, ![]⟩) (hu : 0 < (⟨0, ![]⟩ : Shape).numel)
    (e : Host.reduce IntOp.andi (cmpf .olt (Host.absf x)
        (broadcastInDim s ![] hB (constant (F := Ideal) ⟨0, ![]⟩ .f32 0x7F800000#32)))
      (constantI ⟨0, ![]⟩ 1 1#1) h hu ix0 = 1#1) : IsReal x :=
  isReal_of_all_lt_inf x _ (fun i => broadcastInDim_apply ![] hB _ i ix0 (fun a => a.elim0)) _ h hu ix0 e

/-- The precondition makes every float input the statistics depend on real-valued. -/
theorem of_pre (a0 : FVec Ideal S100000x64 .f32) (a1 : IVec S2x1000000 32) (a2 : FVec Ideal S1000000 .f32)
    (a3 : IVec S100000 32) (a4 : FVec Ideal S64x64 .f32) (a5 a6 a7 : FVec Ideal S64 .f32)
    (a8 : FVec Ideal S64x64 .f32) (a9 a10 a11 : FVec Ideal S64 .f32) (a12 : FVec Ideal S64x32 .f32)
    (a13 : FVec Ideal S32 .f32)
    (h : Cert.Pre_finite_inputs.fn (F := Ideal) a0 a1 a2 a3 a4 a5 a6 a7 a8 a9 a10 a11 a12 a13 = fun _ => 1#1) :
    IsReal a0 ∧ IsReal a2 ∧ IsReal a4 ∧ IsReal a5 ∧ IsReal a6 ∧ IsReal a7 ∧ IsReal a8 ∧ IsReal a9 := by
  have h0 := congrFun h ix0
  dsimp only [Cert.Pre_finite_inputs.fn, Cert.Pre_finite_inputs.fn_part1, Cert.Pre_finite_inputs.fn_part2,
    Cert.Pre_finite_inputs.fn_part3] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e2⟩ := IntOp.andi_eq_one.1 h0
  exact ⟨real_of_all a0 _ _ _ e0, real_of_all a2 _ _ _ e2, real_of_all a4 _ _ _ e4, real_of_all a5 _ _ _ e5,
    real_of_all a6 _ _ _ e6, real_of_all a7 _ _ _ e7, real_of_all a8 _ _ _ e8, real_of_all a9 _ _ _ e9⟩

/-! ## Operations that keep arrays real-valued -/

section Ops

variable {s t : Shape} {φ : FTy}

/-- The entrywise product of two real-valued arrays is real-valued. -/
theorem isReal_mulf {v w : FVec Ideal s φ} (hv : IsReal v) (hw : IsReal w) : IsReal (mulf v w) := fun i => by
  obtain ⟨a, ha⟩ := hv i
  obtain ⟨b, hb⟩ := hw i
  exact ⟨a * b, by rw [mulf_apply, ha, hb, EReal.coe_mul]⟩

/-- The entrywise difference of two real-valued arrays is real-valued. -/
theorem isReal_subf {v w : FVec Ideal s φ} (hv : IsReal v) (hw : IsReal w) : IsReal (subf v w) := fun i => by
  obtain ⟨a, ha⟩ := hv i
  obtain ⟨b, hb⟩ := hw i
  exact ⟨a - b, by rw [subf_apply, ha, hb, EReal.coe_sub]⟩

/-- A choice, entry by entry, between two real-valued arrays is real-valued. -/
theorem isReal_select {c : IVec s 1} {v w : s.Idx → EReal} (hv : IsReal v) (hw : IsReal w) :
    IsReal (select c v w) := fun i => by
  rw [select_apply]
  unfold Scalar.select
  split
  · exact hv i
  · exact hw i

/-- A gather reads the operand at re-arranged indices. -/
theorem isReal_gather {si : Shape} {w : Nat} (d : GatherDims s si t) {x : s.Idx → EReal} (hx : IsReal x)
    (idx : IVec si w) : IsReal (Host.gather d x idx) := fun j => hx _

/-- An accumulating scatter of a real-valued array of updates into a real-valued array is real-valued: each entry
    is the operand's plus a finite sum of updates. -/
theorem isReal_scatterAdd {si u : Shape} {w : Nat} (d : ScatterDims s si u) {x : FVec Ideal s φ}
    {upd : FVec Ideal u φ} (hx : IsReal x) (hu : IsReal upd) (idx : IVec si w) :
    IsReal (Host.scatterAdd (F := Ideal) d x idx upd) := fun i => by
  obtain ⟨a, ha⟩ := hx i
  obtain ⟨b, hb⟩ := exists_real_sum (Finset.univ.filter (fun j => d.resultIdx? j idx = some i)) upd hu
  refine ⟨a + b, ?_⟩
  show x i + ∑ j ∈ Finset.univ.filter (fun j => d.resultIdx? j idx = some i), upd j = _
  rw [ha, hb, EReal.coe_add]

/-- A float word that denotes a real number, broadcast from a scalar, is a real-valued array. -/
theorem isReal_const (w : BitVec 32) (r : ℝ) (hw : Ideal.ofBits .f32 w = (r : EReal))
    (hB : (⟨0, ![]⟩ : Shape).BroadcastsInDim s ![]) :
    IsReal (broadcastInDim s ![] hB (constant (F := Ideal) ⟨0, ![]⟩ .f32 w)) :=
  IsReal.broadcastInDim (fun i => ⟨r, by rw [constant_apply, hw]⟩) _ _

/-- The reciprocal square root, entry by entry, of an array of positive reals is real-valued. -/
theorem isReal_rsqrt {x : FVec Ideal s φ} (hx : ∀ j, ∃ r : ℝ, 0 < r ∧ x j = (r : EReal)) :
    IsReal (Host.rsqrt (F := Ideal) x) := fun j => by
  obtain ⟨r, hr, e⟩ := hx j
  refine ⟨(Real.sqrt r)⁻¹, ?_⟩
  show Ideal.rsqrt (x j) = _
  rw [e, Ideal.rsqrt_coe, if_neg (not_lt.2 hr.le), if_neg hr.ne']

end Ops

/-! ## The reference's stages -/

/-- Message passing of a real-valued array with real edge weights is real-valued. -/
theorem prop_real {h : FVec Ideal S100000x64 .f32} {w : FVec Ideal S1000000 .f32} (hh : IsReal h) (hw : IsReal w)
    (ei : IVec S2x1000000 32) : IsReal (prop h ei w) := by
  unfold prop
  exact isReal_scatterAdd _ (isReal_const _ 0 (by rw [Cert.Consts.ofBits_zero]; rfl) _)
    (isReal_mulf (isReal_gather _ hh _) (IsReal.broadcastInDim (IsReal.broadcastInDim hw _ _) _ _)) _

/-- A dense layer of real-valued arrays is real-valued. -/
theorem lin64_real {a : FVec Ideal S100000x64 .f32} {W : FVec Ideal S64x64 .f32} {b : FVec Ideal S64 .f32}
    (ha : IsReal a) (hW : IsReal W) (hb : IsReal b) : IsReal (lin64 a W b) := by
  unfold lin64 rows row
  exact IsReal.addf (IsReal.dotGeneral _ _ ha hW) (IsReal.broadcastInDim (IsReal.broadcastInDim hb _ _) _ _)

/-- The normalise-scale-shift-leaky step of real-valued arrays, the variances non-negative reals, is real-valued. -/
theorem normact_real {z : FVec Ideal S100000x64 .f32} {mu s2 g be : FVec Ideal S64 .f32} (hz : IsReal z)
    (hmu : IsReal mu) (hs2 : ∀ j, ∃ v : ℝ, 0 ≤ v ∧ s2 j = ((v : ℝ) : EReal)) (hg : IsReal g) (hbe : IsReal be) :
    IsReal (normact z mu s2 g be) := by
  have hR : IsReal (Host.rsqrt (F := Ideal) (addf s2
      (broadcastInDim S64 ![] Facts₀.bcast_S_S64 (constant (F := Ideal) S_ .f32 0x3727C5AC#32)))) :=
    isReal_rsqrt fun j => by
      obtain ⟨v, hv, e⟩ := hs2 j
      refine ⟨v + 10995116 / 1099511627776, by positivity, ?_⟩
      rw [addf_apply, e, broadcastInDim_apply ![] Facts₀.bcast_S_S64 _ j ix0 (fun a => a.elim0), constant_apply,
        Cert.Consts.ofBits_eps, EReal.coe_add]
  have hY : IsReal (addf (mulf (mulf (subf z (rows (row mu)))
      (rows (row (Host.rsqrt (F := Ideal) (addf s2
        (broadcastInDim S64 ![] Facts₀.bcast_S_S64 (constant (F := Ideal) S_ .f32 0x3727C5AC#32)))))))
      (rows (row g))) (rows (row be))) := by
    unfold rows row
    exact IsReal.addf (isReal_mulf (isReal_mulf (isReal_subf hz (IsReal.broadcastInDim (IsReal.broadcastInDim hmu _ _) _ _))
      (IsReal.broadcastInDim (IsReal.broadcastInDim hR _ _) _ _)) (IsReal.broadcastInDim (IsReal.broadcastInDim hg _ _) _ _))
      (IsReal.broadcastInDim (IsReal.broadcastInDim hbe _ _) _ _)
  unfold normact
  exact isReal_select hY (isReal_mulf (isReal_const _ _ Cert.Consts.ofBits_slope _) hY)

end Cert.Reals

end
-- ==== Proof.KChain.lean ====
/-
  The idealized kernel's result as the reference's function of the arguments.

  Boundary by boundary through @main: the first launch leaves z₁ = prop(x)·W₁ + b₁ with its column sums and column
  sums of squares; the host turns them into the one-row mean and clamped one-pass variance, which for REAL z₁ are the
  rows of the reference's mean and two-pass variance; the second launch is then the reference's normalise-and-rectify
  step, and so on through the second layer; the last launch is the third dense layer.  Realness of the inputs is used
  exactly where the two variance formulas meet, and is carried forward through message passing, the dense layer and
  the normalisation.
-/
import proofs.«118196_j43138651521238_2_alg».proof.Proof.KHost
import proofs.«118196_j43138651521238_2_alg».proof.Proof.Region0
import proofs.«118196_j43138651521238_2_alg».proof.Proof.Region1
import proofs.«118196_j43138651521238_2_alg».proof.Proof.Region2
import proofs.«118196_j43138651521238_2_alg».proof.Proof.Region3
import proofs.«118196_j43138651521238_2_alg».proof.Proof.Region4
import proofs.«118196_j43138651521238_2_alg».proof.Proof.BatchNorm
import proofs.«118196_j43138651521238_2_alg».proof.Proof.Reals

set_option maxRecDepth 16384

noncomputable section

namespace Cert.KernelIdeal.KChain

open Cert.KernelIdeal Cert.KernelIdeal.Gen Idealize.ShloMosaic Idealize.ShloMosaic.TcCoe Idealize.SL.Sem Cert.KernelIdeal.KHost RealEntries

variable (m : (ℓ : Loc nD τ sig) → Buf (Elt Ideal) ℓ) (ρ : Dev nD → PrngReg) (c : Dev nD)

/-- Batch normalisation keeps realness: the mean of reals is real and the variance a non-negative real. -/
theorem bnact_real {z : FVec Ideal Cert.ReferenceIdeal.S100000x64 .f32} {g be : FVec Ideal Cert.ReferenceIdeal.S64 .f32}
    (hz : IsReal z) (hg : IsReal g) (hbe : IsReal be) : IsReal (Cert.RefSpec.bnact z g be) := by
  choose a ha using hz
  refine Cert.Reals.normact_real (fun i => ⟨a i, ha i⟩) (fun j => ?_) (fun j => ?_) hg hbe
  · rw [ValueIdx.eq_ix1 j]; exact ⟨_, Cert.Stats.mean_read z a ha (j 0)⟩
  · rw [ValueIdx.eq_ix1 j]
    exact ⟨_, mul_nonneg (Finset.sum_nonneg fun r _ => mul_self_nonneg _) (by positivity), Cert.Stats.var_read z a ha (j 0)⟩

/-- The first layer's pre-activation, the reference's way. -/
abbrev Z1 : FVec Ideal Cert.ReferenceIdeal.S100000x64 .f32 := Cert.RefSpec.lin64 (Cert.RefSpec.prop (m ((c : Thread nD τ).loc main_arg0)) (m ((c : Thread nD τ).loc main_arg1)) (m ((c : Thread nD τ).loc main_arg2))) (m ((c : Thread nD τ).loc main_arg4)) (m ((c : Thread nD τ).loc main_arg5))
abbrev H1 : FVec Ideal Cert.ReferenceIdeal.S100000x64 .f32 := Cert.RefSpec.bnact (Z1 m c) (m ((c : Thread nD τ).loc main_arg6)) (m ((c : Thread nD τ).loc main_arg7))
abbrev Z2 : FVec Ideal Cert.ReferenceIdeal.S100000x64 .f32 := Cert.RefSpec.lin64 (Cert.RefSpec.prop (H1 m c) (m ((c : Thread nD τ).loc main_arg1)) (m ((c : Thread nD τ).loc main_arg2))) (m ((c : Thread nD τ).loc main_arg8)) (m ((c : Thread nD τ).loc main_arg9))
abbrev H2 : FVec Ideal Cert.ReferenceIdeal.S100000x64 .f32 := Cert.RefSpec.bnact (Z2 m c) (m ((c : Thread nD τ).loc main_arg10)) (m ((c : Thread nD τ).loc main_arg11))

/-- After the first launch: z₁ and the rows of its column sums and column sums of squares. -/
theorem W2_vals :
    W2 m ρ c (Proc.devRef .tc main_v18_0) = Z1 m c
    ∧ W2 m ρ c (Proc.devRef .tc main_v18_1) = Cert.RefSpec.row (Cert.RefSpec.colSum (Z1 m c))
    ∧ W2 m ρ c (Proc.devRef .tc main_v18_2) = Cert.RefSpec.row (Cert.RefSpec.colSum (mulf (Z1 m c) (Z1 m c))) := by
  obtain ⟨e3, e4, e5⟩ := Cert.KernelIdeal.Region0.value (V1 m ρ) c (m ((c : Thread nD τ).loc main_arg5)) (W1_v17 m ρ c)
  have a0 : V1 m ρ c (Pipeline.arrRef spec0 0) = Cert.RefSpec.prop (m ((c : Thread nD τ).loc main_arg0)) (m ((c : Thread nD τ).loc main_arg1)) (m ((c : Thread nD τ).loc main_arg2)) := W1_v16 m ρ c
  have a1 : V1 m ρ c (Pipeline.arrRef spec0 1) = (m ((c : Thread nD τ).loc main_arg4)) := W1_main_arg4 m ρ c
  rw [a0, a1] at e3 e4 e5
  exact ⟨(W2_arr m ρ c 3).trans e3, (W2_arr m ρ c 4).trans e4, (W2_arr m ρ c 5).trans e5⟩

/-- After the second launch: the first layer's activations. -/
theorem W4_val (hz : IsReal (Z1 m c)) : W4 m ρ c (Proc.devRef .tc main_v29) = H1 m c := by
  obtain ⟨z, s, q⟩ := W2_vals m ρ c
  have hmu : V3 m ρ c (Pipeline.arrRef spec1 1) = Cert.RefSpec.row (Cert.RefSpec.mean (Z1 m c)) :=
    (W3_mu m ρ c).trans (by rw [s]; exact Cert.Stats.kmean_eq _ _)
  have hvar : V3 m ρ c (Pipeline.arrRef spec1 2) = Cert.RefSpec.row (Cert.RefSpec.var (Z1 m c)) :=
    (W3_var m ρ c).trans (by rw [s, q]; exact Cert.Stats.kvar_eq _ hz _)
  have hzz : V3 m ρ c (Pipeline.arrRef spec1 0) = Z1 m c := (W3_z m ρ c).trans z
  have h := Cert.KernelIdeal.Region1.value (V3 m ρ) c _ _ _ _ hmu hvar (W3_g m ρ c) (W3_be m ρ c)
  rw [hzz] at h
  exact (W4_arr m ρ c 5).trans h

/-- After the third launch: z₂ and the rows of its column sums and column sums of squares. -/
theorem W6_vals (hz : IsReal (Z1 m c)) :
    W6 m ρ c (Proc.devRef .tc main_v44_0) = Z2 m c
    ∧ W6 m ρ c (Proc.devRef .tc main_v44_1) = Cert.RefSpec.row (Cert.RefSpec.colSum (Z2 m c))
    ∧ W6 m ρ c (Proc.devRef .tc main_v44_2) = Cert.RefSpec.row (Cert.RefSpec.colSum (mulf (Z2 m c) (Z2 m c))) := by
  obtain ⟨e3, e4, e5⟩ := Cert.KernelIdeal.Region2.value (V5 m ρ) c (m ((c : Thread nD τ).loc main_arg9)) (W5_bias m ρ c)
  have a0 : V5 m ρ c (Pipeline.arrRef spec2 0) = Cert.RefSpec.prop (H1 m c) (m ((c : Thread nD τ).loc main_arg1)) (m ((c : Thread nD τ).loc main_arg2)) :=
    (W5_agg m ρ c).trans (by rw [W4_val m ρ c hz])
  have a1 : V5 m ρ c (Pipeline.arrRef spec2 1) = (m ((c : Thread nD τ).loc main_arg8)) := W5_w m ρ c
  rw [a0, a1] at e3 e4 e5
  exact ⟨(W6_arr m ρ c 3).trans e3, (W6_arr m ρ c 4).trans e4, (W6_arr m ρ c 5).trans e5⟩

/-- After the fourth launch: the second layer's activations. -/
theorem W8_val (hz : IsReal (Z1 m c)) (hz2 : IsReal (Z2 m c)) : W8 m ρ c (Proc.devRef .tc main_v55) = H2 m c := by
  obtain ⟨z, s, q⟩ := W6_vals m ρ c hz
  have hmu : V7 m ρ c (Pipeline.arrRef spec3 1) = Cert.RefSpec.row (Cert.RefSpec.mean (Z2 m c)) :=
    (W7_mu m ρ c).trans (by rw [s]; exact Cert.Stats.kmean_eq _ _)
  have hvar : V7 m ρ c (Pipeline.arrRef spec3 2) = Cert.RefSpec.row (Cert.RefSpec.var (Z2 m c)) :=
    (W7_var m ρ c).trans (by rw [s, q]; exact Cert.Stats.kvar_eq _ hz2 _)
  have hzz : V7 m ρ c (Pipeline.arrRef spec3 0) = Z2 m c := (W7_z m ρ c).trans z
  have h := Cert.KernelIdeal.Region3.value (V7 m ρ) c _ _ _ _ hmu hvar (W7_g m ρ c) (W7_be m ρ c)
  rw [hzz] at h
  exact (W8_arr m ρ c 5).trans h

/-- The kernel's result array after the last launch is the reference's function of the arguments, when the inputs
    the two batch normalisations depend on are real. -/
theorem value (hx : IsReal (m ((c : Thread nD τ).loc main_arg0))) (hw : IsReal (m ((c : Thread nD τ).loc main_arg2))) (hW1 : IsReal (m ((c : Thread nD τ).loc main_arg4))) (hb1 : IsReal (m ((c : Thread nD τ).loc main_arg5))) (hg1 : IsReal (m ((c : Thread nD τ).loc main_arg6)))
    (hbe1 : IsReal (m ((c : Thread nD τ).loc main_arg7))) (hW2 : IsReal (m ((c : Thread nD τ).loc main_arg8))) (hb2 : IsReal (m ((c : Thread nD τ).loc main_arg9))) :
    W10 m ρ c (Proc.devRef .tc main_v70)
      = Cert.RefSpec.refOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hz : IsReal (Z1 m c) := Cert.Reals.lin64_real (Cert.Reals.prop_real hx hw _) hW1 hb1
  have hh : IsReal (H1 m c) := bnact_real hz hg1 hbe1
  have hz2 : IsReal (Z2 m c) := Cert.Reals.lin64_real (Cert.Reals.prop_real hh hw _) hW2 hb2
  have h := Cert.KernelIdeal.Region4.value (V9 m ρ) c (m ((c : Thread nD τ).loc main_arg13)) (W9_bias m ρ c)
  have a0 : V9 m ρ c (Pipeline.arrRef spec4 0) = Cert.RefSpec.prop (H2 m c) (m ((c : Thread nD τ).loc main_arg1)) (m ((c : Thread nD τ).loc main_arg2)) :=
    (W9_agg m ρ c).trans (by rw [W8_val m ρ c hz hz2])
  have a1 : V9 m ρ c (Pipeline.arrRef spec4 1) = (m ((c : Thread nD τ).loc main_arg12)) := W9_w m ρ c
  rw [a0, a1] at h
  exact (W10_arr m ρ c 3).trans h

end Cert.KernelIdeal.KChain

end
-- ==== Proof.RefRun.lean ====
/-
  The reference's @main as one straight line of host operations — the bodies of the outlined helper
  functions (the variance and the two selects) written out at their calls over each call's own
  buffers — and its run: every weakly fair execution terminates with every buffer at the fold of
  the operations over the launch contents.
-/
import proofs.«118196_j43138651521238_2_alg».proof.ReferenceIdeal
import proofs.«118196_j43138651521238_2_alg».proof.Proof.Gen.ReferenceIdeal
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in order, the helper functions' bodies in place of their calls. -/
abbrev ops : List (HloOp τ sig (Elt F)) :=
  [
    StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg2 main_v11 (broadcastInDim S1000000x1 ![0] bcast_S1000000_S1000000x1_0 : (⟨S1000000, .f32⟩ : BufTy).Contents (Elt F) → (⟨S1000000x1, .f32⟩ : BufTy).Contents (Elt F)),
    StableHlo.unary main_v11 main_v12 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v10 main_v12 main_v13 (mulf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v14 (broadcastInDim S100000x64 ![] bcast_S_S100000x64 : (⟨S_, .f32⟩ : BufTy).Contents (Elt F) → (⟨S100000x64, .f32⟩ : BufTy).Contents (Elt F)),
    StableHlo.unary main_v3 main_v15 (broadcastInDim S1000000x1 ![0] bcast_S1000000_S1000000x1_0 : (⟨S1000000, .i32⟩ : BufTy).Contents (Elt F) → (⟨S1000000x1, .i32⟩ : BufTy).Contents (Elt F)),
    StableHlo.ternary main_v14 main_v15 main_v13 main_v16 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v16 main_arg4 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v19 main_v20 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v20 main_cst_1 main_v21 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v22 (broadcastInDim S64 ![] bcast_S_S64 : (⟨S_, .f32⟩ : BufTy).Contents (Elt F) → (⟨S64, .f32⟩ : BufTy).Contents (Elt F)),
    StableHlo.binary main_v21 main_v22 main_v23 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v20) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v20) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v23 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v26 main_v27 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v28 (broadcastInDim S64 ![] bcast_S_S64 : (⟨S_, .f32⟩ : BufTy).Contents (Elt F) → (⟨S64, .f32⟩ : BufTy).Contents (Elt F)),
    StableHlo.binary main_v24 main_v28 main_v29 (addf : (⟨S64, .f32⟩ : BufTy).Contents (Elt F) → (⟨S64, .f32⟩ : BufTy).Contents (Elt F) → (⟨S64, .f32⟩ : BufTy).Contents (Elt F)),
    StableHlo.unary main_v29 main_v30 (Host.rsqrt : (⟨S64, .f32⟩ : BufTy).Contents (Elt F) → (⟨S64, .f32⟩ : BufTy).Contents (Elt F)),
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v32 main_v33 (mulf : (⟨S100000x64, .f32⟩ : BufTy).Contents (Elt F) → (⟨S100000x64, .f32⟩ : BufTy).Contents (Elt F) → (⟨S100000x64, .f32⟩ : BufTy).Contents (Elt F)),
    StableHlo.unary main_arg6 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v35 main_v36 (mulf : (⟨S100000x64, .f32⟩ : BufTy).Contents (Elt F) → (⟨S100000x64, .f32⟩ : BufTy).Contents (Elt F) → (⟨S100000x64, .f32⟩ : BufTy).Contents (Elt F)),
    StableHlo.unary main_arg7 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x00000000#32),
    StableHlo.unary main_cst_5 main_v40 (broadcastInDim S100000x64 ![] bcast_S_S100000x64 : (⟨S_, .f32⟩ : BufTy).Contents (Elt F) → (⟨S100000x64, .f32⟩ : BufTy).Contents (Elt F)),
    StableHlo.binary main_v39 main_v40 main_v41 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_6 (constant S_ .f32 0x3C23D70A#32),
    StableHlo.unary main_cst_6 main_v42 (broadcastInDim S100000x64 ![] bcast_S_S100000x64 : (⟨S_, .f32⟩ : BufTy).Contents (Elt F) → (⟨S100000x64, .f32⟩ : BufTy).Contents (Elt F)),
    StableHlo.binary main_v42 main_v39 main_v43 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v41) (.of main_v39) (.of main_v43) main_call1.v0 select,
    StableHlo.nullary main_c_7 (constantI S_ 32 0#32),
    StableHlo.unary main_c_7 main_v45 (broadcastInDim S1000000 ![] bcast_S_S1000000 : (⟨S_, .i32⟩ : BufTy).Contents (Elt F) → (⟨S1000000, .i32⟩ : BufTy).Contents (Elt F)),
    StableHlo.binary main_v1 main_v45 main_v46 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v47 (broadcastInDim S1000000 ![] bcast_S_S1000000 : (⟨S_, .i32⟩ : BufTy).Contents (Elt F) → (⟨S1000000, .i32⟩ : BufTy).Contents (Elt F)),
    StableHlo.binary main_v1 main_v47 main_v48 (addi : (⟨S1000000, .i32⟩ : BufTy).Contents (Elt F) → (⟨S1000000, .i32⟩ : BufTy).Contents (Elt F) → (⟨S1000000, .i32⟩ : BufTy).Contents (Elt F)),
    StableHlo.ternary main_v46 main_v48 main_v1 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v49 main_v50 (broadcastInDim S1000000x1 ![0] bcast_S1000000_S1000000x1_0 : (⟨S1000000, .i32⟩ : BufTy).Contents (Elt F) → (⟨S1000000x1, .i32⟩ : BufTy).Contents (Elt F)),
    StableHlo.binary main_v44 main_v50 main_v51 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg2 main_v52 (broadcastInDim S1000000x1 ![0] bcast_S1000000_S1000000x1_0 : (⟨S1000000, .f32⟩ : BufTy).Contents (Elt F) → (⟨S1000000x1, .f32⟩ : BufTy).Contents (Elt F)),
    StableHlo.unary main_v52 main_v53 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v51 main_v53 main_v54 (mulf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v55 (broadcastInDim S100000x64 ![] bcast_S_S100000x64 : (⟨S_, .f32⟩ : BufTy).Contents (Elt F) → (⟨S100000x64, .f32⟩ : BufTy).Contents (Elt F)),
    StableHlo.unary main_v3 main_v56 (broadcastInDim S1000000x1 ![0] bcast_S1000000_S1000000x1_0 : (⟨S1000000, .i32⟩ : BufTy).Contents (Elt F) → (⟨S1000000x1, .i32⟩ : BufTy).Contents (Elt F)),
    StableHlo.ternary main_v55 main_v56 main_v54 main_v57 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v57 main_arg8 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v60 main_v61 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.binary main_v61 main_cst_10 main_v62 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v63 (broadcastInDim S64 ![] bcast_S_S64 : (⟨S_, .f32⟩ : BufTy).Contents (Elt F) → (⟨S64, .f32⟩ : BufTy).Contents (Elt F)),
    StableHlo.binary main_v62 main_v63 main_v64 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call2.cst (constant S_ .f32 0x00000000#32),
    StableHlo.TRef.binary (.of main_v61) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v61) main_call2.v4 main_call2.v5 subf,
    StableHlo.TRef.binary main_call2.v5 main_call2.v5 main_call2.v6 mulf,
    StableHlo.TRef.unary (.of main_c_12) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v64 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v67 main_v68 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v69 (broadcastInDim S64 ![] bcast_S_S64 : (⟨S_, .f32⟩ : BufTy).Contents (Elt F) → (⟨S64, .f32⟩ : BufTy).Contents (Elt F)),
    StableHlo.binary main_v65 main_v69 main_v70 (addf : (⟨S64, .f32⟩ : BufTy).Contents (Elt F) → (⟨S64, .f32⟩ : BufTy).Contents (Elt F) → (⟨S64, .f32⟩ : BufTy).Contents (Elt F)),
    StableHlo.unary main_v70 main_v71 (Host.rsqrt : (⟨S64, .f32⟩ : BufTy).Contents (Elt F) → (⟨S64, .f32⟩ : BufTy).Contents (Elt F)),
    StableHlo.unary main_v71 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v73 main_v74 (mulf : (⟨S100000x64, .f32⟩ : BufTy).Contents (Elt F) → (⟨S100000x64, .f32⟩ : BufTy).Contents (Elt F) → (⟨S100000x64, .f32⟩ : BufTy).Contents (Elt F)),
    StableHlo.unary main_arg10 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v76 main_v77 (mulf : (⟨S100000x64, .f32⟩ : BufTy).Contents (Elt F) → (⟨S100000x64, .f32⟩ : BufTy).Contents (Elt F) → (⟨S100000x64, .f32⟩ : BufTy).Contents (Elt F)),
    StableHlo.unary main_arg11 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.unary main_cst_14 main_v81 (broadcastInDim S100000x64 ![] bcast_S_S100000x64 : (⟨S_, .f32⟩ : BufTy).Contents (Elt F) → (⟨S100000x64, .f32⟩ : BufTy).Contents (Elt F)),
    StableHlo.binary main_v80 main_v81 main_v82 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_15 (constant S_ .f32 0x3C23D70A#32),
    StableHlo.unary main_cst_15 main_v83 (broadcastInDim S100000x64 ![] bcast_S_S100000x64 : (⟨S_, .f32⟩ : BufTy).Contents (Elt F) → (⟨S100000x64, .f32⟩ : BufTy).Contents (Elt F)),
    StableHlo.binary main_v83 main_v80 main_v84 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v82) (.of main_v80) (.of main_v84) main_call3.v0 select,
    StableHlo.nullary main_c_16 (constantI S_ 32 0#32),
    StableHlo.unary main_c_16 main_v86 (broadcastInDim S1000000 ![] bcast_S_S1000000 : (⟨S_, .i32⟩ : BufTy).Contents (Elt F) → (⟨S1000000, .i32⟩ : BufTy).Contents (Elt F)),
    StableHlo.binary main_v1 main_v86 main_v87 (cmpi .slt : (⟨S1000000, .i32⟩ : BufTy).Contents (Elt F) → (⟨S1000000, .i32⟩ : BufTy).Contents (Elt F) → (⟨S1000000, .i1⟩ : BufTy).Contents (Elt F)),
    StableHlo.nullary main_c_17 (constantI S_ 32 100000#32),
    StableHlo.unary main_c_17 main_v88 (broadcastInDim S1000000 ![] bcast_S_S1000000 : (⟨S_, .i32⟩ : BufTy).Contents (Elt F) → (⟨S1000000, .i32⟩ : BufTy).Contents (Elt F)),
    StableHlo.binary main_v1 main_v88 main_v89 (addi : (⟨S1000000, .i32⟩ : BufTy).Contents (Elt F) → (⟨S1000000, .i32⟩ : BufTy).Contents (Elt F) → (⟨S1000000, .i32⟩ : BufTy).Contents (Elt F)),
    StableHlo.ternary main_v87 main_v89 main_v1 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v90 main_v91 (broadcastInDim S1000000x1 ![0] bcast_S1000000_S1000000x1_0 : (⟨S1000000, .i32⟩ : BufTy).Contents (Elt F) → (⟨S1000000x1, .i32⟩ : BufTy).Contents (Elt F)),
    StableHlo.binary main_v85 main_v91 main_v92 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg2 main_v93 (broadcastInDim S1000000x1 ![0] bcast_S1000000_S1000000x1_0 : (⟨S1000000, .f32⟩ : BufTy).Contents (Elt F) → (⟨S1000000x1, .f32⟩ : BufTy).Contents (Elt F)),
    StableHlo.unary main_v93 main_v94 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v92 main_v94 main_v95 (mulf : (⟨S1000000x64, .f32⟩ : BufTy).Contents (Elt F) → (⟨S1000000x64, .f32⟩ : BufTy).Contents (Elt F) → (⟨S1000000x64, .f32⟩ : BufTy).Contents (Elt F)),
    StableHlo.nullary main_cst_18 (constant S_ .f32 0x00000000#32),
    StableHlo.unary main_cst_18 main_v96 (broadcastInDim S100000x64 ![] bcast_S_S100000x64 : (⟨S_, .f32⟩ : BufTy).Contents (Elt F) → (⟨S100000x64, .f32⟩ : BufTy).Contents (Elt F)),
    StableHlo.unary main_v3 main_v97 (broadcastInDim S1000000x1 ![0] bcast_S1000000_S1000000x1_0 : (⟨S1000000, .i32⟩ : BufTy).Contents (Elt F) → (⟨S1000000x1, .i32⟩ : BufTy).Contents (Elt F)),
    StableHlo.ternary main_v96 main_v97 main_v95 main_v98 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v98 main_arg12 main_v99 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg13 main_v100 (broadcastInDim S1x32 ![1] bcast_S32_S1x32_1 : (⟨S32, .f32⟩ : BufTy).Contents (Elt F) → (⟨S1x32, .f32⟩ : BufTy).Contents (Elt F)),
    StableHlo.unary main_v100 main_v101 (broadcastInDim S100000x32 ![0, 1] bcast_S1x32_S100000x32_0_1 : (⟨S1x32, .f32⟩ : BufTy).Contents (Elt F) → (⟨S100000x32, .f32⟩ : BufTy).Contents (Elt F)),
    StableHlo.binary main_v99 main_v101 main_v102 (addf : (⟨S100000x32, .f32⟩ : BufTy).Contents (Elt F) → (⟨S100000x32, .f32⟩ : BufTy).Contents (Elt F) → (⟨S100000x32, .f32⟩ : BufTy).Contents (Elt F)) ]

set_option maxRecDepth 4096 in
set_option maxHeartbeats 4000000 in
/-- @main is that straight line: the three windows and the helper functions unfolded, sequencing reassociated. -/
theorem main_eq (c : Dev nD) : main (F := F) c = seq ops := by
  simp only [main, main_part0, main_part1, main_part2, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefChunks.lean ====
/-
  The reference's operations cut into seven stretches (first layer; its column statistics; its normalisation;
  second layer; its statistics; its normalisation; third layer): each stretch's result is the stage of `RefSpec`
  it spells, applied to the buffers it starts from, and it keeps every buffer it does not write.
-/
import proofs.«118196_j43138651521238_2_alg».proof.Proof.RefRun
import proofs.«118196_j43138651521238_2_alg».proof.Proof.RefSpec

set_option maxRecDepth 16384

noncomputable section

namespace Cert.RefChunks

open Cert.ReferenceIdeal Cert.ReferenceIdeal.Facts₀ Idealize.ShloMosaic Idealize.ShloMosaic.TcCoe Idealize.SL.Sem Idealize.ShloMosaic.StableHlo

/-- The fold over a list laid end to end is the fold over its second part of the fold over its first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

variable {F : FTy → Type} [FloatOps F]

/-- Stretch A of the reference's operations. -/
def opsA : List (HloOp τ sig (Elt F)) :=
  [
    StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg2 main_v11 (broadcastInDim S1000000x1 ![0] bcast_S1000000_S1000000x1_0 : (⟨S1000000, .f32⟩ : BufTy).Contents (Elt F) → (⟨S1000000x1, .f32⟩ : BufTy).Contents (Elt F)),
    StableHlo.unary main_v11 main_v12 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v10 main_v12 main_v13 (mulf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v14 (broadcastInDim S100000x64 ![] bcast_S_S100000x64 : (⟨S_, .f32⟩ : BufTy).Contents (Elt F) → (⟨S100000x64, .f32⟩ : BufTy).Contents (Elt F)),
    StableHlo.unary main_v3 main_v15 (broadcastInDim S1000000x1 ![0] bcast_S1000000_S1000000x1_0 : (⟨S1000000, .i32⟩ : BufTy).Contents (Elt F) → (⟨S1000000x1, .i32⟩ : BufTy).Contents (Elt F)),
    StableHlo.ternary main_v14 main_v15 main_v13 main_v16 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v16 main_arg4 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v19 main_v20 (addf : (⟨S100000x64, .f32⟩ : BufTy).Contents (Elt F) → (⟨S100000x64, .f32⟩ : BufTy).Contents (Elt F) → (⟨S100000x64, .f32⟩ : BufTy).Contents (Elt F)) ]

/-- Stretch B of the reference's operations. -/
def opsB : List (HloOp τ sig (Elt F)) :=
  [
    StableHlo.nullary main_cst_1 (constant S_ .f32 0x00000000#32),
    StableHlo.binary main_v20 main_cst_1 main_v21 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v22 (broadcastInDim S64 ![] bcast_S_S64 : (⟨S_, .f32⟩ : BufTy).Contents (Elt F) → (⟨S64, .f32⟩ : BufTy).Contents (Elt F)),
    StableHlo.binary main_v21 main_v22 main_v23 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v20) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v20) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]

/-- Stretch C of the reference's operations. -/
def opsC : List (HloOp τ sig (Elt F)) :=
  [
    StableHlo.unary main_v23 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v26 main_v27 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v28 (broadcastInDim S64 ![] bcast_S_S64 : (⟨S_, .f32⟩ : BufTy).Contents (Elt F) → (⟨S64, .f32⟩ : BufTy).Contents (Elt F)),
    StableHlo.binary main_v24 main_v28 main_v29 (addf : (⟨S64, .f32⟩ : BufTy).Contents (Elt F) → (⟨S64, .f32⟩ : BufTy).Contents (Elt F) → (⟨S64, .f32⟩ : BufTy).Contents (Elt F)),
    StableHlo.unary main_v29 main_v30 (Host.rsqrt : (⟨S64, .f32⟩ : BufTy).Contents (Elt F) → (⟨S64, .f32⟩ : BufTy).Contents (Elt F)),
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v32 main_v33 (mulf : (⟨S100000x64, .f32⟩ : BufTy).Contents (Elt F) → (⟨S100000x64, .f32⟩ : BufTy).Contents (Elt F) → (⟨S100000x64, .f32⟩ : BufTy).Contents (Elt F)),
    StableHlo.unary main_arg6 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v35 main_v36 (mulf : (⟨S100000x64, .f32⟩ : BufTy).Contents (Elt F) → (⟨S100000x64, .f32⟩ : BufTy).Contents (Elt F) → (⟨S100000x64, .f32⟩ : BufTy).Contents (Elt F)),
    StableHlo.unary main_arg7 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x00000000#32),
    StableHlo.unary main_cst_5 main_v40 (broadcastInDim S100000x64 ![] bcast_S_S100000x64 : (⟨S_, .f32⟩ : BufTy).Contents (Elt F) → (⟨S100000x64, .f32⟩ : BufTy).Contents (Elt F)),
    StableHlo.binary main_v39 main_v40 main_v41 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_6 (constant S_ .f32 0x3C23D70A#32),
    StableHlo.unary main_cst_6 main_v42 (broadcastInDim S100000x64 ![] bcast_S_S100000x64 : (⟨S_, .f32⟩ : BufTy).Contents (Elt F) → (⟨S100000x64, .f32⟩ : BufTy).Contents (Elt F)),
    StableHlo.binary main_v42 main_v39 main_v43 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v41) (.of main_v39) (.of main_v43) main_call1.v0 select ]

/-- Stretch D of the reference's operations. -/
def opsD : List (HloOp τ sig (Elt F)) :=
  [
    StableHlo.nullary main_c_7 (constantI S_ 32 0#32),
    StableHlo.unary main_c_7 main_v45 (broadcastInDim S1000000 ![] bcast_S_S1000000 : (⟨S_, .i32⟩ : BufTy).Contents (Elt F) → (⟨S1000000, .i32⟩ : BufTy).Contents (Elt F)),
    StableHlo.binary main_v1 main_v45 main_v46 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v47 (broadcastInDim S1000000 ![] bcast_S_S1000000 : (⟨S_, .i32⟩ : BufTy).Contents (Elt F) → (⟨S1000000, .i32⟩ : BufTy).Contents (Elt F)),
    StableHlo.binary main_v1 main_v47 main_v48 (addi : (⟨S1000000, .i32⟩ : BufTy).Contents (Elt F) → (⟨S1000000, .i32⟩ : BufTy).Contents (Elt F) → (⟨S1000000, .i32⟩ : BufTy).Contents (Elt F)),
    StableHlo.ternary main_v46 main_v48 main_v1 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v49 main_v50 (broadcastInDim S1000000x1 ![0] bcast_S1000000_S1000000x1_0 : (⟨S1000000, .i32⟩ : BufTy).Contents (Elt F) → (⟨S1000000x1, .i32⟩ : BufTy).Contents (Elt F)),
    StableHlo.binary main_v44 main_v50 main_v51 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg2 main_v52 (broadcastInDim S1000000x1 ![0] bcast_S1000000_S1000000x1_0 : (⟨S1000000, .f32⟩ : BufTy).Contents (Elt F) → (⟨S1000000x1, .f32⟩ : BufTy).Contents (Elt F)),
    StableHlo.unary main_v52 main_v53 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v51 main_v53 main_v54 (mulf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v55 (broadcastInDim S100000x64 ![] bcast_S_S100000x64 : (⟨S_, .f32⟩ : BufTy).Contents (Elt F) → (⟨S100000x64, .f32⟩ : BufTy).Contents (Elt F)),
    StableHlo.unary main_v3 main_v56 (broadcastInDim S1000000x1 ![0] bcast_S1000000_S1000000x1_0 : (⟨S1000000, .i32⟩ : BufTy).Contents (Elt F) → (⟨S1000000x1, .i32⟩ : BufTy).Contents (Elt F)),
    StableHlo.ternary main_v55 main_v56 main_v54 main_v57 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v57 main_arg8 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v60 main_v61 (addf : (⟨S100000x64, .f32⟩ : BufTy).Contents (Elt F) → (⟨S100000x64, .f32⟩ : BufTy).Contents (Elt F) → (⟨S100000x64, .f32⟩ : BufTy).Contents (Elt F)) ]

/-- Stretch E of the reference's operations. -/
def opsE : List (HloOp τ sig (Elt F)) :=
  [
    StableHlo.nullary main_cst_10 (constant S_ .f32 0x00000000#32),
    StableHlo.binary main_v61 main_cst_10 main_v62 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v63 (broadcastInDim S64 ![] bcast_S_S64 : (⟨S_, .f32⟩ : BufTy).Contents (Elt F) → (⟨S64, .f32⟩ : BufTy).Contents (Elt F)),
    StableHlo.binary main_v62 main_v63 main_v64 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call2.cst (constant S_ .f32 0x00000000#32),
    StableHlo.TRef.binary (.of main_v61) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v61) main_call2.v4 main_call2.v5 subf,
    StableHlo.TRef.binary main_call2.v5 main_call2.v5 main_call2.v6 mulf,
    StableHlo.TRef.unary (.of main_c_12) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- Stretch F of the reference's operations. -/
def opsF : List (HloOp τ sig (Elt F)) :=
  [
    StableHlo.unary main_v64 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v67 main_v68 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v69 (broadcastInDim S64 ![] bcast_S_S64 : (⟨S_, .f32⟩ : BufTy).Contents (Elt F) → (⟨S64, .f32⟩ : BufTy).Contents (Elt F)),
    StableHlo.binary main_v65 main_v69 main_v70 (addf : (⟨S64, .f32⟩ : BufTy).Contents (Elt F) → (⟨S64, .f32⟩ : BufTy).Contents (Elt F) → (⟨S64, .f32⟩ : BufTy).Contents (Elt F)),
    StableHlo.unary main_v70 main_v71 (Host.rsqrt : (⟨S64, .f32⟩ : BufTy).Contents (Elt F) → (⟨S64, .f32⟩ : BufTy).Contents (Elt F)),
    StableHlo.unary main_v71 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v73 main_v74 (mulf : (⟨S100000x64, .f32⟩ : BufTy).Contents (Elt F) → (⟨S100000x64, .f32⟩ : BufTy).Contents (Elt F) → (⟨S100000x64, .f32⟩ : BufTy).Contents (Elt F)),
    StableHlo.unary main_arg10 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v76 main_v77 (mulf : (⟨S100000x64, .f32⟩ : BufTy).Contents (Elt F) → (⟨S100000x64, .f32⟩ : BufTy).Contents (Elt F) → (⟨S100000x64, .f32⟩ : BufTy).Contents (Elt F)),
    StableHlo.unary main_arg11 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.unary main_cst_14 main_v81 (broadcastInDim S100000x64 ![] bcast_S_S100000x64 : (⟨S_, .f32⟩ : BufTy).Contents (Elt F) → (⟨S100000x64, .f32⟩ : BufTy).Contents (Elt F)),
    StableHlo.binary main_v80 main_v81 main_v82 (cmpf .oge : (⟨S100000x64, .f32⟩ : BufTy).Contents (Elt F) → (⟨S100000x64, .f32⟩ : BufTy).Contents (Elt F) → (⟨S100000x64, .i1⟩ : BufTy).Contents (Elt F)),
    StableHlo.nullary main_cst_15 (constant S_ .f32 0x3C23D70A#32),
    StableHlo.unary main_cst_15 main_v83 (broadcastInDim S100000x64 ![] bcast_S_S100000x64 : (⟨S_, .f32⟩ : BufTy).Contents (Elt F) → (⟨S100000x64, .f32⟩ : BufTy).Contents (Elt F)),
    StableHlo.binary main_v83 main_v80 main_v84 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v82) (.of main_v80) (.of main_v84) main_call3.v0 select ]

/-- Stretch G of the reference's operations. -/
def opsG : List (HloOp τ sig (Elt F)) :=
  [
    StableHlo.nullary main_c_16 (constantI S_ 32 0#32),
    StableHlo.unary main_c_16 main_v86 (broadcastInDim S1000000 ![] bcast_S_S1000000 : (⟨S_, .i32⟩ : BufTy).Contents (Elt F) → (⟨S1000000, .i32⟩ : BufTy).Contents (Elt F)),
    StableHlo.binary main_v1 main_v86 main_v87 (cmpi .slt : (⟨S1000000, .i32⟩ : BufTy).Contents (Elt F) → (⟨S1000000, .i32⟩ : BufTy).Contents (Elt F) → (⟨S1000000, .i1⟩ : BufTy).Contents (Elt F)),
    StableHlo.nullary main_c_17 (constantI S_ 32 100000#32),
    StableHlo.unary main_c_17 main_v88 (broadcastInDim S1000000 ![] bcast_S_S1000000 : (⟨S_, .i32⟩ : BufTy).Contents (Elt F) → (⟨S1000000, .i32⟩ : BufTy).Contents (Elt F)),
    StableHlo.binary main_v1 main_v88 main_v89 (addi : (⟨S1000000, .i32⟩ : BufTy).Contents (Elt F) → (⟨S1000000, .i32⟩ : BufTy).Contents (Elt F) → (⟨S1000000, .i32⟩ : BufTy).Contents (Elt F)),
    StableHlo.ternary main_v87 main_v89 main_v1 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v90 main_v91 (broadcastInDim S1000000x1 ![0] bcast_S1000000_S1000000x1_0 : (⟨S1000000, .i32⟩ : BufTy).Contents (Elt F) → (⟨S1000000x1, .i32⟩ : BufTy).Contents (Elt F)),
    StableHlo.binary main_v85 main_v91 main_v92 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg2 main_v93 (broadcastInDim S1000000x1 ![0] bcast_S1000000_S1000000x1_0 : (⟨S1000000, .f32⟩ : BufTy).Contents (Elt F) → (⟨S1000000x1, .f32⟩ : BufTy).Contents (Elt F)),
    StableHlo.unary main_v93 main_v94 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v92 main_v94 main_v95 (mulf : (⟨S1000000x64, .f32⟩ : BufTy).Contents (Elt F) → (⟨S1000000x64, .f32⟩ : BufTy).Contents (Elt F) → (⟨S1000000x64, .f32⟩ : BufTy).Contents (Elt F)),
    StableHlo.nullary main_cst_18 (constant S_ .f32 0x00000000#32),
    StableHlo.unary main_cst_18 main_v96 (broadcastInDim S100000x64 ![] bcast_S_S100000x64 : (⟨S_, .f32⟩ : BufTy).Contents (Elt F) → (⟨S100000x64, .f32⟩ : BufTy).Contents (Elt F)),
    StableHlo.unary main_v3 main_v97 (broadcastInDim S1000000x1 ![0] bcast_S1000000_S1000000x1_0 : (⟨S1000000, .i32⟩ : BufTy).Contents (Elt F) → (⟨S1000000x1, .i32⟩ : BufTy).Contents (Elt F)),
    StableHlo.ternary main_v96 main_v97 main_v95 main_v98 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v98 main_arg12 main_v99 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg13 main_v100 (broadcastInDim S1x32 ![1] bcast_S32_S1x32_1 : (⟨S32, .f32⟩ : BufTy).Contents (Elt F) → (⟨S1x32, .f32⟩ : BufTy).Contents (Elt F)),
    StableHlo.unary main_v100 main_v101 (broadcastInDim S100000x32 ![0, 1] bcast_S1x32_S100000x32_0_1 : (⟨S1x32, .f32⟩ : BufTy).Contents (Elt F) → (⟨S100000x32, .f32⟩ : BufTy).Contents (Elt F)),
    StableHlo.binary main_v99 main_v101 main_v102 (addf : (⟨S100000x32, .f32⟩ : BufTy).Contents (Elt F) → (⟨S100000x32, .f32⟩ : BufTy).Contents (Elt F) → (⟨S100000x32, .f32⟩ : BufTy).Contents (Elt F)) ]

theorem ops_eq : Cert.RefRun.ops (F := F) = opsA ++ (opsB ++ (opsC ++ (opsD ++ (opsE ++ (opsF ++ opsG))))) := rfl

theorem A_main_v20 (V : Valuation τ sig (Elt Ideal)) :
    after (opsA (F := Ideal)) V (main_v20 : DevRef τ sig) = Cert.RefSpec.lin64 (Cert.RefSpec.prop (V (main_arg0 : DevRef τ sig)) (V (main_arg1 : DevRef τ sig)) (V (main_arg2 : DevRef τ sig))) (V (main_arg4 : DevRef τ sig)) (V (main_arg5 : DevRef τ sig)) := by
  unfold opsA
  after_results_simp
  rfl

theorem A_main_v1 (V : Valuation τ sig (Elt Ideal)) :
    after (opsA (F := Ideal)) V (main_v1 : DevRef τ sig) = Cert.RefSpec.src (V (main_arg1 : DevRef τ sig)) := by
  unfold opsA
  after_results_simp
  rfl

theorem A_main_v3 (V : Valuation τ sig (Elt Ideal)) :
    after (opsA (F := Ideal)) V (main_v3 : DevRef τ sig) = Cert.RefSpec.dst (V (main_arg1 : DevRef τ sig)) := by
  unfold opsA
  after_results_simp
  rfl

theorem B_main_v23 (V : Valuation τ sig (Elt Ideal)) :
    after (opsB (F := Ideal)) V (main_v23 : DevRef τ sig) = Cert.RefSpec.mean (V (main_v20 : DevRef τ sig)) := by
  unfold opsB
  after_results_simp
  rfl

theorem B_main_v24 (V : Valuation τ sig (Elt Ideal)) :
    after (opsB (F := Ideal)) V (main_v24 : DevRef τ sig) = Cert.RefSpec.var (V (main_v20 : DevRef τ sig)) := by
  unfold opsB
  after_results_simp
  rfl

theorem C_main_v44 (V : Valuation τ sig (Elt Ideal)) :
    after (opsC (F := Ideal)) V (main_v44 : DevRef τ sig) = Cert.RefSpec.normact (V (main_v20 : DevRef τ sig)) (V (main_v23 : DevRef τ sig)) (V (main_v24 : DevRef τ sig)) (V (main_arg6 : DevRef τ sig)) (V (main_arg7 : DevRef τ sig)) := by
  unfold opsC
  after_results_simp
  rfl

theorem D_main_v61 (V : Valuation τ sig (Elt Ideal)) :
    after (opsD (F := Ideal)) V (main_v61 : DevRef τ sig) = Cert.RefSpec.lin64 (Cert.RefSpec.propOf (V (main_v44 : DevRef τ sig)) (V (main_v1 : DevRef τ sig)) (V (main_v3 : DevRef τ sig)) (V (main_arg2 : DevRef τ sig))) (V (main_arg8 : DevRef τ sig)) (V (main_arg9 : DevRef τ sig)) := by
  unfold opsD
  after_results_simp
  rfl

theorem E_main_v64 (V : Valuation τ sig (Elt Ideal)) :
    after (opsE (F := Ideal)) V (main_v64 : DevRef τ sig) = Cert.RefSpec.mean (V (main_v61 : DevRef τ sig)) := by
  unfold opsE
  after_results_simp
  rfl

theorem E_main_v65 (V : Valuation τ sig (Elt Ideal)) :
    after (opsE (F := Ideal)) V (main_v65 : DevRef τ sig) = Cert.RefSpec.var (V (main_v61 : DevRef τ sig)) := by
  unfold opsE
  after_results_simp
  rfl

theorem F_main_v85 (V : Valuation τ sig (Elt Ideal)) :
    after (opsF (F := Ideal)) V (main_v85 : DevRef τ sig) = Cert.RefSpec.normact (V (main_v61 : DevRef τ sig)) (V (main_v64 : DevRef τ sig)) (V (main_v65 : DevRef τ sig)) (V (main_arg10 : DevRef τ sig)) (V (main_arg11 : DevRef τ sig)) := by
  unfold opsF
  after_results_simp
  rfl

theorem G_main_v102 (V : Valuation τ sig (Elt Ideal)) :
    after (opsG (F := Ideal)) V (main_v102 : DevRef τ sig) = Cert.RefSpec.lin32 (Cert.RefSpec.propOf (V (main_v85 : DevRef τ sig)) (V (main_v1 : DevRef τ sig)) (V (main_v3 : DevRef τ sig)) (V (main_arg2 : DevRef τ sig))) (V (main_arg12 : DevRef τ sig)) (V (main_arg13 : DevRef τ sig)) := by
  unfold opsG
  after_results_simp
  rfl

theorem keepA_main_arg0 (V : Valuation τ sig (Elt Ideal)) : after (opsA (F := Ideal)) V (main_arg0 : DevRef τ sig) = V (main_arg0 : DevRef τ sig) := by
  unfold opsA
  after_results_simp

theorem keepA_main_arg1 (V : Valuation τ sig (Elt Ideal)) : after (opsA (F := Ideal)) V (main_arg1 : DevRef τ sig) = V (main_arg1 : DevRef τ sig) := by
  unfold opsA
  after_results_simp

theorem keepA_main_arg2 (V : Valuation τ sig (Elt Ideal)) : after (opsA (F := Ideal)) V (main_arg2 : DevRef τ sig) = V (main_arg2 : DevRef τ sig) := by
  unfold opsA
  after_results_simp

theorem keepA_main_arg3 (V : Valuation τ sig (Elt Ideal)) : after (opsA (F := Ideal)) V (main_arg3 : DevRef τ sig) = V (main_arg3 : DevRef τ sig) := by
  unfold opsA
  after_results_simp

theorem keepA_main_arg4 (V : Valuation τ sig (Elt Ideal)) : after (opsA (F := Ideal)) V (main_arg4 : DevRef τ sig) = V (main_arg4 : DevRef τ sig) := by
  unfold opsA
  after_results_simp

theorem keepA_main_arg5 (V : Valuation τ sig (Elt Ideal)) : after (opsA (F := Ideal)) V (main_arg5 : DevRef τ sig) = V (main_arg5 : DevRef τ sig) := by
  unfold opsA
  after_results_simp

theorem keepA_main_arg6 (V : Valuation τ sig (Elt Ideal)) : after (opsA (F := Ideal)) V (main_arg6 : DevRef τ sig) = V (main_arg6 : DevRef τ sig) := by
  unfold opsA
  after_results_simp

theorem keepA_main_arg7 (V : Valuation τ sig (Elt Ideal)) : after (opsA (F := Ideal)) V (main_arg7 : DevRef τ sig) = V (main_arg7 : DevRef τ sig) := by
  unfold opsA
  after_results_simp

theorem keepA_main_arg8 (V : Valuation τ sig (Elt Ideal)) : after (opsA (F := Ideal)) V (main_arg8 : DevRef τ sig) = V (main_arg8 : DevRef τ sig) := by
  unfold opsA
  after_results_simp

theorem keepA_main_arg9 (V : Valuation τ sig (Elt Ideal)) : after (opsA (F := Ideal)) V (main_arg9 : DevRef τ sig) = V (main_arg9 : DevRef τ sig) := by
  unfold opsA
  after_results_simp

theorem keepA_main_arg10 (V : Valuation τ sig (Elt Ideal)) : after (opsA (F := Ideal)) V (main_arg10 : DevRef τ sig) = V (main_arg10 : DevRef τ sig) := by
  unfold opsA
  after_results_simp

theorem keepA_main_arg11 (V : Valuation τ sig (Elt Ideal)) : after (opsA (F := Ideal)) V (main_arg11 : DevRef τ sig) = V (main_arg11 : DevRef τ sig) := by
  unfold opsA
  after_results_simp

theorem keepA_main_arg12 (V : Valuation τ sig (Elt Ideal)) : after (opsA (F := Ideal)) V (main_arg12 : DevRef τ sig) = V (main_arg12 : DevRef τ sig) := by
  unfold opsA
  after_results_simp

theorem keepA_main_arg13 (V : Valuation τ sig (Elt Ideal)) : after (opsA (F := Ideal)) V (main_arg13 : DevRef τ sig) = V (main_arg13 : DevRef τ sig) := by
  unfold opsA
  after_results_simp

theorem keepB_main_arg0 (V : Valuation τ sig (Elt Ideal)) : after (opsB (F := Ideal)) V (main_arg0 : DevRef τ sig) = V (main_arg0 : DevRef τ sig) := by
  unfold opsB
  after_results_simp

theorem keepB_main_arg1 (V : Valuation τ sig (Elt Ideal)) : after (opsB (F := Ideal)) V (main_arg1 : DevRef τ sig) = V (main_arg1 : DevRef τ sig) := by
  unfold opsB
  after_results_simp

theorem keepB_main_arg2 (V : Valuation τ sig (Elt Ideal)) : after (opsB (F := Ideal)) V (main_arg2 : DevRef τ sig) = V (main_arg2 : DevRef τ sig) := by
  unfold opsB
  after_results_simp

theorem keepB_main_arg3 (V : Valuation τ sig (Elt Ideal)) : after (opsB (F := Ideal)) V (main_arg3 : DevRef τ sig) = V (main_arg3 : DevRef τ sig) := by
  unfold opsB
  after_results_simp

theorem keepB_main_arg4 (V : Valuation τ sig (Elt Ideal)) : after (opsB (F := Ideal)) V (main_arg4 : DevRef τ sig) = V (main_arg4 : DevRef τ sig) := by
  unfold opsB
  after_results_simp

theorem keepB_main_arg5 (V : Valuation τ sig (Elt Ideal)) : after (opsB (F := Ideal)) V (main_arg5 : DevRef τ sig) = V (main_arg5 : DevRef τ sig) := by
  unfold opsB
  after_results_simp

theorem keepB_main_arg6 (V : Valuation τ sig (Elt Ideal)) : after (opsB (F := Ideal)) V (main_arg6 : DevRef τ sig) = V (main_arg6 : DevRef τ sig) := by
  unfold opsB
  after_results_simp

theorem keepB_main_arg7 (V : Valuation τ sig (Elt Ideal)) : after (opsB (F := Ideal)) V (main_arg7 : DevRef τ sig) = V (main_arg7 : DevRef τ sig) := by
  unfold opsB
  after_results_simp

theorem keepB_main_arg8 (V : Valuation τ sig (Elt Ideal)) : after (opsB (F := Ideal)) V (main_arg8 : DevRef τ sig) = V (main_arg8 : DevRef τ sig) := by
  unfold opsB
  after_results_simp

theorem keepB_main_arg9 (V : Valuation τ sig (Elt Ideal)) : after (opsB (F := Ideal)) V (main_arg9 : DevRef τ sig) = V (main_arg9 : DevRef τ sig) := by
  unfold opsB
  after_results_simp

theorem keepB_main_arg10 (V : Valuation τ sig (Elt Ideal)) : after (opsB (F := Ideal)) V (main_arg10 : DevRef τ sig) = V (main_arg10 : DevRef τ sig) := by
  unfold opsB
  after_results_simp

theorem keepB_main_arg11 (V : Valuation τ sig (Elt Ideal)) : after (opsB (F := Ideal)) V (main_arg11 : DevRef τ sig) = V (main_arg11 : DevRef τ sig) := by
  unfold opsB
  after_results_simp

theorem keepB_main_arg12 (V : Valuation τ sig (Elt Ideal)) : after (opsB (F := Ideal)) V (main_arg12 : DevRef τ sig) = V (main_arg12 : DevRef τ sig) := by
  unfold opsB
  after_results_simp

theorem keepB_main_arg13 (V : Valuation τ sig (Elt Ideal)) : after (opsB (F := Ideal)) V (main_arg13 : DevRef τ sig) = V (main_arg13 : DevRef τ sig) := by
  unfold opsB
  after_results_simp

theorem keepB_main_v20 (V : Valuation τ sig (Elt Ideal)) : after (opsB (F := Ideal)) V (main_v20 : DevRef τ sig) = V (main_v20 : DevRef τ sig) := by
  unfold opsB
  after_results_simp

theorem keepB_main_v1 (V : Valuation τ sig (Elt Ideal)) : after (opsB (F := Ideal)) V (main_v1 : DevRef τ sig) = V (main_v1 : DevRef τ sig) := by
  unfold opsB
  after_results_simp

theorem keepB_main_v3 (V : Valuation τ sig (Elt Ideal)) : after (opsB (F := Ideal)) V (main_v3 : DevRef τ sig) = V (main_v3 : DevRef τ sig) := by
  unfold opsB
  after_results_simp

theorem keepC_main_arg0 (V : Valuation τ sig (Elt Ideal)) : after (opsC (F := Ideal)) V (main_arg0 : DevRef τ sig) = V (main_arg0 : DevRef τ sig) := by
  unfold opsC
  after_results_simp

theorem keepC_main_arg1 (V : Valuation τ sig (Elt Ideal)) : after (opsC (F := Ideal)) V (main_arg1 : DevRef τ sig) = V (main_arg1 : DevRef τ sig) := by
  unfold opsC
  after_results_simp

theorem keepC_main_arg2 (V : Valuation τ sig (Elt Ideal)) : after (opsC (F := Ideal)) V (main_arg2 : DevRef τ sig) = V (main_arg2 : DevRef τ sig) := by
  unfold opsC
  after_results_simp

theorem keepC_main_arg3 (V : Valuation τ sig (Elt Ideal)) : after (opsC (F := Ideal)) V (main_arg3 : DevRef τ sig) = V (main_arg3 : DevRef τ sig) := by
  unfold opsC
  after_results_simp

theorem keepC_main_arg4 (V : Valuation τ sig (Elt Ideal)) : after (opsC (F := Ideal)) V (main_arg4 : DevRef τ sig) = V (main_arg4 : DevRef τ sig) := by
  unfold opsC
  after_results_simp

theorem keepC_main_arg5 (V : Valuation τ sig (Elt Ideal)) : after (opsC (F := Ideal)) V (main_arg5 : DevRef τ sig) = V (main_arg5 : DevRef τ sig) := by
  unfold opsC
  after_results_simp

theorem keepC_main_arg6 (V : Valuation τ sig (Elt Ideal)) : after (opsC (F := Ideal)) V (main_arg6 : DevRef τ sig) = V (main_arg6 : DevRef τ sig) := by
  unfold opsC
  after_results_simp

theorem keepC_main_arg7 (V : Valuation τ sig (Elt Ideal)) : after (opsC (F := Ideal)) V (main_arg7 : DevRef τ sig) = V (main_arg7 : DevRef τ sig) := by
  unfold opsC
  after_results_simp

theorem keepC_main_arg8 (V : Valuation τ sig (Elt Ideal)) : after (opsC (F := Ideal)) V (main_arg8 : DevRef τ sig) = V (main_arg8 : DevRef τ sig) := by
  unfold opsC
  after_results_simp

theorem keepC_main_arg9 (V : Valuation τ sig (Elt Ideal)) : after (opsC (F := Ideal)) V (main_arg9 : DevRef τ sig) = V (main_arg9 : DevRef τ sig) := by
  unfold opsC
  after_results_simp

theorem keepC_main_arg10 (V : Valuation τ sig (Elt Ideal)) : after (opsC (F := Ideal)) V (main_arg10 : DevRef τ sig) = V (main_arg10 : DevRef τ sig) := by
  unfold opsC
  after_results_simp

theorem keepC_main_arg11 (V : Valuation τ sig (Elt Ideal)) : after (opsC (F := Ideal)) V (main_arg11 : DevRef τ sig) = V (main_arg11 : DevRef τ sig) := by
  unfold opsC
  after_results_simp

theorem keepC_main_arg12 (V : Valuation τ sig (Elt Ideal)) : after (opsC (F := Ideal)) V (main_arg12 : DevRef τ sig) = V (main_arg12 : DevRef τ sig) := by
  unfold opsC
  after_results_simp

theorem keepC_main_arg13 (V : Valuation τ sig (Elt Ideal)) : after (opsC (F := Ideal)) V (main_arg13 : DevRef τ sig) = V (main_arg13 : DevRef τ sig) := by
  unfold opsC
  after_results_simp

theorem keepC_main_v1 (V : Valuation τ sig (Elt Ideal)) : after (opsC (F := Ideal)) V (main_v1 : DevRef τ sig) = V (main_v1 : DevRef τ sig) := by
  unfold opsC
  after_results_simp

theorem keepC_main_v3 (V : Valuation τ sig (Elt Ideal)) : after (opsC (F := Ideal)) V (main_v3 : DevRef τ sig) = V (main_v3 : DevRef τ sig) := by
  unfold opsC
  after_results_simp

theorem keepD_main_arg0 (V : Valuation τ sig (Elt Ideal)) : after (opsD (F := Ideal)) V (main_arg0 : DevRef τ sig) = V (main_arg0 : DevRef τ sig) := by
  unfold opsD
  after_results_simp

theorem keepD_main_arg1 (V : Valuation τ sig (Elt Ideal)) : after (opsD (F := Ideal)) V (main_arg1 : DevRef τ sig) = V (main_arg1 : DevRef τ sig) := by
  unfold opsD
  after_results_simp

theorem keepD_main_arg2 (V : Valuation τ sig (Elt Ideal)) : after (opsD (F := Ideal)) V (main_arg2 : DevRef τ sig) = V (main_arg2 : DevRef τ sig) := by
  unfold opsD
  after_results_simp

theorem keepD_main_arg3 (V : Valuation τ sig (Elt Ideal)) : after (opsD (F := Ideal)) V (main_arg3 : DevRef τ sig) = V (main_arg3 : DevRef τ sig) := by
  unfold opsD
  after_results_simp

theorem keepD_main_arg4 (V : Valuation τ sig (Elt Ideal)) : after (opsD (F := Ideal)) V (main_arg4 : DevRef τ sig) = V (main_arg4 : DevRef τ sig) := by
  unfold opsD
  after_results_simp

theorem keepD_main_arg5 (V : Valuation τ sig (Elt Ideal)) : after (opsD (F := Ideal)) V (main_arg5 : DevRef τ sig) = V (main_arg5 : DevRef τ sig) := by
  unfold opsD
  after_results_simp

theorem keepD_main_arg6 (V : Valuation τ sig (Elt Ideal)) : after (opsD (F := Ideal)) V (main_arg6 : DevRef τ sig) = V (main_arg6 : DevRef τ sig) := by
  unfold opsD
  after_results_simp

theorem keepD_main_arg7 (V : Valuation τ sig (Elt Ideal)) : after (opsD (F := Ideal)) V (main_arg7 : DevRef τ sig) = V (main_arg7 : DevRef τ sig) := by
  unfold opsD
  after_results_simp

theorem keepD_main_arg8 (V : Valuation τ sig (Elt Ideal)) : after (opsD (F := Ideal)) V (main_arg8 : DevRef τ sig) = V (main_arg8 : DevRef τ sig) := by
  unfold opsD
  after_results_simp

theorem keepD_main_arg9 (V : Valuation τ sig (Elt Ideal)) : after (opsD (F := Ideal)) V (main_arg9 : DevRef τ sig) = V (main_arg9 : DevRef τ sig) := by
  unfold opsD
  after_results_simp

theorem keepD_main_arg10 (V : Valuation τ sig (Elt Ideal)) : after (opsD (F := Ideal)) V (main_arg10 : DevRef τ sig) = V (main_arg10 : DevRef τ sig) := by
  unfold opsD
  after_results_simp

theorem keepD_main_arg11 (V : Valuation τ sig (Elt Ideal)) : after (opsD (F := Ideal)) V (main_arg11 : DevRef τ sig) = V (main_arg11 : DevRef τ sig) := by
  unfold opsD
  after_results_simp

theorem keepD_main_arg12 (V : Valuation τ sig (Elt Ideal)) : after (opsD (F := Ideal)) V (main_arg12 : DevRef τ sig) = V (main_arg12 : DevRef τ sig) := by
  unfold opsD
  after_results_simp

theorem keepD_main_arg13 (V : Valuation τ sig (Elt Ideal)) : after (opsD (F := Ideal)) V (main_arg13 : DevRef τ sig) = V (main_arg13 : DevRef τ sig) := by
  unfold opsD
  after_results_simp

theorem keepD_main_v1 (V : Valuation τ sig (Elt Ideal)) : after (opsD (F := Ideal)) V (main_v1 : DevRef τ sig) = V (main_v1 : DevRef τ sig) := by
  unfold opsD
  after_results_simp

theorem keepD_main_v3 (V : Valuation τ sig (Elt Ideal)) : after (opsD (F := Ideal)) V (main_v3 : DevRef τ sig) = V (main_v3 : DevRef τ sig) := by
  unfold opsD
  after_results_simp

theorem keepE_main_arg0 (V : Valuation τ sig (Elt Ideal)) : after (opsE (F := Ideal)) V (main_arg0 : DevRef τ sig) = V (main_arg0 : DevRef τ sig) := by
  unfold opsE
  after_results_simp

theorem keepE_main_arg1 (V : Valuation τ sig (Elt Ideal)) : after (opsE (F := Ideal)) V (main_arg1 : DevRef τ sig) = V (main_arg1 : DevRef τ sig) := by
  unfold opsE
  after_results_simp

theorem keepE_main_arg2 (V : Valuation τ sig (Elt Ideal)) : after (opsE (F := Ideal)) V (main_arg2 : DevRef τ sig) = V (main_arg2 : DevRef τ sig) := by
  unfold opsE
  after_results_simp

theorem keepE_main_arg3 (V : Valuation τ sig (Elt Ideal)) : after (opsE (F := Ideal)) V (main_arg3 : DevRef τ sig) = V (main_arg3 : DevRef τ sig) := by
  unfold opsE
  after_results_simp

theorem keepE_main_arg4 (V : Valuation τ sig (Elt Ideal)) : after (opsE (F := Ideal)) V (main_arg4 : DevRef τ sig) = V (main_arg4 : DevRef τ sig) := by
  unfold opsE
  after_results_simp

theorem keepE_main_arg5 (V : Valuation τ sig (Elt Ideal)) : after (opsE (F := Ideal)) V (main_arg5 : DevRef τ sig) = V (main_arg5 : DevRef τ sig) := by
  unfold opsE
  after_results_simp

theorem keepE_main_arg6 (V : Valuation τ sig (Elt Ideal)) : after (opsE (F := Ideal)) V (main_arg6 : DevRef τ sig) = V (main_arg6 : DevRef τ sig) := by
  unfold opsE
  after_results_simp

theorem keepE_main_arg7 (V : Valuation τ sig (Elt Ideal)) : after (opsE (F := Ideal)) V (main_arg7 : DevRef τ sig) = V (main_arg7 : DevRef τ sig) := by
  unfold opsE
  after_results_simp

theorem keepE_main_arg8 (V : Valuation τ sig (Elt Ideal)) : after (opsE (F := Ideal)) V (main_arg8 : DevRef τ sig) = V (main_arg8 : DevRef τ sig) := by
  unfold opsE
  after_results_simp

theorem keepE_main_arg9 (V : Valuation τ sig (Elt Ideal)) : after (opsE (F := Ideal)) V (main_arg9 : DevRef τ sig) = V (main_arg9 : DevRef τ sig) := by
  unfold opsE
  after_results_simp

theorem keepE_main_arg10 (V : Valuation τ sig (Elt Ideal)) : after (opsE (F := Ideal)) V (main_arg10 : DevRef τ sig) = V (main_arg10 : DevRef τ sig) := by
  unfold opsE
  after_results_simp

theorem keepE_main_arg11 (V : Valuation τ sig (Elt Ideal)) : after (opsE (F := Ideal)) V (main_arg11 : DevRef τ sig) = V (main_arg11 : DevRef τ sig) := by
  unfold opsE
  after_results_simp

theorem keepE_main_arg12 (V : Valuation τ sig (Elt Ideal)) : after (opsE (F := Ideal)) V (main_arg12 : DevRef τ sig) = V (main_arg12 : DevRef τ sig) := by
  unfold opsE
  after_results_simp

theorem keepE_main_arg13 (V : Valuation τ sig (Elt Ideal)) : after (opsE (F := Ideal)) V (main_arg13 : DevRef τ sig) = V (main_arg13 : DevRef τ sig) := by
  unfold opsE
  after_results_simp

theorem keepE_main_v61 (V : Valuation τ sig (Elt Ideal)) : after (opsE (F := Ideal)) V (main_v61 : DevRef τ sig) = V (main_v61 : DevRef τ sig) := by
  unfold opsE
  after_results_simp

theorem keepE_main_v1 (V : Valuation τ sig (Elt Ideal)) : after (opsE (F := Ideal)) V (main_v1 : DevRef τ sig) = V (main_v1 : DevRef τ sig) := by
  unfold opsE
  after_results_simp

theorem keepE_main_v3 (V : Valuation τ sig (Elt Ideal)) : after (opsE (F := Ideal)) V (main_v3 : DevRef τ sig) = V (main_v3 : DevRef τ sig) := by
  unfold opsE
  after_results_simp

theorem keepF_main_arg0 (V : Valuation τ sig (Elt Ideal)) : after (opsF (F := Ideal)) V (main_arg0 : DevRef τ sig) = V (main_arg0 : DevRef τ sig) := by
  unfold opsF
  after_results_simp

theorem keepF_main_arg1 (V : Valuation τ sig (Elt Ideal)) : after (opsF (F := Ideal)) V (main_arg1 : DevRef τ sig) = V (main_arg1 : DevRef τ sig) := by
  unfold opsF
  after_results_simp

theorem keepF_main_arg2 (V : Valuation τ sig (Elt Ideal)) : after (opsF (F := Ideal)) V (main_arg2 : DevRef τ sig) = V (main_arg2 : DevRef τ sig) := by
  unfold opsF
  after_results_simp

theorem keepF_main_arg3 (V : Valuation τ sig (Elt Ideal)) : after (opsF (F := Ideal)) V (main_arg3 : DevRef τ sig) = V (main_arg3 : DevRef τ sig) := by
  unfold opsF
  after_results_simp

theorem keepF_main_arg4 (V : Valuation τ sig (Elt Ideal)) : after (opsF (F := Ideal)) V (main_arg4 : DevRef τ sig) = V (main_arg4 : DevRef τ sig) := by
  unfold opsF
  after_results_simp

theorem keepF_main_arg5 (V : Valuation τ sig (Elt Ideal)) : after (opsF (F := Ideal)) V (main_arg5 : DevRef τ sig) = V (main_arg5 : DevRef τ sig) := by
  unfold opsF
  after_results_simp

theorem keepF_main_arg6 (V : Valuation τ sig (Elt Ideal)) : after (opsF (F := Ideal)) V (main_arg6 : DevRef τ sig) = V (main_arg6 : DevRef τ sig) := by
  unfold opsF
  after_results_simp

theorem keepF_main_arg7 (V : Valuation τ sig (Elt Ideal)) : after (opsF (F := Ideal)) V (main_arg7 : DevRef τ sig) = V (main_arg7 : DevRef τ sig) := by
  unfold opsF
  after_results_simp

theorem keepF_main_arg8 (V : Valuation τ sig (Elt Ideal)) : after (opsF (F := Ideal)) V (main_arg8 : DevRef τ sig) = V (main_arg8 : DevRef τ sig) := by
  unfold opsF
  after_results_simp

theorem keepF_main_arg9 (V : Valuation τ sig (Elt Ideal)) : after (opsF (F := Ideal)) V (main_arg9 : DevRef τ sig) = V (main_arg9 : DevRef τ sig) := by
  unfold opsF
  after_results_simp

theorem keepF_main_arg10 (V : Valuation τ sig (Elt Ideal)) : after (opsF (F := Ideal)) V (main_arg10 : DevRef τ sig) = V (main_arg10 : DevRef τ sig) := by
  unfold opsF
  after_results_simp

theorem keepF_main_arg11 (V : Valuation τ sig (Elt Ideal)) : after (opsF (F := Ideal)) V (main_arg11 : DevRef τ sig) = V (main_arg11 : DevRef τ sig) := by
  unfold opsF
  after_results_simp

theorem keepF_main_arg12 (V : Valuation τ sig (Elt Ideal)) : after (opsF (F := Ideal)) V (main_arg12 : DevRef τ sig) = V (main_arg12 : DevRef τ sig) := by
  unfold opsF
  after_results_simp

theorem keepF_main_arg13 (V : Valuation τ sig (Elt Ideal)) : after (opsF (F := Ideal)) V (main_arg13 : DevRef τ sig) = V (main_arg13 : DevRef τ sig) := by
  unfold opsF
  after_results_simp

theorem keepF_main_v1 (V : Valuation τ sig (Elt Ideal)) : after (opsF (F := Ideal)) V (main_v1 : DevRef τ sig) = V (main_v1 : DevRef τ sig) := by
  unfold opsF
  after_results_simp

theorem keepF_main_v3 (V : Valuation τ sig (Elt Ideal)) : after (opsF (F := Ideal)) V (main_v3 : DevRef τ sig) = V (main_v3 : DevRef τ sig) := by
  unfold opsF
  after_results_simp

theorem keepG_main_arg0 (V : Valuation τ sig (Elt Ideal)) : after (opsG (F := Ideal)) V (main_arg0 : DevRef τ sig) = V (main_arg0 : DevRef τ sig) := by
  unfold opsG
  after_results_simp

theorem keepG_main_arg1 (V : Valuation τ sig (Elt Ideal)) : after (opsG (F := Ideal)) V (main_arg1 : DevRef τ sig) = V (main_arg1 : DevRef τ sig) := by
  unfold opsG
  after_results_simp

theorem keepG_main_arg2 (V : Valuation τ sig (Elt Ideal)) : after (opsG (F := Ideal)) V (main_arg2 : DevRef τ sig) = V (main_arg2 : DevRef τ sig) := by
  unfold opsG
  after_results_simp

theorem keepG_main_arg3 (V : Valuation τ sig (Elt Ideal)) : after (opsG (F := Ideal)) V (main_arg3 : DevRef τ sig) = V (main_arg3 : DevRef τ sig) := by
  unfold opsG
  after_results_simp

theorem keepG_main_arg4 (V : Valuation τ sig (Elt Ideal)) : after (opsG (F := Ideal)) V (main_arg4 : DevRef τ sig) = V (main_arg4 : DevRef τ sig) := by
  unfold opsG
  after_results_simp

theorem keepG_main_arg5 (V : Valuation τ sig (Elt Ideal)) : after (opsG (F := Ideal)) V (main_arg5 : DevRef τ sig) = V (main_arg5 : DevRef τ sig) := by
  unfold opsG
  after_results_simp

theorem keepG_main_arg6 (V : Valuation τ sig (Elt Ideal)) : after (opsG (F := Ideal)) V (main_arg6 : DevRef τ sig) = V (main_arg6 : DevRef τ sig) := by
  unfold opsG
  after_results_simp

theorem keepG_main_arg7 (V : Valuation τ sig (Elt Ideal)) : after (opsG (F := Ideal)) V (main_arg7 : DevRef τ sig) = V (main_arg7 : DevRef τ sig) := by
  unfold opsG
  after_results_simp

theorem keepG_main_arg8 (V : Valuation τ sig (Elt Ideal)) : after (opsG (F := Ideal)) V (main_arg8 : DevRef τ sig) = V (main_arg8 : DevRef τ sig) := by
  unfold opsG
  after_results_simp

theorem keepG_main_arg9 (V : Valuation τ sig (Elt Ideal)) : after (opsG (F := Ideal)) V (main_arg9 : DevRef τ sig) = V (main_arg9 : DevRef τ sig) := by
  unfold opsG
  after_results_simp

theorem keepG_main_arg10 (V : Valuation τ sig (Elt Ideal)) : after (opsG (F := Ideal)) V (main_arg10 : DevRef τ sig) = V (main_arg10 : DevRef τ sig) := by
  unfold opsG
  after_results_simp

theorem keepG_main_arg11 (V : Valuation τ sig (Elt Ideal)) : after (opsG (F := Ideal)) V (main_arg11 : DevRef τ sig) = V (main_arg11 : DevRef τ sig) := by
  unfold opsG
  after_results_simp

theorem keepG_main_arg12 (V : Valuation τ sig (Elt Ideal)) : after (opsG (F := Ideal)) V (main_arg12 : DevRef τ sig) = V (main_arg12 : DevRef τ sig) := by
  unfold opsG
  after_results_simp

theorem keepG_main_arg13 (V : Valuation τ sig (Elt Ideal)) : after (opsG (F := Ideal)) V (main_arg13 : DevRef τ sig) = V (main_arg13 : DevRef τ sig) := by
  unfold opsG
  after_results_simp

end Cert.RefChunks

end
-- ==== Proof.RefValue.lean ====
/-
  The reference's run read back: its seven stretches composed, the result array ends at `RefSpec.refOut` of the
  argument arrays, and no operation writes an argument.
-/
import proofs.«118196_j43138651521238_2_alg».proof.Proof.RefChunks

set_option maxRecDepth 16384

noncomputable section

namespace Cert.RefValue

open Cert.ReferenceIdeal Cert.ReferenceIdeal.Facts₀ Idealize.ShloMosaic Idealize.ShloMosaic.TcCoe Idealize.SL.Sem Idealize.ShloMosaic.StableHlo Cert.RefChunks

theorem split (V : Valuation τ sig (Elt Ideal)) :
    after (Cert.RefRun.ops (F := Ideal)) V
      = after (opsG (F := Ideal)) (after (opsF (F := Ideal)) (after (opsE (F := Ideal)) (after (opsD (F := Ideal)) (after (opsC (F := Ideal)) (after (opsB (F := Ideal)) (after (opsA (F := Ideal)) V)))))) := by
  rw [ops_eq (F := Ideal), after_append, after_append, after_append, after_append, after_append, after_append]

/-- The fold of all the reference's operations at its result buffer is the composition of its stages. -/
theorem out_eq (V : Valuation τ sig (Elt Ideal)) :
    after (Cert.RefRun.ops (F := Ideal)) V (main_v102 : DevRef τ sig)
      = Cert.RefSpec.refOut (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [split]
  rw [G_main_v102, F_main_v85, keepF_main_v1, keepF_main_v3, keepF_main_arg2, keepF_main_arg12, keepF_main_arg13,
    E_main_v64, E_main_v65, keepE_main_v61, keepE_main_v1, keepE_main_v3, keepE_main_arg2, keepE_main_arg10, keepE_main_arg11, keepE_main_arg12, keepE_main_arg13,
    D_main_v61, keepD_main_v1, keepD_main_v3, keepD_main_arg2, keepD_main_arg10, keepD_main_arg11, keepD_main_arg12, keepD_main_arg13,
    C_main_v44, keepC_main_v1, keepC_main_v3, keepC_main_arg2, keepC_main_arg8, keepC_main_arg9, keepC_main_arg10, keepC_main_arg11, keepC_main_arg12, keepC_main_arg13,
    B_main_v23, B_main_v24, keepB_main_v20, keepB_main_v1, keepB_main_v3, keepB_main_arg2, keepB_main_arg6, keepB_main_arg7, keepB_main_arg8, keepB_main_arg9, keepB_main_arg10, keepB_main_arg11, keepB_main_arg12, keepB_main_arg13,
    A_main_v20, A_main_v1, A_main_v3, keepA_main_arg2, keepA_main_arg6, keepA_main_arg7, keepA_main_arg8, keepA_main_arg9, keepA_main_arg10, keepA_main_arg11, keepA_main_arg12, keepA_main_arg13]
  rfl

theorem main_arg0_eq (V : Valuation τ sig (Elt Ideal)) :
    after (Cert.RefRun.ops (F := Ideal)) V (main_arg0 : DevRef τ sig) = V (main_arg0 : DevRef τ sig) := by
  rw [split]
  exact (keepG_main_arg0 _).trans ((keepF_main_arg0 _).trans ((keepE_main_arg0 _).trans ((keepD_main_arg0 _).trans ((keepC_main_arg0 _).trans ((keepB_main_arg0 _).trans ((keepA_main_arg0 _)))))))

theorem main_arg1_eq (V : Valuation τ sig (Elt Ideal)) :
    after (Cert.RefRun.ops (F := Ideal)) V (main_arg1 : DevRef τ sig) = V (main_arg1 : DevRef τ sig) := by
  rw [split]
  exact (keepG_main_arg1 _).trans ((keepF_main_arg1 _).trans ((keepE_main_arg1 _).trans ((keepD_main_arg1 _).trans ((keepC_main_arg1 _).trans ((keepB_main_arg1 _).trans ((keepA_main_arg1 _)))))))

theorem main_arg2_eq (V : Valuation τ sig (Elt Ideal)) :
    after (Cert.RefRun.ops (F := Ideal)) V (main_arg2 : DevRef τ sig) = V (main_arg2 : DevRef τ sig) := by
  rw [split]
  exact (keepG_main_arg2 _).trans ((keepF_main_arg2 _).trans ((keepE_main_arg2 _).trans ((keepD_main_arg2 _).trans ((keepC_main_arg2 _).trans ((keepB_main_arg2 _).trans ((keepA_main_arg2 _)))))))

theorem main_arg3_eq (V : Valuation τ sig (Elt Ideal)) :
    after (Cert.RefRun.ops (F := Ideal)) V (main_arg3 : DevRef τ sig) = V (main_arg3 : DevRef τ sig) := by
  rw [split]
  exact (keepG_main_arg3 _).trans ((keepF_main_arg3 _).trans ((keepE_main_arg3 _).trans ((keepD_main_arg3 _).trans ((keepC_main_arg3 _).trans ((keepB_main_arg3 _).trans ((keepA_main_arg3 _)))))))

theorem main_arg4_eq (V : Valuation τ sig (Elt Ideal)) :
    after (Cert.RefRun.ops (F := Ideal)) V (main_arg4 : DevRef τ sig) = V (main_arg4 : DevRef τ sig) := by
  rw [split]
  exact (keepG_main_arg4 _).trans ((keepF_main_arg4 _).trans ((keepE_main_arg4 _).trans ((keepD_main_arg4 _).trans ((keepC_main_arg4 _).trans ((keepB_main_arg4 _).trans ((keepA_main_arg4 _)))))))

theorem main_arg5_eq (V : Valuation τ sig (Elt Ideal)) :
    after (Cert.RefRun.ops (F := Ideal)) V (main_arg5 : DevRef τ sig) = V (main_arg5 : DevRef τ sig) := by
  rw [split]
  exact (keepG_main_arg5 _).trans ((keepF_main_arg5 _).trans ((keepE_main_arg5 _).trans ((keepD_main_arg5 _).trans ((keepC_main_arg5 _).trans ((keepB_main_arg5 _).trans ((keepA_main_arg5 _)))))))

theorem main_arg6_eq (V : Valuation τ sig (Elt Ideal)) :
    after (Cert.RefRun.ops (F := Ideal)) V (main_arg6 : DevRef τ sig) = V (main_arg6 : DevRef τ sig) := by
  rw [split]
  exact (keepG_main_arg6 _).trans ((keepF_main_arg6 _).trans ((keepE_main_arg6 _).trans ((keepD_main_arg6 _).trans ((keepC_main_arg6 _).trans ((keepB_main_arg6 _).trans ((keepA_main_arg6 _)))))))

theorem main_arg7_eq (V : Valuation τ sig (Elt Ideal)) :
    after (Cert.RefRun.ops (F := Ideal)) V (main_arg7 : DevRef τ sig) = V (main_arg7 : DevRef τ sig) := by
  rw [split]
  exact (keepG_main_arg7 _).trans ((keepF_main_arg7 _).trans ((keepE_main_arg7 _).trans ((keepD_main_arg7 _).trans ((keepC_main_arg7 _).trans ((keepB_main_arg7 _).trans ((keepA_main_arg7 _)))))))

theorem main_arg8_eq (V : Valuation τ sig (Elt Ideal)) :
    after (Cert.RefRun.ops (F := Ideal)) V (main_arg8 : DevRef τ sig) = V (main_arg8 : DevRef τ sig) := by
  rw [split]
  exact (keepG_main_arg8 _).trans ((keepF_main_arg8 _).trans ((keepE_main_arg8 _).trans ((keepD_main_arg8 _).trans ((keepC_main_arg8 _).trans ((keepB_main_arg8 _).trans ((keepA_main_arg8 _)))))))

theorem main_arg9_eq (V : Valuation τ sig (Elt Ideal)) :
    after (Cert.RefRun.ops (F := Ideal)) V (main_arg9 : DevRef τ sig) = V (main_arg9 : DevRef τ sig) := by
  rw [split]
  exact (keepG_main_arg9 _).trans ((keepF_main_arg9 _).trans ((keepE_main_arg9 _).trans ((keepD_main_arg9 _).trans ((keepC_main_arg9 _).trans ((keepB_main_arg9 _).trans ((keepA_main_arg9 _)))))))

theorem main_arg10_eq (V : Valuation τ sig (Elt Ideal)) :
    after (Cert.RefRun.ops (F := Ideal)) V (main_arg10 : DevRef τ sig) = V (main_arg10 : DevRef τ sig) := by
  rw [split]
  exact (keepG_main_arg10 _).trans ((keepF_main_arg10 _).trans ((keepE_main_arg10 _).trans ((keepD_main_arg10 _).trans ((keepC_main_arg10 _).trans ((keepB_main_arg10 _).trans ((keepA_main_arg10 _)))))))

theorem main_arg11_eq (V : Valuation τ sig (Elt Ideal)) :
    after (Cert.RefRun.ops (F := Ideal)) V (main_arg11 : DevRef τ sig) = V (main_arg11 : DevRef τ sig) := by
  rw [split]
  exact (keepG_main_arg11 _).trans ((keepF_main_arg11 _).trans ((keepE_main_arg11 _).trans ((keepD_main_arg11 _).trans ((keepC_main_arg11 _).trans ((keepB_main_arg11 _).trans ((keepA_main_arg11 _)))))))

theorem main_arg12_eq (V : Valuation τ sig (Elt Ideal)) :
    after (Cert.RefRun.ops (F := Ideal)) V (main_arg12 : DevRef τ sig) = V (main_arg12 : DevRef τ sig) := by
  rw [split]
  exact (keepG_main_arg12 _).trans ((keepF_main_arg12 _).trans ((keepE_main_arg12 _).trans ((keepD_main_arg12 _).trans ((keepC_main_arg12 _).trans ((keepB_main_arg12 _).trans ((keepA_main_arg12 _)))))))

theorem main_arg13_eq (V : Valuation τ sig (Elt Ideal)) :
    after (Cert.RefRun.ops (F := Ideal)) V (main_arg13 : DevRef τ sig) = V (main_arg13 : DevRef τ sig) := by
  rw [split]
  exact (keepG_main_arg13 _).trans ((keepF_main_arg13 _).trans ((keepE_main_arg13 _).trans ((keepD_main_arg13 _).trans ((keepC_main_arg13 _).trans ((keepB_main_arg13 _).trans ((keepA_main_arg13 _)))))))

/-- The reference's run: it terminates with its result at `refOut` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102) = Cert.RefSpec.refOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run (defs (F := Ideal)) _ _).mono (fun _ h c => ⟨(h c main_v102).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _),
      (h c main_arg12).trans (main_arg12_eq _),
      (h c main_arg13).trans (main_arg13_eq _)⟩)
    (Cert.RefRun.run_main (F := Ideal) m ρ)

end Cert.RefValue

end
-- ==== Proof.lean ====
/-
  The certificate: a three-layer graph network — weighted message passing, a dense layer, batch normalisation over
  the 100000 nodes and a leaky rectifier, twice, then a last message passing and dense layer — computed by five
  kernel launches between stretches of host operations, against the plain jnp reference.

  At the extended reals the two programs differ in one place only: the kernel accumulates the column sums S and the
  column sums of squares Q of each layer's pre-activations block by block and forms the variance as
  max (Q/N − (S/N)², 0), where the reference centres the matrix and averages the squares.  For matrices of real
  numbers these are the same number (expand the square; a mean of squares is not negative), and under the
  precondition every float input is real, which message passing, the dense layer and the normalisation carry
  forward.  Everything else — the dense layer a row block at a time, the blocked column sums, the entrywise
  normalisation on row blocks, the message passing on the host — is the same sum of the same products on both sides.
-/
import proofs.«118196_j43138651521238_2_alg».proof.Defs
import proofs.«118196_j43138651521238_2_alg».proof.Proof.Gen.Kernel
import proofs.«118196_j43138651521238_2_alg».proof.Proof.Gen.Kernel.Frame
import proofs.«118196_j43138651521238_2_alg».proof.Proof.Gen.KernelIdeal
import proofs.«118196_j43138651521238_2_alg».proof.Proof.Gen.KernelIdeal.Frame
import proofs.«118196_j43138651521238_2_alg».proof.Proof.Gen.ReferenceIdeal
import proofs.«118196_j43138651521238_2_alg».proof.Proof.Gen.Pre_finite_inputs
import proofs.«118196_j43138651521238_2_alg».proof.Proof.KRun
import proofs.«118196_j43138651521238_2_alg».proof.Proof.KChain
import proofs.«118196_j43138651521238_2_alg».proof.Proof.RefValue
import proofs.«118196_j43138651521238_2_alg».proof.Proof.Reals
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run (Cert.ReferenceIdeal.defs (F := Ideal)) _ _).mono (fun _ h c => (h c).2) (Cert.RefValue.run m ρ)

theorem preserves : Cert.preserves_Kernel_KernelIdeal := trivial

/-- Both idealized programs end with their result at the reference's function of the arguments. -/
theorem algebraic : Cert.algebraic_KernelIdeal_ReferenceIdeal := by
  intro m ρ m' ρ' hpre hagree
  refine ⟨fun c => Cert.RefSpec.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run (Cert.KernelIdeal.defs (F := Ideal)) _ _).mono (fun r h c => ⟨(h c).1.trans ?_, (h c).2⟩)
      (Cert.KernelIdeal.KRun.run (F := Ideal) m ρ)
    obtain ⟨h0, h2, h4, h5, h6, h7, h8, h9⟩ := Cert.Reals.of_pre _ _ _ _ _ _ _ _ _ _ _ _ _ _ (hpre c)
    exact Cert.KernelIdeal.KChain.value m ρ c h0 h2 h4 h5 h6 h7 h8 h9
  · refine (θ_run (Cert.ReferenceIdeal.defs (F := Ideal)) _ _).mono (fun r h c => ⟨(h c).1.trans ?_, (h c).2⟩)
      (Cert.RefValue.run m' ρ')
    obtain ⟨e0, e1, e2, e3, e4, e5, e6, e7, e8, e9, e10, e11, e12, e13⟩ := hagree c
    rw [e0, e1, e2, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
